-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128x256 .f32) (main_arg11 : FVec F S128 .f32) (main_v33 : IVec S_ 1) : IVec S_ 1 :=
  let main_v34 : FVec F S128x256 .f32 := Host.absf main_arg10
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S128 .f32) (main_arg8 : FVec F S256x256 .f32) (main_arg9 : FVec F S256 .f32) (main_arg10 : FVec F S128x256 .f32) (main_arg11 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_v33

def fn {F : FTy → Type} [FloatOps F] (main_arg0 : IVec S32x64 32) (main_arg1 : IVec S32x64x64 32) (main_arg2 : IVec S32x64 32) (main_arg3 : FVec F S32000x128 .f32) (main_arg4 : FVec F S256x256 .f32) (main_arg5 : FVec F S256 .f32) (main_arg6 : FVec F S128x256 .f32) (main_arg7 : FVec F S128 .f32) (main_arg8 : FVec F S256x256 .f32) (main_arg9 : FVec F S256 .f32) (main_arg10 : FVec F S128x256 .f32) (main_arg11 : FVec F S128 .f32) : IVec S_ 1 :=
  let main_v0 : FVec F S32000x128 .f32 := Host.absf main_arg3
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_arg8 main_arg9 main_arg10 main_arg11 main_v13 main_v16
-- ==== Kernel.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S32x64x1 : Shape := ⟨3, ![32, 64, 1]⟩
abbrev S32x64x128 : Shape := ⟨3, ![32, 64, 128]⟩
abbrev S256x128 : Shape := ⟨2, ![256, 128]⟩
abbrev S128x1024 : Shape := ⟨2, ![128, 1024]⟩
abbrev S1x256 : Shape := ⟨2, ![1, 256]⟩
abbrev S1x128 : Shape := ⟨2, ![1, 128]⟩
abbrev S1x64x128 : Shape := ⟨3, ![1, 64, 128]⟩
abbrev S1x64x64 : Shape := ⟨3, ![1, 64, 64]⟩
abbrev S64x128 : Shape := ⟨2, ![64, 128]⟩
abbrev S64x64 : Shape := ⟨2, ![64, 64]⟩
abbrev S64x64x1 : Shape := ⟨3, ![64, 64, 1]⟩
abbrev S64x1024 : Shape := ⟨2, ![64, 1024]⟩
abbrev S64x256 : Shape := ⟨2, ![64, 256]⟩
abbrev S1x64x256 : Shape := ⟨3, ![1, 64, 256]⟩
abbrev S64x1x256 : Shape := ⟨3, ![64, 1, 256]⟩
abbrev S64x64x256 : Shape := ⟨3, ![64, 64, 256]⟩
abbrev S1x1x256 : Shape := ⟨3, ![1, 1, 256]⟩
abbrev S4096x256 : Shape := ⟨2, ![4096, 256]⟩
abbrev S4096x128 : Shape := ⟨2, ![4096, 128]⟩
abbrev S64x64x128 : Shape := ⟨3, ![64, 64, 128]⟩
abbrev S32x1x128 : Shape := ⟨3, ![32, 1, 128]⟩
abbrev S32x128 : Shape := ⟨2, ![32, 128]⟩

abbrev nBuf : Space → Nat
  | .hbm => 42
  | .vmem => 13
  | .smem => 0
  | _ => 0

abbrev bufTy : (tb : Table) → Fin (tcTables nBuf tb) → BufTy
  | .hbm, ⟨0, _⟩ => ⟨S32x64, .i32⟩
  | .hbm, ⟨1, _⟩ => ⟨S32x64x64, .i32⟩
  | .hbm, ⟨2, _⟩ => ⟨S32x64, .i32⟩
  | .hbm, ⟨3, _⟩ => ⟨S32000x128, .f32⟩
  | .hbm, ⟨4, _⟩ => ⟨S256x256, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S_, .i32⟩
  | .hbm, ⟨13, _⟩ => ⟨S32x64, .i32⟩
  | .hbm, ⟨14, _⟩ => ⟨S32x64, .i1⟩
  | .hbm, ⟨15, _⟩ => ⟨S_, .i32⟩
  | .hbm, ⟨16, _⟩ => ⟨S32x64, .i32⟩
  | .hbm, ⟨17, _⟩ => ⟨S32x64, .i32⟩
  | .hbm, ⟨18, _⟩ => ⟨S32x64, .i32⟩
  | .hbm, ⟨19, _⟩ => ⟨S32x64x1, .i32⟩
  | .hbm, ⟨20, _⟩ => ⟨S32x64x128, .f32⟩
  | .hbm, ⟨21, _⟩ => ⟨S256x128, .f32⟩
  | .hbm, ⟨22, _⟩ => ⟨S128x256, .f32⟩
  | .hbm, ⟨23, _⟩ => ⟨S256x128, .f32⟩
  | .hbm, ⟨24, _⟩ => ⟨S128x256, .f32⟩
  | .hbm, ⟨25, _⟩ => ⟨S256x128, .f32⟩
  | .hbm, ⟨26, _⟩ => ⟨S128x256, .f32⟩
  | .hbm, ⟨27, _⟩ => ⟨S256x128, .f32⟩
  | .hbm, ⟨28, _⟩ => ⟨S128x256, .f32⟩
  | .hbm, ⟨29, _⟩ => ⟨S128x1024, .f32⟩
  | .hbm, ⟨30, _⟩ => ⟨S128x1024, .bf16⟩
  | .hbm, ⟨31, _⟩ => ⟨S256x128, .f32⟩
  | .hbm, ⟨32, _⟩ => ⟨S256x128, .bf16⟩
  | .hbm, ⟨33, _⟩ => ⟨S256x128, .f32⟩
  | .hbm, ⟨34, _⟩ => ⟨S256x128, .bf16⟩
  | .hbm, ⟨35, _⟩ => ⟨S1x256, .f32⟩
  | .hbm, ⟨36, _⟩ => ⟨S1x256, .f32⟩
  | .hbm, ⟨37, _⟩ => ⟨S1x128, .f32⟩
  | .hbm, ⟨38, _⟩ => ⟨S1x128, .f32⟩
  | .hbm, ⟨39, _⟩ => ⟨S32x64x128, .f32⟩
  | .hbm, ⟨40, _⟩ => ⟨S32x1x128, .f32⟩
  | .hbm, ⟨41, _⟩ => ⟨S32x128, .f32⟩
  | .local _ .vmem, ⟨0, _⟩ => ⟨S1x64x128, .f32⟩
  | .local _ .vmem, ⟨1, _⟩ => ⟨S1x64x128, .f32⟩
  | .local _ .vmem, ⟨2, _⟩ => ⟨S1x64x64, .i32⟩
  | .local _ .vmem, ⟨3, _⟩ => ⟨S1x64x64, .i32⟩
  | .local _ .vmem, ⟨4, _⟩ => ⟨S128x1024, .bf16⟩
  | .local _ .vmem, ⟨5, _⟩ => ⟨S1x256, .f32⟩
  | .local _ .vmem, ⟨6, _⟩ => ⟨S1x256, .f32⟩
  | .local _ .vmem, ⟨7, _⟩ => ⟨S256x128, .bf16⟩
  | .local _ .vmem, ⟨8, _⟩ => ⟨S1x128, .f32⟩
  | .local _ .vmem, ⟨9, _⟩ => ⟨S256x128, .bf16⟩
  | .local _ .vmem, ⟨10, _⟩ => ⟨S1x128, .f32⟩
  | .local _ .vmem, ⟨11, _⟩ => ⟨S1x64x128, .f32⟩
  | .local _ .vmem, ⟨12, _⟩ => ⟨S1x64x128, .f32⟩
  | _, _ => ⟨S32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  slices_S256x256_S256x128_0_0 : S256x256.Slices ![0, 0] S256x128
  transposes_S256x128_S128x256_1_0 : S256x128.Transposes [1, 0] S128x256
  slices_S256x256_S256x128_0_128 : S256x256.Slices ![0, 128] S256x128
  concatenates_S128x256_S128x256_S128x256_S128x256_S128x1024_d1 : Shape.Concatenates [S128x256, S128x256, S128x256, S128x256] S128x1024 1
  bitsLt_bf16_f32 : FTy.bits .bf16 < FTy.bits .f32
  transposes_S128x256_S256x128_1_0 : S128x256.Transposes [1, 0] S256x128
  shapeCasts_S256_S1x256 : S256.ShapeCasts S1x256
  shapeCasts_S128_S1x128 : S128.ShapeCasts S1x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S64x64x1 : S64x64.ShapeCasts S64x64x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S64x1024_o0_0_S64x256 : S64x1024.Slices ![0, 0] S64x256
  slices_S64x1024_o0_256_S64x256 : S64x1024.Slices ![0, 256] S64x256
  slices_S64x1024_o0_512_S64x256 : S64x1024.Slices ![0, 512] S64x256
  slices_S64x1024_o0_768_S64x256 : S64x1024.Slices ![0, 768] S64x256
  shapeCasts_S64x256_S1x64x256 : S64x256.ShapeCasts S1x64x256
  shapeCasts_S64x256_S64x1x256 : S64x256.ShapeCasts S64x1x256
  broadcasts_S1x64x256_S64x64x256 : S1x64x256.Broadcasts S64x64x256
  broadcasts_S64x1x256_S64x64x256 : S64x1x256.Broadcasts S64x64x256
  shapeCasts_S1x256_S1x1x256 : S1x256.ShapeCasts S1x1x256
  broadcasts_S1x1x256_S64x64x256 : S1x1x256.Broadcasts S64x64x256
  shapeCasts_S64x64x256_S4096x256 : S64x64x256.ShapeCasts S4096x256
  broadcasts_S1x128_S4096x128 : S1x128.Broadcasts S4096x128
  shapeCasts_S4096x128_S64x64x128 : S4096x128.ShapeCasts S64x64x128
  broadcasts_S64x64x1_S64x64x128 : S64x64x1.Broadcasts S64x64x128
  reduces_S64x64x128_S64x128 : S64x64x128.Reduces [1] S64x128
  shapeCasts_S64x128_S1x64x128 : S64x128.ShapeCasts S1x64x128
  slices_S32x64x128_S32x1x128_0_0_0 : S32x64x128.Slices ![0, 0, 0] S32x1x128
  shapeCasts_S32x1x128_S32x128 : S32x1x128.ShapeCasts S32x128
  gather_S32000x128_S32x64x1_S32x64x128_2_0_n_n_0_2_1128_wf : GatherDims.WF S32000x128 S32x64x1 S32x64x128 [2] [0] [] [0] [] 2 ![1, 128]
  dot_S64x128_S128x1024_S64x1024_1_0_0_1_n_n_wf : DotDims.WF S64x128 S128x1024 S64x1024 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S32x64x64.size a
  hwx0_1 : ∀ i : grid0.Coords, EltTy.bits .i32 = 32 ∨ (Rect.block (s := S32x64x64) S1x64x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x128.size a ≤ S32x64x128.size a
  hwx0_9 : ∀ i : grid0.Coords, EltTy.bits .f32 = 32 ∨ (Rect.block (s := S32x64x128) S1x64x128.size (cc0_transform_9 i) (hinb0_9 i)).WholeWords (EltTy.packing .f32)

variable [Facts₀]

def gather_S32000x128_S32x64x1_S32x64x128_2_0_n_n_0_2_1128 : GatherDims S32000x128 S32x64x1 S32x64x128 where
  offsetDims := [2]
  collapsedSliceDims := [0]
  operandBatchingDims := []
  startIndicesBatchingDims := []
  startIndexMap := [0]
  indexVectorDim := 2
  sliceSizes := ![1, 128]
  wf := gather_S32000x128_S32x64x1_S32x64x128_2_0_n_n_0_2_1128_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v6) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64 : Shape := ⟨2, ![32, 64]⟩
abbrev S32x64x64 : Shape := ⟨3, ![32, 64, 64]⟩
abbrev S32000x128 : Shape := ⟨2, ![32000, 128]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S32x64x1 : Shape := ⟨3, ![32, 64, 1]⟩
abbrev S32x64x128 : Shape := ⟨3, ![32, 64, 128]⟩
abbrev S32x64x64x1 : Shape := ⟨4, ![32, 64, 64, 1]⟩
abbrev S32x1x64x128 : Shape := ⟨4, ![32, 1, 64, 128]⟩
abbrev S32x64x64x128 : Shape := ⟨4, ![32, 64, 64, 128]⟩
abbrev S32x64x1x128 : Shape := ⟨4, ![32, 64, 1, 128]⟩
abbrev S32x64x64x256 : Shape := ⟨4, ![32, 64, 64, 256]⟩
abbrev S1x1x1x256 : Shape := ⟨4, ![1, 1, 1, 256]⟩
abbrev S1x1x1x128 : Shape := ⟨4, ![1, 1, 1, 128]⟩
abbrev S32x1x128 : Shape := ⟨3, ![32, 1, 128]⟩
abbrev S32x128 : Shape := ⟨2, ![32, 128]⟩

abbrev nBuf : Space → Nat
  | .hbm => 157
  | .vmem => 0
  | .smem => 0
  | _ => 0

abbrev hbmTy0_0 (i : Nat) : BufTy := match i % 128 with
  | 0 => ⟨S32x64, .i32⟩
  | 1 => ⟨S32x64x64, .i32⟩
  | 2 => ⟨S32x64, .i32⟩
  | 3 => ⟨S32000x128, .f32⟩
  | 4 => ⟨S256x256, .f32⟩
  | 5 => ⟨S256, .f32⟩
  | 6 => ⟨S128x256, .f32⟩
  | 7 => ⟨S128, .f32⟩
  | 8 => ⟨S256x256, .f32⟩
  | 9 => ⟨S256, .f32⟩
  | 10 => ⟨S128x256, .f32⟩
  | 11 => ⟨S128, .f32⟩
  | 12 => ⟨S_, .i32⟩
  | 13 => ⟨S32x64, .i32⟩
  | 14 => ⟨S32x64, .i1⟩
  | 15 => ⟨S_, .i32⟩
  | 16 => ⟨S32x64, .i32⟩
  | 17 => ⟨S32x64, .i32⟩
  | 18 => ⟨S32x64, .i32⟩
  | 19 => ⟨S32x64x1, .i32⟩
  | 20 => ⟨S32x64x128, .f32⟩
  | 21 => ⟨S32x64x64, .f32⟩
  | 22 => ⟨S32x64x64x1, .f32⟩
  | 23 => ⟨S32x1x64x128, .f32⟩
  | 24 => ⟨S32x64x64x128, .f32⟩
  | 25 => ⟨S32x64x1x128, .f32⟩
  | 26 => ⟨S32x64x64x128, .f32⟩
  | 27 => ⟨S32x64x64x256, .f32⟩
  | 28 => ⟨S32x64x64x256, .f32⟩
  | 29 => ⟨S1x1x1x256, .f32⟩
  | 30 => ⟨S32x64x64x256, .f32⟩
  | 31 => ⟨S32x64x64x256, .f32⟩
  | 32 => ⟨S_, .f32⟩
  | 33 => ⟨S32x64x64x256, .f32⟩
  | 34 => ⟨S32x64x64x256, .f32⟩
  | 35 => ⟨S32x64x64x128, .f32⟩
  | 36 => ⟨S1x1x1x128, .f32⟩
  | 37 => ⟨S32x64x64x128, .f32⟩
  | 38 => ⟨S32x64x64x128, .f32⟩
  | 39 => ⟨S_, .f32⟩
  | 40 => ⟨S32x64x64x128, .f32⟩
  | 41 => ⟨S32x64x64x128, .f32⟩
  | 42 => ⟨S32x64x64x256, .f32⟩
  | 43 => ⟨S1x1x1x256, .f32⟩
  | 44 => ⟨S32x64x64x256, .f32⟩
  | 45 => ⟨S32x64x64x256, .f32⟩
  | 46 => ⟨S_, .f32⟩
  | 47 => ⟨S32x64x64x256, .f32⟩
  | 48 => ⟨S32x64x64x256, .f32⟩
  | 49 => ⟨S32x64x64x128, .f32⟩
  | 50 => ⟨S1x1x1x128, .f32⟩
  | 51 => ⟨S32x64x64x128, .f32⟩
  | 52 => ⟨S32x64x64x128, .f32⟩
  | 53 => ⟨S_, .f32⟩
  | 54 => ⟨S32x64x64x128, .f32⟩
  | 55 => ⟨S32x64x64x128, .f32⟩
  | 56 => ⟨S_, .f32⟩
  | 57 => ⟨S32x64x64x1, .f32⟩
  | 58 => ⟨S32x64x64x1, .f32⟩
  | 59 => ⟨S32x64x64x128, .f32⟩
  | 60 => ⟨S32x64x64x128, .f32⟩
  | 61 => ⟨S32x64x64x128, .f32⟩
  | 62 => ⟨S32x64x64x128, .f32⟩
  | 63 => ⟨S32x64x64x128, .f32⟩
  | 64 => ⟨S_, .f32⟩
  | 65 => ⟨S32x64x128, .f32⟩
  | 66 => ⟨S32x64x128, .f32⟩
  | 67 => ⟨S32x1x64x128, .f32⟩
  | 68 => ⟨S32x64x64x128, .f32⟩
  | 69 => ⟨S32x64x1x128, .f32⟩
  | 70 => ⟨S32x64x64x128, .f32⟩
  | 71 => ⟨S32x64x64x256, .f32⟩
  | 72 => ⟨S32x64x64x256, .f32⟩
  | 73 => ⟨S1x1x1x256, .f32⟩
  | 74 => ⟨S32x64x64x256, .f32⟩
  | 75 => ⟨S32x64x64x256, .f32⟩
  | 76 => ⟨S_, .f32⟩
  | 77 => ⟨S32x64x64x256, .f32⟩
  | 78 => ⟨S32x64x64x256, .f32⟩
  | 79 => ⟨S32x64x64x128, .f32⟩
  | 80 => ⟨S1x1x1x128, .f32⟩
  | 81 => ⟨S32x64x64x128, .f32⟩
  | 82 => ⟨S32x64x64x128, .f32⟩
  | 83 => ⟨S_, .f32⟩
  | 84 => ⟨S32x64x64x128, .f32⟩
  | 85 => ⟨S32x64x64x128, .f32⟩
  | 86 => ⟨S32x64x64x256, .f32⟩
  | 87 => ⟨S1x1x1x256, .f32⟩
  | 88 => ⟨S32x64x64x256, .f32⟩
  | 89 => ⟨S32x64x64x256, .f32⟩
  | 90 => ⟨S_, .f32⟩
  | 91 => ⟨S32x64x64x256, .f32⟩
  | 92 => ⟨S32x64x64x256, .f32⟩
  | 93 => ⟨S32x64x64x128, .f32⟩
  | 94 => ⟨S1x1x1x128, .f32⟩
  | 95 => ⟨S32x64x64x128, .f32⟩
  | 96 => ⟨S32x64x64x128, .f32⟩
  | 97 => ⟨S_, .f32⟩
  | 98 => ⟨S32x64x64x128, .f32⟩
  | 99 => ⟨S32x64x64x128, .f32⟩
  | 100 => ⟨S_, .f32⟩
  | 101 => ⟨S32x64x64x1, .f32⟩
  | 102 => ⟨S32x64x64x1, .f32⟩
  | 103 => ⟨S32x64x64x128, .f32⟩
  | 104 => ⟨S32x64x64x128, .f32⟩
  | 105 => ⟨S32x64x64x128, .f32⟩
  | 106 => ⟨S32x64x64x128, .f32⟩
  | 107 => ⟨S32x64x64x128, .f32⟩
  | 108 => ⟨S_, .f32⟩
  | 109 => ⟨S32x64x128, .f32⟩
  | 110 => ⟨S32x64x128, .f32⟩
  | 111 => ⟨S32x1x64x128, .f32⟩
  | 112 => ⟨S32x64x64x128, .f32⟩
  | 113 => ⟨S32x64x1x128, .f32⟩
  | 114 => ⟨S32x64x64x128, .f32⟩
  | 115 => ⟨S32x64x64x256, .f32⟩
  | 116 => ⟨S32x64x64x256, .f32⟩
  | 117 => ⟨S1x1x1x256, .f32⟩
  | 118 => ⟨S32x64x64x256, .f32⟩
  | 119 => ⟨S32x64x64x256, .f32⟩
  | 120 => ⟨S_, .f32⟩
  | 121 => ⟨S32x64x64x256, .f32⟩
  | 122 => ⟨S32x64x64x256, .f32⟩
  | 123 => ⟨S32x64x64x128, .f32⟩
  | 124 => ⟨S1x1x1x128, .f32⟩
  | 125 => ⟨S32x64x64x128, .f32⟩
  | 126 => ⟨S32x64x64x128, .f32⟩
  | 127 => ⟨S_, .f32⟩
  | _ => ⟨S32x64, .i32⟩

abbrev hbmTy0_1 (i : Nat) : BufTy := match i % 128 with
  | 0 => ⟨S32x64x64x128, .f32⟩
  | 1 => ⟨S32x64x64x128, .f32⟩
  | 2 => ⟨S32x64x64x256, .f32⟩
  | 3 => ⟨S1x1x1x256, .f32⟩
  | 4 => ⟨S32x64x64x256, .f32⟩
  | 5 => ⟨S32x64x64x256, .f32⟩
  | 6 => ⟨S_, .f32⟩
  | 7 => ⟨S32x64x64x256, .f32⟩
  | 8 => ⟨S32x64x64x256, .f32⟩
  | 9 => ⟨S32x64x64x128, .f32⟩
  | 10 => ⟨S1x1x1x128, .f32⟩
  | 11 => ⟨S32x64x64x128, .f32⟩
  | 12 => ⟨S32x64x64x128, .f32⟩
  | 13 => ⟨S_, .f32⟩
  | 14 => ⟨S32x64x64x128, .f32⟩
  | 15 => ⟨S32x64x64x128, .f32⟩
  | 16 => ⟨S_, .f32⟩
  | 17 => ⟨S32x64x64x1, .f32⟩
  | 18 => ⟨S32x64x64x1, .f32⟩
  | 19 => ⟨S32x64x64x128, .f32⟩
  | 20 => ⟨S32x64x64x128, .f32⟩
  | 21 => ⟨S32x64x64x128, .f32⟩
  | 22 => ⟨S32x64x64x128, .f32⟩
  | 23 => ⟨S32x64x64x128, .f32⟩
  | 24 => ⟨S_, .f32⟩
  | 25 => ⟨S32x64x128, .f32⟩
  | 26 => ⟨S32x64x128, .f32⟩
  | 27 => ⟨S32x1x128, .f32⟩
  | 28 => ⟨S32x128, .f32⟩
  | _ => ⟨S32x64, .i32⟩

abbrev hbmTy (i : Nat) : BufTy := match i / 128 with
  | 0 => hbmTy0_0 i
  | 1 => hbmTy0_1 i
  | _ => ⟨S32x64, .i32⟩

abbrev bufTy : (tb : Table) → Fin (tcTables nBuf tb) → BufTy
  | .hbm, ⟨i, _⟩ => hbmTy i
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_cst : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call3_cst : Ref sig .tc := ⟨.hbm, 53, rfl⟩
abbrev main_call3_v0 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call4_cst : Ref sig .tc := ⟨.hbm, 76, rfl⟩
abbrev main_call4_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call5_cst : Ref sig .tc := ⟨.hbm, 83, rfl⟩
abbrev main_call5_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call6_cst : Ref sig .tc := ⟨.hbm, 90, rfl⟩
abbrev main_call6_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call7_cst : Ref sig .tc := ⟨.hbm, 97, rfl⟩
abbrev main_call7_v0 : Ref sig .tc := ⟨.hbm, 98, rfl⟩
abbrev main_v67 : Ref sig .tc := ⟨.hbm, 99, rfl⟩
abbrev main_cst_2 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_3 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call8_cst : Ref sig .tc := ⟨.hbm, 120, rfl⟩
abbrev main_call8_v0 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call9_cst : Ref sig .tc := ⟨.hbm, 127, rfl⟩
abbrev main_call9_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call10_cst : Ref sig .tc := ⟨.hbm, 134, rfl⟩
abbrev main_call10_v0 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call11_cst : Ref sig .tc := ⟨.hbm, 141, rfl⟩
abbrev main_call11_v0 : Ref sig .tc := ⟨.hbm, 142, rfl⟩
abbrev main_v101 : Ref sig .tc := ⟨.hbm, 143, rfl⟩
abbrev main_cst_4 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_5 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]

class Facts₀ : Prop where
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x64_S32x64x64x1_0_1_2 : S32x64x64.BroadcastsInDim S32x64x64x1 (![0, 1, 2] : Fin 3 → Fin S32x64x64x1.rank)
  bcast_S32x64x128_S32x1x64x128_0_2_3 : S32x64x128.BroadcastsInDim S32x1x64x128 (![0, 2, 3] : Fin 3 → Fin S32x1x64x128.rank)
  bcast_S32x1x64x128_S32x64x64x128_0_1_2_3 : S32x1x64x128.BroadcastsInDim S32x64x64x128 (![0, 1, 2, 3] : Fin 4 → Fin S32x64x64x128.rank)
  bcast_S32x64x128_S32x64x1x128_0_1_3 : S32x64x128.BroadcastsInDim S32x64x1x128 (![0, 1, 3] : Fin 3 → Fin S32x64x1x128.rank)
  bcast_S32x64x1x128_S32x64x64x128_0_1_2_3 : S32x64x1x128.BroadcastsInDim S32x64x64x128 (![0, 1, 2, 3] : Fin 4 → Fin S32x64x64x128.rank)
  concatenates_S32x64x64x128_S32x64x64x128_S32x64x64x256_d3 : Shape.Concatenates [S32x64x64x128, S32x64x64x128] S32x64x64x256 3
  bcast_S256_S1x1x1x256_3 : S256.BroadcastsInDim S1x1x1x256 (![3] : Fin 1 → Fin S1x1x1x256.rank)
  bcast_S1x1x1x256_S32x64x64x256_0_1_2_3 : S1x1x1x256.BroadcastsInDim S32x64x64x256 (![0, 1, 2, 3] : Fin 4 → Fin S32x64x64x256.rank)
  bcast_S_S32x64x64x256 : S_.BroadcastsInDim S32x64x64x256 (![] : Fin 0 → Fin S32x64x64x256.rank)
  bcast_S128_S1x1x1x128_3 : S128.BroadcastsInDim S1x1x1x128 (![3] : Fin 1 → Fin S1x1x1x128.rank)
  bcast_S1x1x1x128_S32x64x64x128_0_1_2_3 : S1x1x1x128.BroadcastsInDim S32x64x64x128 (![0, 1, 2, 3] : Fin 4 → Fin S32x64x64x128.rank)
  bcast_S_S32x64x64x128 : S_.BroadcastsInDim S32x64x64x128 (![] : Fin 0 → Fin S32x64x64x128.rank)
  bcast_S_S32x64x64x1 : S_.BroadcastsInDim S32x64x64x1 (![] : Fin 0 → Fin S32x64x64x1.rank)
  bcast_S32x64x64x1_S32x64x64x128_0_1_2_3 : S32x64x64x1.BroadcastsInDim S32x64x64x128 (![0, 1, 2, 3] : Fin 4 → Fin S32x64x64x128.rank)
  reducesTo_S32x64x64x128_S32x64x128_d2 : S32x64x64x128.ReducesTo [2] S32x64x128
  h_S_ : 0 < S_.numel
  slices_S32x64x128_S32x1x128_0_0_0 : S32x64x128.Slices ![0, 0, 0] S32x1x128
  shapeCasts_S32x1x128_S32x128 : S32x1x128.ShapeCasts S32x128
  gather_S32000x128_S32x64x1_S32x64x128_2_0_n_n_0_2_1128_wf : GatherDims.WF S32000x128 S32x64x1 S32x64x128 [2] [0] [] [0] [] 2 ![1, 128]
  dot_S32x64x64x256_S256x256_S32x64x64x256_3_1_012_0_n_n_wf : DotDims.WF S32x64x64x256 S256x256 S32x64x64x256 [3] [1] [0, 1, 2] [0] [] []
  dot_S32x64x64x256_S128x256_S32x64x64x128_3_1_012_0_n_n_wf : DotDims.WF S32x64x64x256 S128x256 S32x64x64x128 [3] [1] [0, 1, 2] [0] [] []

variable [Facts₀]

def gather_S32000x128_S32x64x1_S32x64x128_2_0_n_n_0_2_1128 : GatherDims S32000x128 S32x64x1 S32x64x128 where
  offsetDims := [2]
  collapsedSliceDims := [0]
  operandBatchingDims := []
  startIndicesBatchingDims := []
  startIndexMap := [0]
  indexVectorDim := 2
  sliceSizes := ![1, 128]
  wf := gather_S32000x128_S32x64x1_S32x64x128_2_0_n_n_0_2_1128_wf
def dot_S32x64x64x256_S256x256_S32x64x64x256_3_1_012_0_n_n : DotDims S32x64x64x256 S256x256 S32x64x64x256 where
  lhsContracting := [3]
  rhsContracting := [1]
  lhsNonContracting := [0, 1, 2]
  rhsNonContracting := [0]
  lhsBatch := []
  rhsBatch := []
  wf := dot_S32x64x64x256_S256x256_S32x64x64x256_3_1_012_0_n_n_wf
def dot_S32x64x64x256_S128x256_S32x64x64x128_3_1_012_0_n_n : DotDims S32x64x64x256 S128x256 S32x64x64x128 where
  lhsContracting := [3]
  rhsContracting := [1]
  lhsNonContracting := [0, 1, 2]
  rhsNonContracting := [0]
  lhsBatch := []
  rhsBatch := []
  wf := dot_S32x64x64x256_S128x256_S32x64x64x128_3_1_012_0_n_n_wf

class Facts : Prop extends Facts₀ where

variable [Facts]
-- ==== Proof.StoredBits.lean ====
/-
  The value the kernel body stores, as one term of the blocks it loads.

  One grid point handles one batch. The body loads the batch's embedding block [1,64,128], its edge-type block
  [1,64,64], the packed first-layer weights [128,1024], the two first-layer biases [1,256], the two second-layer
  weights [256,128] and their biases [1,128]; it runs three rounds of message passing on the [64,128] embeddings
  and stores the result, recast to [1,64,128], over the whole output block. `stored` is that stored value: the
  skeleton's payloads composed in the order the body computes them.
-/
import proofs.«175625_j65085934403743_2_alg».proof.Proof.Gen.Kernel.Skeleton

noncomputable section

namespace Cert.Kernel.Hand

open Idealize.ShloMosaic Cert.Kernel Cert.Kernel.Gen

variable {F : FTy → Type} [FloatOps F]

/-- The value stored over the output block, from the nine loaded blocks: embeddings `e`, edge types `arc`, packed
    first-layer weights `wcat`, first-layer biases `b10` `b11`, second-layer weights `w20` `w21` and biases
    `b20` `b21`. -/
def stored (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) : FVec F S1x64x128 .f32 :=
  let v1 := k0_pay2 e
  let v5 := k0_pay3 arc
  let v7 := k0_pay4 wcat
  let v9 := k0_pay5 b10
  let v11 := k0_pay6 b11
  let v13 := k0_pay7 w20
  let v15 := k0_pay8 w21
  let v17 := k0_pay9 b20
  let v19 := k0_pay10 b21
  let v25 := k0_pay12 e wcat
  let v35 := k0_pay13 e wcat b10
  let v36 := k0_pay14 e wcat
  let v67 := k0_pay15 v1 v5 v11 v13 v15 v17 v19 v25 v35 v36
  let v83 := k0_pay17 v1 v5 v7 v9 v11 v13 v15 v17 v19 v25 v35 v36
  let v88 := k0_pay18 v1 v5 v7 v11 v13 v15 v17 v19 v25 v35 v36
  let v115 := k0_pay19 v5 v11 v13 v15 v17 v19 v67 v83 v88
  let v131 := k0_pay21 v5 v7 v9 v11 v13 v15 v17 v19 v67 v83 v88
  let v139 := k0_pay22 v5 v7 v11 v13 v15 v17 v19 v67 v83 v88
  k0_pay1 v5 v13 v15 v17 v19 v115 v131 v139 (Scalar.ofBits .f32 0x00000000#32)

end Cert.Kernel.Hand

end
-- ==== Proof.FrameBits.lean ====
/-
  The frame of the message-passing program: how a core's buffers travel through @main.

  @main first prepares the kernel's operands with host operations (the embeddings gathered by token, the four
  first-layer weight slices transposed and laid side by side into one packed matrix, the second-layer weights
  transposed, the biases recast as rows), then runs ONE grid of 32 points, one per batch, over ten windows (nine
  inputs and the output), and last cuts the result down with two more host operations. This module follows one core's
  buffers along that road: what they hold when the grid is entered, which block of each window a point is handed,
  what the body leaves in the output block (the value `stored` of the nine input blocks), that every point's body
  meets its obligation, and hence that the whole program runs and ends with its twelve arguments as it found them.
-/
import proofs.«175625_j65085934403743_2_alg».proof.Proof.Gen.Kernel.Launch
import proofs.«175625_j65085934403743_2_alg».proof.Proof.Gen.Kernel.Skeleton
import proofs.«175625_j65085934403743_2_alg».proof.Proof.Gen.Kernel.Points
import proofs.«175625_j65085934403743_2_alg».proof.Proof.StoredBits
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the grid is entered -/

/-- A core's TensorCore buffers at the moment the grid is entered: the launch memory carried through the host
    operations that precede it. -/
abbrev entryVals (c : Dev nD) : Valuation τ sig (Elt F) := StableHlo.after (List.flatten [hostOps0]) (fun b => m (c, b))
/-- One buffer of them. -/
abbrev entryAt (c : Dev nD) (b : Ref sig .tc) : Buf (Elt F) ((c : Thread nD τ).loc b) := entryVals m c (Proc.devRef .tc b)

/-- The buffers the operations before the grid write: each operation's own result and nothing else. The packed
    weight matrix `main_v15` is the one result of the four-operand concatenation. -/
def prefixResults : List (Ref sig .tc) :=
  [main_c, main_v0, main_v1, main_c_0, main_v2, main_v3, main_v4, main_v5, main_v6, main_v7, main_v8, main_v9, main_v10, main_v11, main_v12, main_v13, main_v14, main_v15, main_v16, main_v17, main_v18, main_v19, main_v20, main_v21, main_v22, main_v23, main_v24]
/-- The buffers the two operations after the grid write. -/
def suffixResults : List (Ref sig .tc) := [main_v26, main_v27]

/-- Every operation before the grid writes only into `prefixResults`: an operation of any arity, the concatenation of
    four operands included, writes its single result buffer. -/
theorem prefix_writes : (List.flatten [hostOps0] : List (HloOp τ sig (Elt F))).Forall fun op =>
    op.writes ⊆ (prefixResults.map (Proc.devRef (τ := τ) .tc)).toFinset := by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- Every operation after the grid writes only into `suffixResults`. -/
theorem suffix_writes : (List.flatten [hostOps1] : List (HloOp τ sig (Elt F))).Forall fun op =>
    op.writes ⊆ (suffixResults.map (Proc.devRef (τ := τ) .tc)).toFinset := by
  simp only [hostOps1, List.flatten_cons, List.flatten_nil, List.append_nil, List.cons_append, List.nil_append, List.Forall,
    StableHlo.unary_writes, StableHlo.reshape_writes, Finset.singleton_subset_iff, List.mem_toFinset]
  repeat' apply And.intro
  all_goals exact List.mem_map_of_mem (by decide)

/-- A buffer that is no operation's result is entered as launched. -/
theorem entryAt_of_not_result (c : Dev nD) {b : Ref sig .tc} (hb : b ∉ prefixResults) :
    entryAt m c b = m ((c : Thread nD τ).loc b) :=
  StableHlo.after_of_writes_sub _ _ prefix_writes hb

/-- The host operations allocate nothing. -/
theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- @main is the operations before the grid, the grid, the operations after it: run from the launch memory it reaches
    the grid with the buffers at `entryAt`, and what remains to run is the grid followed by the last two operations. -/
theorem main_around (𝒱₀ : Variants) : Pipeline.HMainK (Ix := Unit) (Name := ℕ) (U := UR sig nD τ) (Lvl := ℕ) cfgs 0 defs₀ 𝒱₀ m
    (main (F := F)) (entryAt m) (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The two last operations touch only unscoped TensorCore buffers: window arrays and buffers that bypass the grid. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
theorem suffix_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp suffix_allocates_nothing) op hop
/-- They write no window's array: their results are the sliced and the recast output, which no window stages. -/
theorem suffix_spares_windows : ∀ ops ∈ ([hostOps1] : List (List (HloOp τ sig (Elt F)))), ∀ op ∈ ops,
    ∀ w, Proc.devRef .tc (Pipeline.arrRef spec0 w) ∉ op.writes := by
  intro ops hops op hop w hw
  obtain rfl : ops = hostOps1 := by simpa using hops
  have hin := (List.forall_iff_forall_mem.mp (suffix_writes (F := F))) op
    (by simpa only [List.flatten_cons, List.flatten_nil, List.append_nil] using hop) hw
  obtain ⟨y, hy, he⟩ := List.mem_map.mp (List.mem_toFinset.mp hin)
  exact (by decide : ∀ w, Pipeline.arrRef spec0 w ∉ suffixResults) w (Proc.devRef_injective _ he ▸ hy)

/-- A buffer that no operation writes and no window stages ends the program as launched: the last two operations leave
    it, the grid never sees it, the first operations leave it. -/
theorem kept_of_untouched (dats : (p : Fin _) → (c : Dev nD) → Dat τ (Elt F) Unit ℕ (UR sig nD τ) ℕ (cfgs p) c) (c : Dev nD)
    {b : Ref sig .tc} (hpre : b ∉ prefixResults) (hsuf : b ∉ suffixResults) (hwin : ∀ w, Pipeline.arrRef spec0 w ≠ b) :
    Pipeline.afterTail₀ cfgs dats 0 (entryVals m) [hostOps1] c b = m ((c : Thread nD τ).loc b) := by
  unfold Pipeline.afterTail₀
  rw [StableHlo.after_of_writes_sub _ _ suffix_writes hsuf, Pipeline.withArrays_of_ne _ c (entryVals m c) _ b hwin]
  exact entryAt_of_not_result m c hpre

theorem entry_arg0 (c : Dev nD) : entryAt m c main_arg0 = m ((c : Thread nD τ).loc main_arg0) :=
  entryAt_of_not_result m c (by decide)
theorem entry_arg1 (c : Dev nD) : entryAt m c main_arg1 = m ((c : Thread nD τ).loc main_arg1) :=
  entryAt_of_not_result m c (by decide)
theorem entry_arg2 (c : Dev nD) : entryAt m c main_arg2 = m ((c : Thread nD τ).loc main_arg2) :=
  entryAt_of_not_result m c (by decide)
theorem entry_arg3 (c : Dev nD) : entryAt m c main_arg3 = m ((c : Thread nD τ).loc main_arg3) :=
  entryAt_of_not_result m c (by decide)
theorem entry_arg4 (c : Dev nD) : entryAt m c main_arg4 = m ((c : Thread nD τ).loc main_arg4) :=
  entryAt_of_not_result m c (by decide)
theorem entry_arg5 (c : Dev nD) : entryAt m c main_arg5 = m ((c : Thread nD τ).loc main_arg5) :=
  entryAt_of_not_result m c (by decide)
theorem entry_arg6 (c : Dev nD) : entryAt m c main_arg6 = m ((c : Thread nD τ).loc main_arg6) :=
  entryAt_of_not_result m c (by decide)
theorem entry_arg7 (c : Dev nD) : entryAt m c main_arg7 = m ((c : Thread nD τ).loc main_arg7) :=
  entryAt_of_not_result m c (by decide)
theorem entry_arg8 (c : Dev nD) : entryAt m c main_arg8 = m ((c : Thread nD τ).loc main_arg8) :=
  entryAt_of_not_result m c (by decide)
theorem entry_arg9 (c : Dev nD) : entryAt m c main_arg9 = m ((c : Thread nD τ).loc main_arg9) :=
  entryAt_of_not_result m c (by decide)
theorem entry_arg10 (c : Dev nD) : entryAt m c main_arg10 = m ((c : Thread nD τ).loc main_arg10) :=
  entryAt_of_not_result m c (by decide)
theorem entry_arg11 (c : Dev nD) : entryAt m c main_arg11 = m ((c : Thread nD τ).loc main_arg11) :=
  entryAt_of_not_result m c (by decide)

theorem kept_arg0 (dats : (p : Fin _) → (c : Dev nD) → Dat τ (Elt F) Unit ℕ (UR sig nD τ) ℕ (cfgs p) c) (c : Dev nD) :
    Pipeline.afterTail₀ cfgs dats 0 (entryVals m) [hostOps1] c main_arg0 = m ((c : Thread nD τ).loc main_arg0) :=
  kept_of_untouched m dats c (by decide) (by decide) (by decide)
theorem kept_arg2 (dats : (p : Fin _) → (c : Dev nD) → Dat τ (Elt F) Unit ℕ (UR sig nD τ) ℕ (cfgs p) c) (c : Dev nD) :
    Pipeline.afterTail₀ cfgs dats 0 (entryVals m) [hostOps1] c main_arg2 = m ((c : Thread nD τ).loc main_arg2) :=
  kept_of_untouched m dats c (by decide) (by decide) (by decide)
theorem kept_arg3 (dats : (p : Fin _) → (c : Dev nD) → Dat τ (Elt F) Unit ℕ (UR sig nD τ) ℕ (cfgs p) c) (c : Dev nD) :
    Pipeline.afterTail₀ cfgs dats 0 (entryVals m) [hostOps1] c main_arg3 = m ((c : Thread nD τ).loc main_arg3) :=
  kept_of_untouched m dats c (by decide) (by decide) (by decide)
theorem kept_arg4 (dats : (p : Fin _) → (c : Dev nD) → Dat τ (Elt F) Unit ℕ (UR sig nD τ) ℕ (cfgs p) c) (c : Dev nD) :
    Pipeline.afterTail₀ cfgs dats 0 (entryVals m) [hostOps1] c main_arg4 = m ((c : Thread nD τ).loc main_arg4) :=
  kept_of_untouched m dats c (by decide) (by decide) (by decide)
theorem kept_arg5 (dats : (p : Fin _) → (c : Dev nD) → Dat τ (Elt F) Unit ℕ (UR sig nD τ) ℕ (cfgs p) c) (c : Dev nD) :
    Pipeline.afterTail₀ cfgs dats 0 (entryVals m) [hostOps1] c main_arg5 = m ((c : Thread nD τ).loc main_arg5) :=
  kept_of_untouched m dats c (by decide) (by decide) (by decide)
theorem kept_arg6 (dats : (p : Fin _) → (c : Dev nD) → Dat τ (Elt F) Unit ℕ (UR sig nD τ) ℕ (cfgs p) c) (c : Dev nD) :
    Pipeline.afterTail₀ cfgs dats 0 (entryVals m) [hostOps1] c main_arg6 = m ((c : Thread nD τ).loc main_arg6) :=
  kept_of_untouched m dats c (by decide) (by decide) (by decide)
theorem kept_arg7 (dats : (p : Fin _) → (c : Dev nD) → Dat τ (Elt F) Unit ℕ (UR sig nD τ) ℕ (cfgs p) c) (c : Dev nD) :
    Pipeline.afterTail₀ cfgs dats 0 (entryVals m) [hostOps1] c main_arg7 = m ((c : Thread nD τ).loc main_arg7) :=
  kept_of_untouched m dats c (by decide) (by decide) (by decide)
theorem kept_arg8 (dats : (p : Fin _) → (c : Dev nD) → Dat τ (Elt F) Unit ℕ (UR sig nD τ) ℕ (cfgs p) c) (c : Dev nD) :
    Pipeline.afterTail₀ cfgs dats 0 (entryVals m) [hostOps1] c main_arg8 = m ((c : Thread nD τ).loc main_arg8) :=
  kept_of_untouched m dats c (by decide) (by decide) (by decide)
theorem kept_arg9 (dats : (p : Fin _) → (c : Dev nD) → Dat τ (Elt F) Unit ℕ (UR sig nD τ) ℕ (cfgs p) c) (c : Dev nD) :
    Pipeline.afterTail₀ cfgs dats 0 (entryVals m) [hostOps1] c main_arg9 = m ((c : Thread nD τ).loc main_arg9) :=
  kept_of_untouched m dats c (by decide) (by decide) (by decide)
theorem kept_arg10 (dats : (p : Fin _) → (c : Dev nD) → Dat τ (Elt F) Unit ℕ (UR sig nD τ) ℕ (cfgs p) c) (c : Dev nD) :
    Pipeline.afterTail₀ cfgs dats 0 (entryVals m) [hostOps1] c main_arg10 = m ((c : Thread nD τ).loc main_arg10) :=
  kept_of_untouched m dats c (by decide) (by decide) (by decide)
theorem kept_arg11 (dats : (p : Fin _) → (c : Dev nD) → Dat τ (Elt F) Unit ℕ (UR sig nD τ) ℕ (cfgs p) c) (c : Dev nD) :
    Pipeline.afterTail₀ cfgs dats 0 (entryVals m) [hostOps1] c main_arg11 = m ((c : Thread nD τ).loc main_arg11) :=
  kept_of_untouched m dats c (by decide) (by decide) (by decide)

/-- The edge-type argument `main_arg1` is window 1's array. The grid only reads it, so after the last point it holds what
    it was entered with; the last operations do not write it and the first operations left it as launched. -/
theorem kept_arg1 (dats : (p : Fin _) → (c : Dev nD) → Dat τ (Elt F) Unit ℕ (UR sig nD τ) ℕ (cfgs p) c) (c : Dev nD)
    (hA : (dats 0 c).A 1 = entryAt m c (Pipeline.arrRef spec0 1)) :
    Pipeline.afterTail₀ cfgs dats 0 (entryVals m) [hostOps1] c main_arg1 = m ((c : Thread nD τ).loc main_arg1) := by
  unfold Pipeline.afterTail₀
  rw [StableHlo.after_of_writes_sub _ _ suffix_writes (by decide)]
  exact (Pipeline.withArrays_arr spec0 launch0.win.arr_inj c (entryVals m c) _ 1).trans
    (((dats 0 c).arrAt_in 1 rfl _).trans (hA.trans (entry_arg1 m c)))

/-! ## The block a point is handed -/

/-- Window `w`'s block at grid point `t`: the part of the window's array, as the grid finds it, that the window's
    index map selects there. For the embeddings, the edge types and the output that is batch `t`'s slab; for the
    weights and the biases it is the whole array at every point. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Window 0's block (the batch's embeddings) is in its staging buffer whenever the body runs, whether that point fetched it
    or an earlier one did: an input the body only reads keeps its block until the index map moves. -/
theorem found_embeddings {c : Dev nD} (dat : Dat τ (Elt F) Unit ℕ (UR sig nD τ) ℕ cfg0 c)
    (hA : dat.A 0 = entryAt m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- Window 1's block (the batch's edge types) is in its staging buffer whenever the body runs, whether that point fetched it
    or an earlier one did: an input the body only reads keeps its block until the index map moves. -/
theorem found_edge_types {c : Dev nD} (dat : Dat τ (Elt F) Unit ℕ (UR sig nD τ) ℕ cfg0 c)
    (hA : dat.A 1 = entryAt m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- Window 2's block (the packed first-layer weights) is in its staging buffer whenever the body runs, whether that point fetched it
    or an earlier one did: an input the body only reads keeps its block until the index map moves. -/
theorem found_packed_weights {c : Dev nD} (dat : Dat τ (Elt F) Unit ℕ (UR sig nD τ) ℕ cfg0 c)
    (hA : dat.A 2 = entryAt m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- Window 3's block (the first first-layer bias) is in its staging buffer whenever the body runs, whether that point fetched it
    or an earlier one did: an input the body only reads keeps its block until the index map moves. -/
theorem found_bias10 {c : Dev nD} (dat : Dat τ (Elt F) Unit ℕ (UR sig nD τ) ℕ cfg0 c)
    (hA : dat.A 3 = entryAt m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- Window 4's block (the second first-layer bias) is in its staging buffer whenever the body runs, whether that point fetched it
    or an earlier one did: an input the body only reads keeps its block until the index map moves. -/
theorem found_bias11 {c : Dev nD} (dat : Dat τ (Elt F) Unit ℕ (UR sig nD τ) ℕ cfg0 c)
    (hA : dat.A 4 = entryAt m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-- Window 5's block (the first second-layer weights) is in its staging buffer whenever the body runs, whether that point fetched it
    or an earlier one did: an input the body only reads keeps its block until the index map moves. -/
theorem found_weights20 {c : Dev nD} (dat : Dat τ (Elt F) Unit ℕ (UR sig nD τ) ℕ cfg0 c)
    (hA : dat.A 5 = entryAt m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-- Window 6's block (the first second-layer bias) is in its staging buffer whenever the body runs, whether that point fetched it
    or an earlier one did: an input the body only reads keeps its block until the index map moves. -/
theorem found_bias20 {c : Dev nD} (dat : Dat τ (Elt F) Unit ℕ (UR sig nD τ) ℕ cfg0 c)
    (hA : dat.A 6 = entryAt m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)

/-- Window 7's block (the second second-layer weights) is in its staging buffer whenever the body runs, whether that point fetched it
    or an earlier one did: an input the body only reads keeps its block until the index map moves. -/
theorem found_weights21 {c : Dev nD} (dat : Dat τ (Elt F) Unit ℕ (UR sig nD τ) ℕ cfg0 c)
    (hA : dat.A 7 = entryAt m c (Pipeline.arrRef spec0 7)) (hafter : ∀ t, dat.after 7 t = blockAt m c 7 t)
    (t : Fin cfg0.N) (d) : dat.before 7 t d = blockAt m c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)

/-- Window 8's block (the second second-layer bias) is in its staging buffer whenever the body runs, whether that point fetched it
    or an earlier one did: an input the body only reads keeps its block until the index map moves. -/
theorem found_bias21 {c : Dev nD} (dat : Dat τ (Elt F) Unit ℕ (UR sig nD τ) ℕ cfg0 c)
    (hA : dat.A 8 = entryAt m c (Pipeline.arrRef spec0 8)) (hafter : ∀ t, dat.after 8 t = blockAt m c 8 t)
    (t : Fin cfg0.N) (d) : dat.before 8 t d = blockAt m c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body leaves in the output block -/

/-- Offsets all zero, in three and in two axes. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- A load through the rectangle that is a buffer's whole block, at offsets zero, reads the buffer's contents. -/
theorem load_whole {Val : EltTy → Type} {sg : RefSig} {κ : Kind} {sp : Space} {S : Shape} {e : EltTy} (v : View sg κ sp S e)
    {off : Fin S.rank → Nat} (h : off = fun _ => 0) (inb : ∀ a, off a + S.size a ≤ S.size a) (f : v.ty.Contents Val) :
    v.readAt Val (Rect.unit off S.size inb).toLoadRect f = v.read Val f :=
  View.ld_unit_zero h inb _

/-- The rectangle of the body's one store: the whole [1,64,128] output block. -/
abbrev outputRect : Rect S1x64x128 := Rect.unit (s := S1x64x128) ![0, 0, 0] S1x64x128.size inb_S1x64x128_S1x64x128_0_0_0

/-- The output block after the body, from the nine input blocks: one piece, the whole block, holding `stored` of them. -/
def leftInOutput (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) : Vec F S1x64x128 .f32 :=
  View.canon [⟨outputRect, stored e arc wcat b10 b11 w20 b20 w21 b21⟩]

/-- One piece that is the whole block: the block holds exactly the stored value. -/
theorem leftInOutput_eq (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) :
    leftInOutput e arc wcat b10 b11 w20 b20 w21 b21 = stored e arc wcat b10 b11 w20 b20 w21 b21 :=
  View.canon_unit_zero (S := S1x64x128) zeros3 inb_S1x64x128_S1x64x128_0_0_0 _

/-- The one store covers the block. -/
theorem output_covered (p : Vec F S1x64x128 .f32) (y : S1x64x128.Idx) :
    ∃ pc ∈ ([⟨outputRect, p⟩] : List (View.Piece (Elt F) S1x64x128 .f32)), y ∈ pc.1.set :=
  ⟨_, List.mem_singleton_self _, View.mem_set_unit_zero (S := S1x64x128) zeros3 inb_S1x64x128_S1x64x128_0_0_0 y⟩

/-! ## The body -/

set_option maxHeartbeats 1000000 in
/-- The body on ten whole staging buffers, the nine inputs holding `e` … `b21` and the output anything: it loads the nine
    inputs, computes, reads the output buffer once without using what it reads, and stores `stored` of the inputs over
    the whole output block. So it hands the inputs back as they were and the output at `leftInOutput` of them. The body
    comes in three parts; only the first touches memory (the nine loads), the other two are pure arithmetic. -/
theorem body_triple (c : Dev nD) (E : Set ℕ) (i : grid0.Coords) (arg1 : Memref sig .tc .vmem S1x64x128 .f32) (harg1 : arg1.IsWhole) (arg2 : Memref sig .tc .vmem S1x64x64 .i32) (harg2 : arg2.IsWhole) (arg3 : Memref sig .tc .vmem S128x1024 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x64x128 .f32) (harg10 : arg10.IsWhole)
    (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) (K : PUnit → sProp 𝕄) :
    iprop(owns (c : Thread nD τ) arg1 fullShare e ∗ owns (c : Thread nD τ) arg2 fullShare arc ∗ owns (c : Thread nD τ) arg3 fullShare wcat ∗ owns (c : Thread nD τ) arg4 fullShare b10 ∗ owns (c : Thread nD τ) arg5 fullShare b11 ∗ owns (c : Thread nD τ) arg6 fullShare w20 ∗ owns (c : Thread nD τ) arg7 fullShare b20 ∗ owns (c : Thread nD τ) arg8 fullShare w21 ∗ owns (c : Thread nD τ) arg9 fullShare b21
        ∗ (∃ d, owns (c : Thread nD τ) arg10 fullShare d)
        ∗ (iprop(owns (c : Thread nD τ) arg1 fullShare e ∗ owns (c : Thread nD τ) arg2 fullShare arc ∗ owns (c : Thread nD τ) arg3 fullShare wcat ∗ owns (c : Thread nD τ) arg4 fullShare b10 ∗ owns (c : Thread nD τ) arg5 fullShare b11 ∗ owns (c : Thread nD τ) arg6 fullShare w20 ∗ owns (c : Thread nD τ) arg7 fullShare b20 ∗ owns (c : Thread nD τ) arg8 fullShare w21 ∗ owns (c : Thread nD τ) arg9 fullShare b21
            ∗ owns (c : Thread nD τ) arg10 fullShare (leftInOutput e arc wcat b10 b11 w20 b20 w21 b21)) -∗ K ⟨⟩))
      ⊢ wp frame (wpE (defs₀ (F := F)) Variants.none c none) E (cc0__mp_kernel i arg1 harg1 arg2 harg2 arg3 harg3 arg4 harg4 arg5 harg5 arg6 harg6 arg7 harg7 arg8 harg8 arg9 harg9 arg10 harg10) K := by
  simp only [cc0__mp_kernel_eq_skeleton]; unfold cc0__mp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (output_covered _)).trans ?_
  unfold leftInOutput stored
  rw [← load_whole arg1.view zeros3 inb_S1x64x128_S1x64x128_0_0_0 f1,
    ← load_whole arg2.view zeros3 inb_S1x64x64_S1x64x64_0_0_0 f2,
    ← load_whole arg3.view zeros2 inb_S128x1024_S128x1024_0_0 f3,
    ← load_whole arg4.view zeros2 inb_S1x256_S1x256_0_0 f4,
    ← load_whole arg5.view zeros2 inb_S1x256_S1x256_0_0 f5,
    ← load_whole arg6.view zeros2 inb_S256x128_S256x128_0_0 f6,
    ← load_whole arg7.view zeros2 inb_S1x128_S1x128_0_0 f7,
    ← load_whole arg8.view zeros2 inb_S256x128_S256x128_0_0 f8,
    ← load_whole arg9.view zeros2 inb_S1x128_S1x128_0_0 f9]
  rfl

/-! ## The proof data of the grid -/

/-- What the grid's run is measured against, on core `c`: the ten arrays as the grid finds them; after the body at
    point `t`, each input's staging buffer still at its block and the output's at `leftInOutput` of the nine input
    blocks; the invariant the bare one (the core's other scoped buffers and its generator register, untouched); full
    shares; nothing owed to other cores. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => leftInOutput (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

/-- The arrays of the proof data are the buffers at the grid's entry. -/
theorem A_eq (c : Dev nD) (w : Fin cfg0.W) : (dats m 0 c).A w = entryAt m c (Pipeline.arrRef spec0 w) := by
  dsimp only [dats]

theorem after_embeddings (c : Dev nD) (t : Fin cfg0.N) : (dats m 0 c).after 0 t = blockAt m c 0 t := by dsimp only [dats]
theorem after_edge_types (c : Dev nD) (t : Fin cfg0.N) : (dats m 0 c).after 1 t = blockAt m c 1 t := by dsimp only [dats]
theorem after_packed_weights (c : Dev nD) (t : Fin cfg0.N) : (dats m 0 c).after 2 t = blockAt m c 2 t := by dsimp only [dats]
theorem after_bias10 (c : Dev nD) (t : Fin cfg0.N) : (dats m 0 c).after 3 t = blockAt m c 3 t := by dsimp only [dats]
theorem after_bias11 (c : Dev nD) (t : Fin cfg0.N) : (dats m 0 c).after 4 t = blockAt m c 4 t := by dsimp only [dats]
theorem after_weights20 (c : Dev nD) (t : Fin cfg0.N) : (dats m 0 c).after 5 t = blockAt m c 5 t := by dsimp only [dats]
theorem after_bias20 (c : Dev nD) (t : Fin cfg0.N) : (dats m 0 c).after 6 t = blockAt m c 6 t := by dsimp only [dats]
theorem after_weights21 (c : Dev nD) (t : Fin cfg0.N) : (dats m 0 c).after 7 t = blockAt m c 7 t := by dsimp only [dats]
theorem after_bias21 (c : Dev nD) (t : Fin cfg0.N) : (dats m 0 c).after 8 t = blockAt m c 8 t := by dsimp only [dats]
/-- The output block after point `t`: the stored value of batch `t`'s blocks and the weights. -/
theorem after_output (c : Dev nD) (t : Fin cfg0.N) :
    (dats m 0 c).after 9 t = leftInOutput (blockAt m c 0 t) (blockAt m c 1 t) (blockAt m c 2 t) (blockAt m c 3 t) (blockAt m c 4 t) (blockAt m c 5 t) (blockAt m c 6 t) (blockAt m c 7 t) (blockAt m c 8 t) := by
  dsimp only [dats]

theorem before_embeddings (c : Dev nD) (t : Fin cfg0.N) (d) : (dats m 0 c).before 0 t d = blockAt m c 0 t :=
  found_embeddings m (dats m 0 c) (A_eq m c 0) (after_embeddings m c) t d
theorem before_edge_types (c : Dev nD) (t : Fin cfg0.N) (d) : (dats m 0 c).before 1 t d = blockAt m c 1 t :=
  found_edge_types m (dats m 0 c) (A_eq m c 1) (after_edge_types m c) t d
theorem before_packed_weights (c : Dev nD) (t : Fin cfg0.N) (d) : (dats m 0 c).before 2 t d = blockAt m c 2 t :=
  found_packed_weights m (dats m 0 c) (A_eq m c 2) (after_packed_weights m c) t d
theorem before_bias10 (c : Dev nD) (t : Fin cfg0.N) (d) : (dats m 0 c).before 3 t d = blockAt m c 3 t :=
  found_bias10 m (dats m 0 c) (A_eq m c 3) (after_bias10 m c) t d
theorem before_bias11 (c : Dev nD) (t : Fin cfg0.N) (d) : (dats m 0 c).before 4 t d = blockAt m c 4 t :=
  found_bias11 m (dats m 0 c) (A_eq m c 4) (after_bias11 m c) t d
theorem before_weights20 (c : Dev nD) (t : Fin cfg0.N) (d) : (dats m 0 c).before 5 t d = blockAt m c 5 t :=
  found_weights20 m (dats m 0 c) (A_eq m c 5) (after_weights20 m c) t d
theorem before_bias20 (c : Dev nD) (t : Fin cfg0.N) (d) : (dats m 0 c).before 6 t d = blockAt m c 6 t :=
  found_bias20 m (dats m 0 c) (A_eq m c 6) (after_bias20 m c) t d
theorem before_weights21 (c : Dev nD) (t : Fin cfg0.N) (d) : (dats m 0 c).before 7 t d = blockAt m c 7 t :=
  found_weights21 m (dats m 0 c) (A_eq m c 7) (after_weights21 m c) t d
theorem before_bias21 (c : Dev nD) (t : Fin cfg0.N) (d) : (dats m 0 c).before 8 t d = blockAt m c 8 t :=
  found_bias21 m (dats m 0 c) (A_eq m c 8) (after_bias21 m c) t d

/-! ## Every point's body meets its obligation -/

/-- What the body is handed at point `t`: the invariant, the core's debts (none), and the ten current staging buffers. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it must hand back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the nine input buffers hold their blocks, so the body's triple applies; the invariant and the debts
    pass through untouched. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_embeddings, before_edge_types, before_packed_weights, before_bias10, before_bias11, before_weights20, before_bias20, before_weights21, before_bias21]
  rw [show (dats m 0 c).Φ t.succ = (dats m 0 c).Φ t.castSucc from rfl,
    show (dats m 0 c).owesAt () t.succ = (dats m 0 c).owesAt () t.castSucc from rfl,
    after_embeddings, after_edge_types, after_packed_weights, after_bias10, after_bias11, after_weights20, after_bias20, after_weights21, after_bias21, after_output]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation, at every point of the grid. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with the semaphores at zero, every weakly fair execution of @main on the TensorCores terminates
    without fault, and at the end each window's array holds what the write-backs of the proof data make of it and every
    other unscoped buffer what the last two operations leave. -/
theorem run_main : θ_run defs (onTc (τ := τ) (main (F := F))) (s₀ m ρ)
    (Pipeline.FramePost cfgs (dats m) 0 (Pipeline.afterTail₀ cfgs (dats m) 0 (entryVals m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVals m) (opss := [hostOps1]) (hsub := suffix_within) (hfresh := suffix_fresh)
    (hkeep := suffix_spares_windows) (hmain := main_around m Variants.none) (hA := A_eq m) (hΦ := fun _ _ => rfl)

/-- Any final state the run allows has the twelve arguments as launched. Eleven of them no window stages and no
    operation writes, so they are read off the bypassing buffers; the edge types are window 1's array, an input the grid
    never writes back. Stated for any proof data over the same entry arrays. -/
theorem args_unchanged_of_post (dats : (p : Fin 1) → (c : Dev nD) → Dat τ (Elt F) Unit ℕ (UR sig nD τ) ℕ (cfgs p) c)
    (hA : ∀ c w, (dats 0 c).A w = entryAt m c (Pipeline.arrRef spec0 w)) (r : PUnit × MemSt nD τ sig (Elt F))
    (h : Pipeline.FramePost cfgs dats 0 (Pipeline.afterTail₀ cfgs dats 0 (entryVals m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (kept_arg0 m dats c),
   ((h c).1 1).trans (((dats 0 c).arrAt_in 1 rfl _).trans ((hA c 1).trans (entry_arg1 m c))),
   ((h c).2 main_arg2 (Pipeline.mem_restRefs_of main_arg2 (by decide) (by decide))).trans (kept_arg2 m dats c),
   ((h c).2 main_arg3 (Pipeline.mem_restRefs_of main_arg3 (by decide) (by decide))).trans (kept_arg3 m dats c),
   ((h c).2 main_arg4 (Pipeline.mem_restRefs_of main_arg4 (by decide) (by decide))).trans (kept_arg4 m dats c),
   ((h c).2 main_arg5 (Pipeline.mem_restRefs_of main_arg5 (by decide) (by decide))).trans (kept_arg5 m dats c),
   ((h c).2 main_arg6 (Pipeline.mem_restRefs_of main_arg6 (by decide) (by decide))).trans (kept_arg6 m dats c),
   ((h c).2 main_arg7 (Pipeline.mem_restRefs_of main_arg7 (by decide) (by decide))).trans (kept_arg7 m dats c),
   ((h c).2 main_arg8 (Pipeline.mem_restRefs_of main_arg8 (by decide) (by decide))).trans (kept_arg8 m dats c),
   ((h c).2 main_arg9 (Pipeline.mem_restRefs_of main_arg9 (by decide) (by decide))).trans (kept_arg9 m dats c),
   ((h c).2 main_arg10 (Pipeline.mem_restRefs_of main_arg10 (by decide) (by decide))).trans (kept_arg10 m dats c),
   ((h c).2 main_arg11 (Pipeline.mem_restRefs_of main_arg11 (by decide) (by decide))).trans (kept_arg11 m dats c)⟩

/-- The frame: the program runs to the end from any launch memory, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_unchanged_of_post m (dats m) (A_eq m) r h c) (run_main m ρ)

end Cert.Kernel.Hand

end
-- ==== Proof.StoredIdeal.lean ====
/-
  The value the kernel body stores, as one term of the blocks it loads.

  One grid point handles one batch. The body loads the batch's embedding block [1,64,128], its edge-type block
  [1,64,64], the packed first-layer weights [128,1024], the two first-layer biases [1,256], the two second-layer
  weights [256,128] and their biases [1,128]; it runs three rounds of message passing on the [64,128] embeddings
  and stores the result, recast to [1,64,128], over the whole output block. `stored` is that stored value: the
  skeleton's payloads composed in the order the body computes them.
-/
import proofs.«175625_j65085934403743_2_alg».proof.Proof.Gen.KernelIdeal.Skeleton

noncomputable section

namespace Cert.KernelIdeal.Hand

open Idealize.ShloMosaic Cert.KernelIdeal Cert.KernelIdeal.Gen

variable {F : FTy → Type} [FloatOps F]

/-- The value stored over the output block, from the nine loaded blocks: embeddings `e`, edge types `arc`, packed
    first-layer weights `wcat`, first-layer biases `b10` `b11`, second-layer weights `w20` `w21` and biases
    `b20` `b21`. -/
def stored (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) : FVec F S1x64x128 .f32 :=
  let v1 := k0_pay2 e
  let v5 := k0_pay3 arc
  let v7 := k0_pay4 wcat
  let v9 := k0_pay5 b10
  let v11 := k0_pay6 b11
  let v13 := k0_pay7 w20
  let v15 := k0_pay8 w21
  let v17 := k0_pay9 b20
  let v19 := k0_pay10 b21
  let v25 := k0_pay12 e wcat
  let v35 := k0_pay13 e wcat b10
  let v36 := k0_pay14 e wcat
  let v67 := k0_pay15 v1 v5 v11 v13 v15 v17 v19 v25 v35 v36
  let v83 := k0_pay17 v1 v5 v7 v9 v11 v13 v15 v17 v19 v25 v35 v36
  let v88 := k0_pay18 v1 v5 v7 v11 v13 v15 v17 v19 v25 v35 v36
  let v115 := k0_pay19 v5 v11 v13 v15 v17 v19 v67 v83 v88
  let v131 := k0_pay21 v5 v7 v9 v11 v13 v15 v17 v19 v67 v83 v88
  let v139 := k0_pay22 v5 v7 v11 v13 v15 v17 v19 v67 v83 v88
  k0_pay1 v5 v13 v15 v17 v19 v115 v131 v139 (Scalar.ofBits .f32 0x00000000#32)

end Cert.KernelIdeal.Hand

end
-- ==== Proof.FrameIdeal.lean ====
/-
  The frame of the message-passing program: how a core's buffers travel through @main.

  @main first prepares the kernel's operands with host operations (the embeddings gathered by token, the four
  first-layer weight slices transposed and laid side by side into one packed matrix, the second-layer weights
  transposed, the biases recast as rows), then runs ONE grid of 32 points, one per batch, over ten windows (nine
  inputs and the output), and last cuts the result down with two more host operations. This module follows one core's
  buffers along that road: what they hold when the grid is entered, which block of each window a point is handed,
  what the body leaves in the output block (the value `stored` of the nine input blocks), that every point's body
  meets its obligation, and hence that the whole program runs and ends with its twelve arguments as it found them.
-/
import proofs.«175625_j65085934403743_2_alg».proof.Proof.Gen.KernelIdeal.Launch
import proofs.«175625_j65085934403743_2_alg».proof.Proof.Gen.KernelIdeal.Skeleton
import proofs.«175625_j65085934403743_2_alg».proof.Proof.Gen.KernelIdeal.Points
import proofs.«175625_j65085934403743_2_alg».proof.Proof.StoredIdeal
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the grid is entered -/

/-- A core's TensorCore buffers at the moment the grid is entered: the launch memory carried through the host
    operations that precede it. -/
abbrev entryVals (c : Dev nD) : Valuation τ sig (Elt F) := StableHlo.after (List.flatten [hostOps0]) (fun b => m (c, b))
/-- One buffer of them. -/
abbrev entryAt (c : Dev nD) (b : Ref sig .tc) : Buf (Elt F) ((c : Thread nD τ).loc b) := entryVals m c (Proc.devRef .tc b)

/-- The buffers the operations before the grid write: each operation's own result and nothing else. The packed
    weight matrix `main_v15` is the one result of the four-operand concatenation. -/
def prefixResults : List (Ref sig .tc) :=
  [main_c, main_v0, main_v1, main_c_0, main_v2, main_v3, main_v4, main_v5, main_v6, main_v7, main_v8, main_v9, main_v10, main_v11, main_v12, main_v13, main_v14, main_v15, main_v16, main_v17, main_v18, main_v19, main_v20, main_v21, main_v22, main_v23, main_v24]
/-- The buffers the two operations after the grid write. -/
def suffixResults : List (Ref sig .tc) := [main_v26, main_v27]

/-- Every operation before the grid writes only into `prefixResults`: an operation of any arity, the concatenation of
    four operands included, writes its single result buffer. -/
theorem prefix_writes : (List.flatten [hostOps0] : List (HloOp τ sig (Elt F))).Forall fun op =>
    op.writes ⊆ (prefixResults.map (Proc.devRef (τ := τ) .tc)).toFinset := by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- Every operation after the grid writes only into `suffixResults`. -/
theorem suffix_writes : (List.flatten [hostOps1] : List (HloOp τ sig (Elt F))).Forall fun op =>
    op.writes ⊆ (suffixResults.map (Proc.devRef (τ := τ) .tc)).toFinset := by
  simp only [hostOps1, List.flatten_cons, List.flatten_nil, List.append_nil, List.cons_append, List.nil_append, List.Forall,
    StableHlo.unary_writes, StableHlo.reshape_writes, Finset.singleton_subset_iff, List.mem_toFinset]
  repeat' apply And.intro
  all_goals exact List.mem_map_of_mem (by decide)

/-- A buffer that is no operation's result is entered as launched. -/
theorem entryAt_of_not_result (c : Dev nD) {b : Ref sig .tc} (hb : b ∉ prefixResults) :
    entryAt m c b = m ((c : Thread nD τ).loc b) :=
  StableHlo.after_of_writes_sub _ _ prefix_writes hb

/-- The host operations allocate nothing. -/
theorem prefix_allocates_nothing : (hostOps0 : List (HloOp τ sig (Elt F))).Forall fun op => op.fresh = ∅ := by
  simp only [List.Forall]; repeat' constructor
theorem suffix_allocates_nothing : (hostOps1 : List (HloOp τ sig (Elt F))).Forall fun op => op.fresh = ∅ := by
  simp only [List.Forall]; repeat' constructor

/-- @main is the operations before the grid, the grid, the operations after it: run from the launch memory it reaches
    the grid with the buffers at `entryAt`, and what remains to run is the grid followed by the last two operations. -/
theorem main_around (𝒱₀ : Variants) : Pipeline.HMainK (Ix := Unit) (Name := ℕ) (U := UR sig nD τ) (Lvl := ℕ) cfgs 0 defs₀ 𝒱₀ m
    (main (F := F)) (entryAt m) (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-- The two last operations touch only unscoped TensorCore buffers: window arrays and buffers that bypass the grid. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
theorem suffix_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp suffix_allocates_nothing) op hop
/-- They write no window's array: their results are the sliced and the recast output, which no window stages. -/
theorem suffix_spares_windows : ∀ ops ∈ ([hostOps1] : List (List (HloOp τ sig (Elt F)))), ∀ op ∈ ops,
    ∀ w, Proc.devRef .tc (Pipeline.arrRef spec0 w) ∉ op.writes := by
  intro ops hops op hop w hw
  obtain rfl : ops = hostOps1 := by simpa using hops
  have hin := (List.forall_iff_forall_mem.mp (suffix_writes (F := F))) op
    (by simpa only [List.flatten_cons, List.flatten_nil, List.append_nil] using hop) hw
  obtain ⟨y, hy, he⟩ := List.mem_map.mp (List.mem_toFinset.mp hin)
  exact (by decide : ∀ w, Pipeline.arrRef spec0 w ∉ suffixResults) w (Proc.devRef_injective _ he ▸ hy)

/-- A buffer that no operation writes and no window stages ends the program as launched: the last two operations leave
    it, the grid never sees it, the first operations leave it. -/
theorem kept_of_untouched (dats : (p : Fin _) → (c : Dev nD) → Dat τ (Elt F) Unit ℕ (UR sig nD τ) ℕ (cfgs p) c) (c : Dev nD)
    {b : Ref sig .tc} (hpre : b ∉ prefixResults) (hsuf : b ∉ suffixResults) (hwin : ∀ w, Pipeline.arrRef spec0 w ≠ b) :
    Pipeline.afterTail₀ cfgs dats 0 (entryVals m) [hostOps1] c b = m ((c : Thread nD τ).loc b) := by
  unfold Pipeline.afterTail₀
  rw [StableHlo.after_of_writes_sub _ _ suffix_writes hsuf, Pipeline.withArrays_of_ne _ c (entryVals m c) _ b hwin]
  exact entryAt_of_not_result m c hpre

theorem entry_arg0 (c : Dev nD) : entryAt m c main_arg0 = m ((c : Thread nD τ).loc main_arg0) :=
  entryAt_of_not_result m c (by decide)
theorem entry_arg1 (c : Dev nD) : entryAt m c main_arg1 = m ((c : Thread nD τ).loc main_arg1) :=
  entryAt_of_not_result m c (by decide)
theorem entry_arg2 (c : Dev nD) : entryAt m c main_arg2 = m ((c : Thread nD τ).loc main_arg2) :=
  entryAt_of_not_result m c (by decide)
theorem entry_arg3 (c : Dev nD) : entryAt m c main_arg3 = m ((c : Thread nD τ).loc main_arg3) :=
  entryAt_of_not_result m c (by decide)
theorem entry_arg4 (c : Dev nD) : entryAt m c main_arg4 = m ((c : Thread nD τ).loc main_arg4) :=
  entryAt_of_not_result m c (by decide)
theorem entry_arg5 (c : Dev nD) : entryAt m c main_arg5 = m ((c : Thread nD τ).loc main_arg5) :=
  entryAt_of_not_result m c (by decide)
theorem entry_arg6 (c : Dev nD) : entryAt m c main_arg6 = m ((c : Thread nD τ).loc main_arg6) :=
  entryAt_of_not_result m c (by decide)
theorem entry_arg7 (c : Dev nD) : entryAt m c main_arg7 = m ((c : Thread nD τ).loc main_arg7) :=
  entryAt_of_not_result m c (by decide)
theorem entry_arg8 (c : Dev nD) : entryAt m c main_arg8 = m ((c : Thread nD τ).loc main_arg8) :=
  entryAt_of_not_result m c (by decide)
theorem entry_arg9 (c : Dev nD) : entryAt m c main_arg9 = m ((c : Thread nD τ).loc main_arg9) :=
  entryAt_of_not_result m c (by decide)
theorem entry_arg10 (c : Dev nD) : entryAt m c main_arg10 = m ((c : Thread nD τ).loc main_arg10) :=
  entryAt_of_not_result m c (by decide)
theorem entry_arg11 (c : Dev nD) : entryAt m c main_arg11 = m ((c : Thread nD τ).loc main_arg11) :=
  entryAt_of_not_result m c (by decide)

theorem kept_arg0 (dats : (p : Fin _) → (c : Dev nD) → Dat τ (Elt F) Unit ℕ (UR sig nD τ) ℕ (cfgs p) c) (c : Dev nD) :
    Pipeline.afterTail₀ cfgs dats 0 (entryVals m) [hostOps1] c main_arg0 = m ((c : Thread nD τ).loc main_arg0) :=
  kept_of_untouched m dats c (by decide) (by decide) (by decide)
theorem kept_arg2 (dats : (p : Fin _) → (c : Dev nD) → Dat τ (Elt F) Unit ℕ (UR sig nD τ) ℕ (cfgs p) c) (c : Dev nD) :
    Pipeline.afterTail₀ cfgs dats 0 (entryVals m) [hostOps1] c main_arg2 = m ((c : Thread nD τ).loc main_arg2) :=
  kept_of_untouched m dats c (by decide) (by decide) (by decide)
theorem kept_arg3 (dats : (p : Fin _) → (c : Dev nD) → Dat τ (Elt F) Unit ℕ (UR sig nD τ) ℕ (cfgs p) c) (c : Dev nD) :
    Pipeline.afterTail₀ cfgs dats 0 (entryVals m) [hostOps1] c main_arg3 = m ((c : Thread nD τ).loc main_arg3) :=
  kept_of_untouched m dats c (by decide) (by decide) (by decide)
theorem kept_arg4 (dats : (p : Fin _) → (c : Dev nD) → Dat τ (Elt F) Unit ℕ (UR sig nD τ) ℕ (cfgs p) c) (c : Dev nD) :
    Pipeline.afterTail₀ cfgs dats 0 (entryVals m) [hostOps1] c main_arg4 = m ((c : Thread nD τ).loc main_arg4) :=
  kept_of_untouched m dats c (by decide) (by decide) (by decide)
theorem kept_arg5 (dats : (p : Fin _) → (c : Dev nD) → Dat τ (Elt F) Unit ℕ (UR sig nD τ) ℕ (cfgs p) c) (c : Dev nD) :
    Pipeline.afterTail₀ cfgs dats 0 (entryVals m) [hostOps1] c main_arg5 = m ((c : Thread nD τ).loc main_arg5) :=
  kept_of_untouched m dats c (by decide) (by decide) (by decide)
theorem kept_arg6 (dats : (p : Fin _) → (c : Dev nD) → Dat τ (Elt F) Unit ℕ (UR sig nD τ) ℕ (cfgs p) c) (c : Dev nD) :
    Pipeline.afterTail₀ cfgs dats 0 (entryVals m) [hostOps1] c main_arg6 = m ((c : Thread nD τ).loc main_arg6) :=
  kept_of_untouched m dats c (by decide) (by decide) (by decide)
theorem kept_arg7 (dats : (p : Fin _) → (c : Dev nD) → Dat τ (Elt F) Unit ℕ (UR sig nD τ) ℕ (cfgs p) c) (c : Dev nD) :
    Pipeline.afterTail₀ cfgs dats 0 (entryVals m) [hostOps1] c main_arg7 = m ((c : Thread nD τ).loc main_arg7) :=
  kept_of_untouched m dats c (by decide) (by decide) (by decide)
theorem kept_arg8 (dats : (p : Fin _) → (c : Dev nD) → Dat τ (Elt F) Unit ℕ (UR sig nD τ) ℕ (cfgs p) c) (c : Dev nD) :
    Pipeline.afterTail₀ cfgs dats 0 (entryVals m) [hostOps1] c main_arg8 = m ((c : Thread nD τ).loc main_arg8) :=
  kept_of_untouched m dats c (by decide) (by decide) (by decide)
theorem kept_arg9 (dats : (p : Fin _) → (c : Dev nD) → Dat τ (Elt F) Unit ℕ (UR sig nD τ) ℕ (cfgs p) c) (c : Dev nD) :
    Pipeline.afterTail₀ cfgs dats 0 (entryVals m) [hostOps1] c main_arg9 = m ((c : Thread nD τ).loc main_arg9) :=
  kept_of_untouched m dats c (by decide) (by decide) (by decide)
theorem kept_arg10 (dats : (p : Fin _) → (c : Dev nD) → Dat τ (Elt F) Unit ℕ (UR sig nD τ) ℕ (cfgs p) c) (c : Dev nD) :
    Pipeline.afterTail₀ cfgs dats 0 (entryVals m) [hostOps1] c main_arg10 = m ((c : Thread nD τ).loc main_arg10) :=
  kept_of_untouched m dats c (by decide) (by decide) (by decide)
theorem kept_arg11 (dats : (p : Fin _) → (c : Dev nD) → Dat τ (Elt F) Unit ℕ (UR sig nD τ) ℕ (cfgs p) c) (c : Dev nD) :
    Pipeline.afterTail₀ cfgs dats 0 (entryVals m) [hostOps1] c main_arg11 = m ((c : Thread nD τ).loc main_arg11) :=
  kept_of_untouched m dats c (by decide) (by decide) (by decide)

/-- The edge-type argument `main_arg1` is window 1's array. The grid only reads it, so after the last point it holds what
    it was entered with; the last operations do not write it and the first operations left it as launched. -/
theorem kept_arg1 (dats : (p : Fin _) → (c : Dev nD) → Dat τ (Elt F) Unit ℕ (UR sig nD τ) ℕ (cfgs p) c) (c : Dev nD)
    (hA : (dats 0 c).A 1 = entryAt m c (Pipeline.arrRef spec0 1)) :
    Pipeline.afterTail₀ cfgs dats 0 (entryVals m) [hostOps1] c main_arg1 = m ((c : Thread nD τ).loc main_arg1) := by
  unfold Pipeline.afterTail₀
  rw [StableHlo.after_of_writes_sub _ _ suffix_writes (by decide)]
  exact (Pipeline.withArrays_arr spec0 launch0.win.arr_inj c (entryVals m c) _ 1).trans
    (((dats 0 c).arrAt_in 1 rfl _).trans (hA.trans (entry_arg1 m c)))

/-! ## The block a point is handed -/

/-- Window `w`'s block at grid point `t`: the part of the window's array, as the grid finds it, that the window's
    index map selects there. For the embeddings, the edge types and the output that is batch `t`'s slab; for the
    weights and the biases it is the whole array at every point. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Window 0's block (the batch's embeddings) is in its staging buffer whenever the body runs, whether that point fetched it
    or an earlier one did: an input the body only reads keeps its block until the index map moves. -/
theorem found_embeddings {c : Dev nD} (dat : Dat τ (Elt F) Unit ℕ (UR sig nD τ) ℕ cfg0 c)
    (hA : dat.A 0 = entryAt m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- Window 1's block (the batch's edge types) is in its staging buffer whenever the body runs, whether that point fetched it
    or an earlier one did: an input the body only reads keeps its block until the index map moves. -/
theorem found_edge_types {c : Dev nD} (dat : Dat τ (Elt F) Unit ℕ (UR sig nD τ) ℕ cfg0 c)
    (hA : dat.A 1 = entryAt m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- Window 2's block (the packed first-layer weights) is in its staging buffer whenever the body runs, whether that point fetched it
    or an earlier one did: an input the body only reads keeps its block until the index map moves. -/
theorem found_packed_weights {c : Dev nD} (dat : Dat τ (Elt F) Unit ℕ (UR sig nD τ) ℕ cfg0 c)
    (hA : dat.A 2 = entryAt m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- Window 3's block (the first first-layer bias) is in its staging buffer whenever the body runs, whether that point fetched it
    or an earlier one did: an input the body only reads keeps its block until the index map moves. -/
theorem found_bias10 {c : Dev nD} (dat : Dat τ (Elt F) Unit ℕ (UR sig nD τ) ℕ cfg0 c)
    (hA : dat.A 3 = entryAt m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- Window 4's block (the second first-layer bias) is in its staging buffer whenever the body runs, whether that point fetched it
    or an earlier one did: an input the body only reads keeps its block until the index map moves. -/
theorem found_bias11 {c : Dev nD} (dat : Dat τ (Elt F) Unit ℕ (UR sig nD τ) ℕ cfg0 c)
    (hA : dat.A 4 = entryAt m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-- Window 5's block (the first second-layer weights) is in its staging buffer whenever the body runs, whether that point fetched it
    or an earlier one did: an input the body only reads keeps its block until the index map moves. -/
theorem found_weights20 {c : Dev nD} (dat : Dat τ (Elt F) Unit ℕ (UR sig nD τ) ℕ cfg0 c)
    (hA : dat.A 5 = entryAt m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-- Window 6's block (the first second-layer bias) is in its staging buffer whenever the body runs, whether that point fetched it
    or an earlier one did: an input the body only reads keeps its block until the index map moves. -/
theorem found_bias20 {c : Dev nD} (dat : Dat τ (Elt F) Unit ℕ (UR sig nD τ) ℕ cfg0 c)
    (hA : dat.A 6 = entryAt m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)

/-- Window 7's block (the second second-layer weights) is in its staging buffer whenever the body runs, whether that point fetched it
    or an earlier one did: an input the body only reads keeps its block until the index map moves. -/
theorem found_weights21 {c : Dev nD} (dat : Dat τ (Elt F) Unit ℕ (UR sig nD τ) ℕ cfg0 c)
    (hA : dat.A 7 = entryAt m c (Pipeline.arrRef spec0 7)) (hafter : ∀ t, dat.after 7 t = blockAt m c 7 t)
    (t : Fin cfg0.N) (d) : dat.before 7 t d = blockAt m c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)

/-- Window 8's block (the second second-layer bias) is in its staging buffer whenever the body runs, whether that point fetched it
    or an earlier one did: an input the body only reads keeps its block until the index map moves. -/
theorem found_bias21 {c : Dev nD} (dat : Dat τ (Elt F) Unit ℕ (UR sig nD τ) ℕ cfg0 c)
    (hA : dat.A 8 = entryAt m c (Pipeline.arrRef spec0 8)) (hafter : ∀ t, dat.after 8 t = blockAt m c 8 t)
    (t : Fin cfg0.N) (d) : dat.before 8 t d = blockAt m c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body leaves in the output block -/

/-- Offsets all zero, in three and in two axes. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- A load through the rectangle that is a buffer's whole block, at offsets zero, reads the buffer's contents. -/
theorem load_whole {Val : EltTy → Type} {sg : RefSig} {κ : Kind} {sp : Space} {S : Shape} {e : EltTy} (v : View sg κ sp S e)
    {off : Fin S.rank → Nat} (h : off = fun _ => 0) (inb : ∀ a, off a + S.size a ≤ S.size a) (f : v.ty.Contents Val) :
    v.readAt Val (Rect.unit off S.size inb).toLoadRect f = v.read Val f :=
  View.ld_unit_zero h inb _

/-- The rectangle of the body's one store: the whole [1,64,128] output block. -/
abbrev outputRect : Rect S1x64x128 := Rect.unit (s := S1x64x128) ![0, 0, 0] S1x64x128.size inb_S1x64x128_S1x64x128_0_0_0

/-- The output block after the body, from the nine input blocks: one piece, the whole block, holding `stored` of them. -/
def leftInOutput (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) : Vec F S1x64x128 .f32 :=
  View.canon [⟨outputRect, stored e arc wcat b10 b11 w20 b20 w21 b21⟩]

/-- One piece that is the whole block: the block holds exactly the stored value. -/
theorem leftInOutput_eq (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) :
    leftInOutput e arc wcat b10 b11 w20 b20 w21 b21 = stored e arc wcat b10 b11 w20 b20 w21 b21 :=
  View.canon_unit_zero (S := S1x64x128) zeros3 inb_S1x64x128_S1x64x128_0_0_0 _

/-- The one store covers the block. -/
theorem output_covered (p : Vec F S1x64x128 .f32) (y : S1x64x128.Idx) :
    ∃ pc ∈ ([⟨outputRect, p⟩] : List (View.Piece (Elt F) S1x64x128 .f32)), y ∈ pc.1.set :=
  ⟨_, List.mem_singleton_self _, View.mem_set_unit_zero (S := S1x64x128) zeros3 inb_S1x64x128_S1x64x128_0_0_0 y⟩

/-! ## The body -/

set_option maxHeartbeats 1000000 in
/-- The body on ten whole staging buffers, the nine inputs holding `e` … `b21` and the output anything: it loads the nine
    inputs, computes, reads the output buffer once without using what it reads, and stores `stored` of the inputs over
    the whole output block. So it hands the inputs back as they were and the output at `leftInOutput` of them. The body
    comes in three parts; only the first touches memory (the nine loads), the other two are pure arithmetic. -/
theorem body_triple (c : Dev nD) (E : Set ℕ) (i : grid0.Coords) (arg1 : Memref sig .tc .vmem S1x64x128 .f32) (harg1 : arg1.IsWhole) (arg2 : Memref sig .tc .vmem S1x64x64 .i32) (harg2 : arg2.IsWhole) (arg3 : Memref sig .tc .vmem S128x1024 .bf16) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x64x128 .f32) (harg10 : arg10.IsWhole)
    (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) (K : PUnit → sProp 𝕄) :
    iprop(owns (c : Thread nD τ) arg1 fullShare e ∗ owns (c : Thread nD τ) arg2 fullShare arc ∗ owns (c : Thread nD τ) arg3 fullShare wcat ∗ owns (c : Thread nD τ) arg4 fullShare b10 ∗ owns (c : Thread nD τ) arg5 fullShare b11 ∗ owns (c : Thread nD τ) arg6 fullShare w20 ∗ owns (c : Thread nD τ) arg7 fullShare b20 ∗ owns (c : Thread nD τ) arg8 fullShare w21 ∗ owns (c : Thread nD τ) arg9 fullShare b21
        ∗ (∃ d, owns (c : Thread nD τ) arg10 fullShare d)
        ∗ (iprop(owns (c : Thread nD τ) arg1 fullShare e ∗ owns (c : Thread nD τ) arg2 fullShare arc ∗ owns (c : Thread nD τ) arg3 fullShare wcat ∗ owns (c : Thread nD τ) arg4 fullShare b10 ∗ owns (c : Thread nD τ) arg5 fullShare b11 ∗ owns (c : Thread nD τ) arg6 fullShare w20 ∗ owns (c : Thread nD τ) arg7 fullShare b20 ∗ owns (c : Thread nD τ) arg8 fullShare w21 ∗ owns (c : Thread nD τ) arg9 fullShare b21
            ∗ owns (c : Thread nD τ) arg10 fullShare (leftInOutput e arc wcat b10 b11 w20 b20 w21 b21)) -∗ K ⟨⟩))
      ⊢ wp frame (wpE (defs₀ (F := F)) Variants.none c none) E (cc0__mp_kernel i arg1 harg1 arg2 harg2 arg3 harg3 arg4 harg4 arg5 harg5 arg6 harg6 arg7 harg7 arg8 harg8 arg9 harg9 arg10 harg10) K := by
  simp only [cc0__mp_kernel_eq_skeleton]; unfold cc0__mp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (output_covered _)).trans ?_
  unfold leftInOutput stored
  rw [← load_whole arg1.view zeros3 inb_S1x64x128_S1x64x128_0_0_0 f1,
    ← load_whole arg2.view zeros3 inb_S1x64x64_S1x64x64_0_0_0 f2,
    ← load_whole arg3.view zeros2 inb_S128x1024_S128x1024_0_0 f3,
    ← load_whole arg4.view zeros2 inb_S1x256_S1x256_0_0 f4,
    ← load_whole arg5.view zeros2 inb_S1x256_S1x256_0_0 f5,
    ← load_whole arg6.view zeros2 inb_S256x128_S256x128_0_0 f6,
    ← load_whole arg7.view zeros2 inb_S1x128_S1x128_0_0 f7,
    ← load_whole arg8.view zeros2 inb_S256x128_S256x128_0_0 f8,
    ← load_whole arg9.view zeros2 inb_S1x128_S1x128_0_0 f9]
  rfl

/-! ## The proof data of the grid -/

/-- What the grid's run is measured against, on core `c`: the ten arrays as the grid finds them; after the body at
    point `t`, each input's staging buffer still at its block and the output's at `leftInOutput` of the nine input
    blocks; the invariant the bare one (the core's other scoped buffers and its generator register, untouched); full
    shares; nothing owed to other cores. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => leftInOutput (blockAt m c 0 t) (blockAt m c 1 t) (blockAt m c 2 t) (blockAt m c 3 t) (blockAt m c 4 t) (blockAt m c 5 t) (blockAt m c 6 t) (blockAt m c 7 t) (blockAt m c 8 t)
  Φ _ := Pipeline.ΦA spec0 c
  q _ := fullShare
  owed _ := 0

/-- The arrays of the proof data are the buffers at the grid's entry. -/
theorem A_eq (c : Dev nD) (w : Fin cfg0.W) : (dats m 0 c).A w = entryAt m c (Pipeline.arrRef spec0 w) := by
  dsimp only [dats]

theorem after_embeddings (c : Dev nD) (t : Fin cfg0.N) : (dats m 0 c).after 0 t = blockAt m c 0 t := by dsimp only [dats]
theorem after_edge_types (c : Dev nD) (t : Fin cfg0.N) : (dats m 0 c).after 1 t = blockAt m c 1 t := by dsimp only [dats]
theorem after_packed_weights (c : Dev nD) (t : Fin cfg0.N) : (dats m 0 c).after 2 t = blockAt m c 2 t := by dsimp only [dats]
theorem after_bias10 (c : Dev nD) (t : Fin cfg0.N) : (dats m 0 c).after 3 t = blockAt m c 3 t := by dsimp only [dats]
theorem after_bias11 (c : Dev nD) (t : Fin cfg0.N) : (dats m 0 c).after 4 t = blockAt m c 4 t := by dsimp only [dats]
theorem after_weights20 (c : Dev nD) (t : Fin cfg0.N) : (dats m 0 c).after 5 t = blockAt m c 5 t := by dsimp only [dats]
theorem after_bias20 (c : Dev nD) (t : Fin cfg0.N) : (dats m 0 c).after 6 t = blockAt m c 6 t := by dsimp only [dats]
theorem after_weights21 (c : Dev nD) (t : Fin cfg0.N) : (dats m 0 c).after 7 t = blockAt m c 7 t := by dsimp only [dats]
theorem after_bias21 (c : Dev nD) (t : Fin cfg0.N) : (dats m 0 c).after 8 t = blockAt m c 8 t := by dsimp only [dats]
/-- The output block after point `t`: the stored value of batch `t`'s blocks and the weights. -/
theorem after_output (c : Dev nD) (t : Fin cfg0.N) :
    (dats m 0 c).after 9 t = leftInOutput (blockAt m c 0 t) (blockAt m c 1 t) (blockAt m c 2 t) (blockAt m c 3 t) (blockAt m c 4 t) (blockAt m c 5 t) (blockAt m c 6 t) (blockAt m c 7 t) (blockAt m c 8 t) := by
  dsimp only [dats]

theorem before_embeddings (c : Dev nD) (t : Fin cfg0.N) (d) : (dats m 0 c).before 0 t d = blockAt m c 0 t :=
  found_embeddings m (dats m 0 c) (A_eq m c 0) (after_embeddings m c) t d
theorem before_edge_types (c : Dev nD) (t : Fin cfg0.N) (d) : (dats m 0 c).before 1 t d = blockAt m c 1 t :=
  found_edge_types m (dats m 0 c) (A_eq m c 1) (after_edge_types m c) t d
theorem before_packed_weights (c : Dev nD) (t : Fin cfg0.N) (d) : (dats m 0 c).before 2 t d = blockAt m c 2 t :=
  found_packed_weights m (dats m 0 c) (A_eq m c 2) (after_packed_weights m c) t d
theorem before_bias10 (c : Dev nD) (t : Fin cfg0.N) (d) : (dats m 0 c).before 3 t d = blockAt m c 3 t :=
  found_bias10 m (dats m 0 c) (A_eq m c 3) (after_bias10 m c) t d
theorem before_bias11 (c : Dev nD) (t : Fin cfg0.N) (d) : (dats m 0 c).before 4 t d = blockAt m c 4 t :=
  found_bias11 m (dats m 0 c) (A_eq m c 4) (after_bias11 m c) t d
theorem before_weights20 (c : Dev nD) (t : Fin cfg0.N) (d) : (dats m 0 c).before 5 t d = blockAt m c 5 t :=
  found_weights20 m (dats m 0 c) (A_eq m c 5) (after_weights20 m c) t d
theorem before_bias20 (c : Dev nD) (t : Fin cfg0.N) (d) : (dats m 0 c).before 6 t d = blockAt m c 6 t :=
  found_bias20 m (dats m 0 c) (A_eq m c 6) (after_bias20 m c) t d
theorem before_weights21 (c : Dev nD) (t : Fin cfg0.N) (d) : (dats m 0 c).before 7 t d = blockAt m c 7 t :=
  found_weights21 m (dats m 0 c) (A_eq m c 7) (after_weights21 m c) t d
theorem before_bias21 (c : Dev nD) (t : Fin cfg0.N) (d) : (dats m 0 c).before 8 t d = blockAt m c 8 t :=
  found_bias21 m (dats m 0 c) (A_eq m c 8) (after_bias21 m c) t d

/-! ## Every point's body meets its obligation -/

/-- What the body is handed at point `t`: the invariant, the core's debts (none), and the ten current staging buffers. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it must hand back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the nine input buffers hold their blocks, so the body's triple applies; the invariant and the debts
    pass through untouched. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_embeddings, before_edge_types, before_packed_weights, before_bias10, before_bias11, before_weights20, before_bias20, before_weights21, before_bias21]
  rw [show (dats m 0 c).Φ t.succ = (dats m 0 c).Φ t.castSucc from rfl,
    show (dats m 0 c).owesAt () t.succ = (dats m 0 c).owesAt () t.castSucc from rfl,
    after_embeddings, after_edge_types, after_packed_weights, after_bias10, after_bias11, after_weights20, after_bias20, after_weights21, after_bias21, after_output]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation, at every point of the grid. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with the semaphores at zero, every weakly fair execution of @main on the TensorCores terminates
    without fault, and at the end each window's array holds what the write-backs of the proof data make of it and every
    other unscoped buffer what the last two operations leave. -/
theorem run_main : θ_run defs (onTc (τ := τ) (main (F := F))) (s₀ m ρ)
    (Pipeline.FramePost cfgs (dats m) 0 (Pipeline.afterTail₀ cfgs (dats m) 0 (entryVals m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVals m) (opss := [hostOps1]) (hsub := suffix_within) (hfresh := suffix_fresh)
    (hkeep := suffix_spares_windows) (hmain := main_around m Variants.none) (hA := A_eq m) (hΦ := fun _ _ => rfl)

/-- Any final state the run allows has the twelve arguments as launched. Eleven of them no window stages and no
    operation writes, so they are read off the bypassing buffers; the edge types are window 1's array, an input the grid
    never writes back. Stated for any proof data over the same entry arrays. -/
theorem args_unchanged_of_post (dats : (p : Fin 1) → (c : Dev nD) → Dat τ (Elt F) Unit ℕ (UR sig nD τ) ℕ (cfgs p) c)
    (hA : ∀ c w, (dats 0 c).A w = entryAt m c (Pipeline.arrRef spec0 w)) (r : PUnit × MemSt nD τ sig (Elt F))
    (h : Pipeline.FramePost cfgs dats 0 (Pipeline.afterTail₀ cfgs dats 0 (entryVals m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (kept_arg0 m dats c),
   ((h c).1 1).trans (((dats 0 c).arrAt_in 1 rfl _).trans ((hA c 1).trans (entry_arg1 m c))),
   ((h c).2 main_arg2 (Pipeline.mem_restRefs_of main_arg2 (by decide) (by decide))).trans (kept_arg2 m dats c),
   ((h c).2 main_arg3 (Pipeline.mem_restRefs_of main_arg3 (by decide) (by decide))).trans (kept_arg3 m dats c),
   ((h c).2 main_arg4 (Pipeline.mem_restRefs_of main_arg4 (by decide) (by decide))).trans (kept_arg4 m dats c),
   ((h c).2 main_arg5 (Pipeline.mem_restRefs_of main_arg5 (by decide) (by decide))).trans (kept_arg5 m dats c),
   ((h c).2 main_arg6 (Pipeline.mem_restRefs_of main_arg6 (by decide) (by decide))).trans (kept_arg6 m dats c),
   ((h c).2 main_arg7 (Pipeline.mem_restRefs_of main_arg7 (by decide) (by decide))).trans (kept_arg7 m dats c),
   ((h c).2 main_arg8 (Pipeline.mem_restRefs_of main_arg8 (by decide) (by decide))).trans (kept_arg8 m dats c),
   ((h c).2 main_arg9 (Pipeline.mem_restRefs_of main_arg9 (by decide) (by decide))).trans (kept_arg9 m dats c),
   ((h c).2 main_arg10 (Pipeline.mem_restRefs_of main_arg10 (by decide) (by decide))).trans (kept_arg10 m dats c),
   ((h c).2 main_arg11 (Pipeline.mem_restRefs_of main_arg11 (by decide) (by decide))).trans (kept_arg11 m dats c)⟩

/-- The frame: the program runs to the end from any launch memory, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_unchanged_of_post m (dats m) (A_eq m) r h c) (run_main m ρ)

end Cert.KernelIdeal.Hand

end
-- ==== Proof.MsgLaw.lean ====
/-
  One round of message passing on a batch, in the two arrangements the two programs use, over the extended reals.

  A batch has 64 nodes with 128 features each, `E r d`, and an edge type `a r c` for every ordered pair (receiver
  `r`, sender `c`). Two edge networks (type 0 and type 1), each a two-layer perceptron with relu: the first layer
  maps the 256-vector "sender's features, then receiver's features" to 256 hidden units, the second maps those to
  128 features. A round adds to each receiver the sum over senders of the two networks' messages blended by the
  edge type.

  * The reference contracts the concatenated 256-vector against the first-layer weights and blends as
    `m₀ · (1 - a) + m₁ · a`.
  * The kernel contracts the sender half and the receiver half separately (a sum over 256 split into two sums
    over 128: pure re-association, valid for all extended reals) and blends as `m₀ + a · (m₁ - m₀)`.

  The two blends agree when `m₀`, `m₁` and `a` are real numbers (distributivity fails at the infinities), and a round
  maps real features to real features when the weights are real; so three rounds agree on real data.
-/
import Mathlib.Data.EReal.Operations
import Mathlib.Algebra.BigOperators.Fin

noncomputable section

namespace Cert.MsgPass

open Finset

/-! ## Real-valued extended reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The two blends of a pair of messages by an edge type agree on real numbers. -/
theorem blend_eq {m₀ m₁ a : EReal} (h₀ : IsReal m₀) (h₁ : IsReal m₁) (ha : IsReal a) :
    m₀ + a * (m₁ - m₀) = m₀ * (1 - a) + m₁ * a := by
  obtain ⟨x, rfl⟩ := h₀; obtain ⟨y, rfl⟩ := h₁; obtain ⟨t, rfl⟩ := ha
  rw [← EReal.coe_one, ← EReal.coe_sub, ← EReal.coe_sub, ← EReal.coe_mul, ← EReal.coe_mul, ← EReal.coe_mul,
    ← EReal.coe_add, ← EReal.coe_add]
  congr 1; ring

/-! ## The parameters and one round -/

/-- The lower and upper half of the 256 first-layer inputs. -/
def lo (e : Fin 128) : Fin 256 := ⟨e.val, by omega⟩
def hi (e : Fin 128) : Fin 256 := ⟨e.val + 128, by omega⟩

/-- The two edge networks' parameters: `w1 k h e`, `b1 k h`, `w2 k d h`, `b2 k d` for network `k`. -/
structure Par where
  w1 : Fin 2 → Fin 256 → Fin 256 → EReal
  b1 : Fin 2 → Fin 256 → EReal
  w2 : Fin 2 → Fin 128 → Fin 256 → EReal
  b2 : Fin 2 → Fin 128 → EReal

/-- Every parameter is a real number. -/
structure Par.Real (P : Par) : Prop where
  w1 : ∀ k h e, IsReal (P.w1 k h e)
  b1 : ∀ k h, IsReal (P.b1 k h)
  w2 : ∀ k d h, IsReal (P.w2 k d h)
  b2 : ∀ k d, IsReal (P.b2 k d)

/-- The parameters from the eight weight arrays, network 0's first. -/
def parOf (W10 : Fin 256 → Fin 256 → EReal) (B10 : Fin 256 → EReal) (W20 : Fin 128 → Fin 256 → EReal) (B20 : Fin 128 → EReal)
    (W11 : Fin 256 → Fin 256 → EReal) (B11 : Fin 256 → EReal) (W21 : Fin 128 → Fin 256 → EReal) (B21 : Fin 128 → EReal) : Par :=
  ⟨fun k => if k = 0 then W10 else W11, fun k => if k = 0 then B10 else B11,
   fun k => if k = 0 then W20 else W21, fun k => if k = 0 then B20 else B21⟩

section parOf
variable (W10 : Fin 256 → Fin 256 → EReal) (B10 : Fin 256 → EReal) (W20 : Fin 128 → Fin 256 → EReal) (B20 : Fin 128 → EReal)
  (W11 : Fin 256 → Fin 256 → EReal) (B11 : Fin 256 → EReal) (W21 : Fin 128 → Fin 256 → EReal) (B21 : Fin 128 → EReal)
theorem parOf_w1_0 : (parOf W10 B10 W20 B20 W11 B11 W21 B21).w1 0 = W10 := rfl
theorem parOf_w1_1 : (parOf W10 B10 W20 B20 W11 B11 W21 B21).w1 1 = W11 := rfl
theorem parOf_b1_0 : (parOf W10 B10 W20 B20 W11 B11 W21 B21).b1 0 = B10 := rfl
theorem parOf_b1_1 : (parOf W10 B10 W20 B20 W11 B11 W21 B21).b1 1 = B11 := rfl
theorem parOf_w2_0 : (parOf W10 B10 W20 B20 W11 B11 W21 B21).w2 0 = W20 := rfl
theorem parOf_w2_1 : (parOf W10 B10 W20 B20 W11 B11 W21 B21).w2 1 = W21 := rfl
theorem parOf_b2_0 : (parOf W10 B10 W20 B20 W11 B11 W21 B21).b2 0 = B20 := rfl
theorem parOf_b2_1 : (parOf W10 B10 W20 B20 W11 B11 W21 B21).b2 1 = B21 := rfl

/-- Real weight arrays give real parameters. -/
theorem parOf_real (h1 : ∀ h e, IsReal (W10 h e)) (h2 : ∀ h, IsReal (B10 h)) (h3 : ∀ d h, IsReal (W20 d h)) (h4 : ∀ d, IsReal (B20 d))
    (h5 : ∀ h e, IsReal (W11 h e)) (h6 : ∀ h, IsReal (B11 h)) (h7 : ∀ d h, IsReal (W21 d h)) (h8 : ∀ d, IsReal (B21 d)) :
    (parOf W10 B10 W20 B20 W11 B11 W21 B21).Real :=
  ⟨fun k h e => by unfold parOf; dsimp only; split_ifs <;> [exact h1 h e; exact h5 h e],
   fun k h => by unfold parOf; dsimp only; split_ifs <;> [exact h2 h; exact h6 h],
   fun k d h => by unfold parOf; dsimp only; split_ifs <;> [exact h3 d h; exact h7 d h],
   fun k d => by unfold parOf; dsimp only; split_ifs <;> [exact h4 d; exact h8 d]⟩
end parOf

variable (P : Par) (a : Fin 64 → Fin 64 → EReal) (E : Fin 64 → Fin 128 → EReal)

/-- The first layer's input on the edge from sender `c` to receiver `r`: the sender's features, then the receiver's. -/
def pre (r c : Fin 64) (e : Fin 256) : EReal :=
  if h : e.val < 128 then E c ⟨e.val, h⟩ else E r ⟨e.val - 128, by omega⟩

/-- Hidden units, the reference's arrangement: one contraction over the 256 joined inputs. -/
def hidR (k : Fin 2) (r c : Fin 64) (h : Fin 256) : EReal :=
  max ((∑ e : Fin 256, pre E r c e * P.w1 k h e) + P.b1 k h) 0

/-- Hidden units, the kernel's arrangement: the sender's half plus the receiver's half. -/
def hidK (k : Fin 2) (r c : Fin 64) (h : Fin 256) : EReal :=
  max (((∑ e : Fin 128, E c e * P.w1 k h (lo e)) + (∑ e : Fin 128, E r e * P.w1 k h (hi e))) + P.b1 k h) 0

/-- A network's message from its hidden units. -/
def msg (hid : Fin 2 → Fin 64 → Fin 64 → Fin 256 → EReal) (k : Fin 2) (r c : Fin 64) (d : Fin 128) : EReal :=
  max ((∑ h : Fin 256, hid k r c h * P.w2 k d h) + P.b2 k d) 0

/-- One round, the reference's arrangement. -/
def roundR (r : Fin 64) (d : Fin 128) : EReal :=
  E r d + (0 + ∑ c : Fin 64, (msg P (hidR P E) 0 r c d * (1 - a r c) + msg P (hidR P E) 1 r c d * a r c))

/-- One round, the kernel's arrangement (its lane sum has no initial value to add). -/
def roundK (r : Fin 64) (d : Fin 128) : EReal :=
  E r d + ∑ c : Fin 64, (msg P (hidK P E) 0 r c d + a r c * (msg P (hidK P E) 1 r c d - msg P (hidK P E) 0 r c d))

/-! ## The two arrangements agree -/

/-- A contraction over the 256 joined inputs is the sender half's plus the receiver half's: for all extended reals. -/
theorem sum_pre (w : Fin 256 → EReal) (r c : Fin 64) :
    (∑ e : Fin 256, pre E r c e * w e) = (∑ e : Fin 128, E c e * w (lo e)) + ∑ e : Fin 128, E r e * w (hi e) := by
  have key := Fin.sum_univ_add (a := 128) (b := 128) (fun e : Fin (128 + 128) => pre E r c e * w e)
  refine key.trans (congrArg₂ (· + ·) (Finset.sum_congr rfl fun e _ => ?_) (Finset.sum_congr rfl fun e _ => ?_))
  · have h : (Fin.castAdd 128 e : Fin (128 + 128)).val < 128 := e.isLt
    simp only [pre, dif_pos h]
    rfl
  ·
    have h : ¬ (Fin.natAdd 128 e : Fin (128 + 128)).val < 128 := by simp [Fin.natAdd]
    simp only [pre, dif_neg h]
    have e1 : (⟨(Fin.natAdd 128 e : Fin (128 + 128)).val - 128, by simp [Fin.natAdd]⟩ : Fin 128) = e := Fin.ext (by simp [Fin.natAdd])
    have e2 : (Fin.natAdd 128 e : Fin (128 + 128)) = hi e := Fin.ext (by simp [Fin.natAdd, hi]; omega)
    rw [e2] at *
    congr 2
    exact Fin.ext (by simp [hi])

theorem hidK_eq_hidR : hidK P E = hidR P E := by
  funext k r c h
  simp only [hidK, hidR, sum_pre]

variable {P a E}

theorem hidR_real (hP : P.Real) (hE : ∀ r d, IsReal (E r d)) (k : Fin 2) (r c : Fin 64) (h : Fin 256) :
    IsReal (hidR P E k r c h) := by
  refine ((IsReal.sum _ _ fun e _ => IsReal.mul ?_ (hP.w1 k h e)).add (hP.b1 k h)).max IsReal.zero
  unfold pre; split_ifs <;> exact hE _ _

theorem msg_real (hP : P.Real) {hid : Fin 2 → Fin 64 → Fin 64 → Fin 256 → EReal} (hh : ∀ k r c h, IsReal (hid k r c h))
    (k : Fin 2) (r c : Fin 64) (d : Fin 128) : IsReal (msg P hid k r c d) :=
  ((IsReal.sum _ _ fun h _ => (hh k r c h).mul (hP.w2 k d h)).add (hP.b2 k d)).max IsReal.zero

/-- On real data the kernel's round is the reference's. -/
theorem roundK_eq_roundR (hP : P.Real) (ha : ∀ r c, IsReal (a r c)) (hE : ∀ r d, IsReal (E r d)) :
    roundK P a E = roundR P a E := by
  funext r d
  simp only [roundK, roundR, hidK_eq_hidR, zero_add]
  congr 1
  refine Finset.sum_congr rfl fun c _ => ?_
  exact blend_eq (msg_real hP (hidR_real hP hE) 0 r c d) (msg_real hP (hidR_real hP hE) 1 r c d) (ha r c)

/-- A round keeps real features real. -/
theorem roundR_real (hP : P.Real) (ha : ∀ r c, IsReal (a r c)) (hE : ∀ r d, IsReal (E r d)) (r : Fin 64) (d : Fin 128) :
    IsReal (roundR P a E r d) := by
  refine (hE r d).add (IsReal.zero.add (IsReal.sum _ _ fun c _ => ?_))
  have m0 := msg_real hP (hidR_real hP hE) 0 r c d
  have m1 := msg_real hP (hidR_real hP hE) 1 r c d
  exact (m0.mul (IsReal.one.sub (ha r c))).add (m1.mul (ha r c))

/-- Three rounds: the kernel's arrangement is the reference's on real data. -/
theorem three_rounds (hP : P.Real) (ha : ∀ r c, IsReal (a r c)) (hE : ∀ r d, IsReal (E r d)) :
    roundK P a (roundK P a (roundK P a E)) = roundR P a (roundR P a (roundR P a E)) := by
  have h1 := roundK_eq_roundR hP ha hE
  have r1 := roundR_real hP ha hE
  have h2 := roundK_eq_roundR hP ha r1
  have r2 := roundR_real hP ha r1
  have h3 := roundK_eq_roundR hP ha r2
  rw [h1, h2, h3]

end Cert.MsgPass

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KRound.lean ====
/-
  One round of message passing as the kernel's vector operations, read at an index at the ideal values.

  The body keeps a batch's embeddings as a [64,128] vector and runs the same sequence of operations three times.
  A round: one product of the embeddings with the packed first-layer weights [128,1024] gives, in four column
  blocks of 256, the sender and receiver contributions of the two edge networks; the hidden units on the edge
  (receiver r, sender c) are relu (S[c] + R[r] + bias); they are flattened to 4096 edge rows for the second
  product, biased, clipped at zero and folded back to [64,64,128]; the two networks' messages are blended by the
  edge type as m₀ + a · (m₁ - m₀) and summed over the senders; the sum is added to the embeddings.

  `kround` is that sequence as one term at any float instance, `stored_eq` says the value the body stores is three
  of them, and `kround_apply` reads one at a row and a feature as the specification's `roundK`, given what the
  weight blocks hold entry by entry.
-/
import proofs.«175625_j65085934403743_2_alg».proof.Proof.StoredIdeal
import proofs.«175625_j65085934403743_2_alg».proof.Proof.MsgLaw
import proofs.«175625_j65085934403743_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen Cert.MsgPass

variable {F : FTy → Type} [FloatOps F]

/-- The hidden units of one edge network on every edge: relu (S[sender] + R[receiver] + bias). -/
def khid (s r : FVec F S64x256 .f32) (b : FVec F S1x256 .f32) : FVec F S64x64x256 .f32 :=
  maximumf
    (addf
      (addf (broadcastTo S64x64x256 (shapeCast S1x64x256 s shapeCasts_S64x256_S1x64x256) broadcasts_S1x64x256_S64x64x256)
        (broadcastTo S64x64x256 (shapeCast S64x1x256 r shapeCasts_S64x256_S64x1x256) broadcasts_S64x1x256_S64x64x256))
      (broadcastTo S64x64x256 (shapeCast S1x1x256 b shapeCasts_S1x256_S1x1x256) broadcasts_S1x1x256_S64x64x256))
    (broadcast S64x64x256 (Scalar.ofBits .f32 0x00000000#32))

/-- The messages of one edge network from its hidden units: the second product over the 4096 flattened edges. -/
def kmsg (h : FVec F S64x64x256 .f32) (w : FVec F S256x128 .bf16) (b : FVec F S1x128 .f32) : FVec F S64x64x128 .f32 :=
  shapeCast S64x64x128
    (maximumf
      (addf
        (matmul dot_S4096x256_S256x128_S4096x128_1_0_0_1_n_n none
          (shapeCast S4096x256 (truncf .bf16 h bitsLt_bf16_f32) shapeCasts_S64x64x256_S4096x256) w
          (constant S4096x128 .f32 0x00000000#32))
        (broadcastTo S4096x128 b broadcasts_S1x128_S4096x128))
      (broadcast S4096x128 (Scalar.ofBits .f32 0x00000000#32)))
    shapeCasts_S4096x128_S64x64x128

/-- The embeddings' product with the packed first-layer weights. -/
def kfirst (E : FVec F S64x128 .f32) (wcat : FVec F S128x1024 .bf16) : FVec F S64x1024 .f32 :=
  matmul dot_S64x128_S128x1024_S64x1024_1_0_0_1_n_n none (truncf .bf16 E bitsLt_bf16_f32) wcat (constant S64x1024 .f32 0x00000000#32)

/-- One round on a batch's embeddings. -/
def kround (E : FVec F S64x128 .f32) (a5 : FVec F S64x64x1 .f32) (wcat : FVec F S128x1024 .bf16) (b10 b11 : FVec F S1x256 .f32)
    (w20 w21 : FVec F S256x128 .bf16) (b20 b21 : FVec F S1x128 .f32) : FVec F S64x128 .f32 :=
  addf E
    (multiReduction .add [1] S64x128
      (addf
        (kmsg (khid (extractStridedSlice S64x256 ![0, 0] (kfirst E wcat) slices_S64x1024_o0_0_S64x256)
          (extractStridedSlice S64x256 ![0, 256] (kfirst E wcat) slices_S64x1024_o0_256_S64x256) b10) w20 b20)
        (mulf (broadcastTo S64x64x128 a5 broadcasts_S64x64x1_S64x64x128)
          (subf
            (kmsg (khid (extractStridedSlice S64x256 ![0, 512] (kfirst E wcat) slices_S64x1024_o0_512_S64x256)
              (extractStridedSlice S64x256 ![0, 768] (kfirst E wcat) slices_S64x1024_o0_768_S64x256) b11) w21 b21)
            (kmsg (khid (extractStridedSlice S64x256 ![0, 0] (kfirst E wcat) slices_S64x1024_o0_0_S64x256)
              (extractStridedSlice S64x256 ![0, 256] (kfirst E wcat) slices_S64x1024_o0_256_S64x256) b10) w20 b20))))
      0x00000000#32 reduces_S64x64x128_S64x128 (.inl rfl) rfl)

/-- The value the body stores is three rounds on the loaded embeddings, recast to the block's shape. -/
theorem stored_eq (e : Vec F S1x64x128 .f32) (arc : Vec F S1x64x64 .i32) (wcat : Vec F S128x1024 .bf16)
    (b10 b11 : Vec F S1x256 .f32) (w20 : Vec F S256x128 .bf16) (b20 : Vec F S1x128 .f32)
    (w21 : Vec F S256x128 .bf16) (b21 : Vec F S1x128 .f32) :
    stored e arc wcat b10 b11 w20 b20 w21 b21
      = shapeCast S1x64x128
          (kround
            (kround
              (kround (k0_pay2 e) (k0_pay3 arc) (k0_pay4 wcat) (k0_pay5 b10) (k0_pay6 b11) (k0_pay7 w20) (k0_pay8 w21) (k0_pay9 b20) (k0_pay10 b21))
              (k0_pay3 arc) (k0_pay4 wcat) (k0_pay5 b10) (k0_pay6 b11) (k0_pay7 w20) (k0_pay8 w21) (k0_pay9 b20) (k0_pay10 b21))
            (k0_pay3 arc) (k0_pay4 wcat) (k0_pay5 b10) (k0_pay6 b11) (k0_pay7 w20) (k0_pay8 w21) (k0_pay9 b20) (k0_pay10 b21))
          shapeCasts_S64x128_S1x64x128 := rfl

/-! ## A round read at an index, at the ideal values -/

/-- Hidden units on the edge (receiver `i`, sender `c`). -/
theorem khid_apply (s r : FVec Ideal S64x256 .f32) (b : FVec Ideal S1x256 .f32) (i c : Fin 64) (h : Fin 256) :
    khid (F := Ideal) s r b (ix3 i c h) = max ((s (ix2 c h) + r (ix2 i h)) + b (ix2 (0 : Fin 1) h)) 0 := by
  have e1 : broadcastTo S64x64x256 (shapeCast S1x64x256 s shapeCasts_S64x256_S1x64x256) broadcasts_S1x64x256_S64x64x256 (ix3 i c h) = s (ix2 c h) :=
    (broadcastTo_apply _ _ (ix3 i c h) (ix3 (0 : Fin 1) c h) (fun a => by match a with | ⟨0, _⟩ => rfl | ⟨1, _⟩ => rfl | ⟨2, _⟩ => rfl)).trans
      (shapeCast_apply _ _ (ix3 (0 : Fin 1) c h) (ix2 c h) (by
        rw [Shape.rowMajor_val_two, Shape.rowMajor_val_three]
        show c.val * 256 + h.val = (0 * 64 + c.val) * 256 + h.val
        omega))
  have e2 : broadcastTo S64x64x256 (shapeCast S64x1x256 r shapeCasts_S64x256_S64x1x256) broadcasts_S64x1x256_S64x64x256 (ix3 i c h) = r (ix2 i h) :=
    (broadcastTo_apply _ _ (ix3 i c h) (ix3 i (0 : Fin 1) h) (fun a => by match a with | ⟨0, _⟩ => rfl | ⟨1, _⟩ => rfl | ⟨2, _⟩ => rfl)).trans
      (shapeCast_apply _ _ (ix3 i (0 : Fin 1) h) (ix2 i h) (by
        rw [Shape.rowMajor_val_two, Shape.rowMajor_val_three]
        show i.val * 256 + h.val = (i.val * 1 + 0) * 256 + h.val
        omega))
  have e3 : broadcastTo S64x64x256 (shapeCast S1x1x256 b shapeCasts_S1x256_S1x1x256) broadcasts_S1x1x256_S64x64x256 (ix3 i c h) = b (ix2 (0 : Fin 1) h) :=
    (broadcastTo_apply _ _ (ix3 i c h) (ix3 (0 : Fin 1) (0 : Fin 1) h) (fun a => by match a with | ⟨0, _⟩ => rfl | ⟨1, _⟩ => rfl | ⟨2, _⟩ => rfl)).trans
      (shapeCast_apply _ _ (ix3 (0 : Fin 1) (0 : Fin 1) h) (ix2 (0 : Fin 1) h) (by
        rw [Shape.rowMajor_val_two, Shape.rowMajor_val_three]
        show 0 * 256 + h.val = (0 * 1 + 0) * 256 + h.val
        omega))
  unfold khid
  rw [maximumf_apply, addf_apply, addf_apply, e1, e2, e3, broadcast_apply]
  show max _ (Ideal.ofBits .f32 0x00000000#32) = _
  rw [Ideal.ofBits_zero_f32]

/-- A network's message on the edge (receiver `i`, sender `c`) at feature `d`. -/
theorem kmsg_apply (hd : FVec Ideal S64x64x256 .f32) (w : FVec Ideal S256x128 .bf16) (b : FVec Ideal S1x128 .f32)
    (i c : Fin 64) (d : Fin 128) :
    kmsg (F := Ideal) hd w b (ix3 i c d) = max ((∑ k : Fin 256, hd (ix3 i c k) * w (ix2 k d)) + b (ix2 (0 : Fin 1) d)) 0 := by
  have hj : i.val * 64 + c.val < 4096 := by have := i.isLt; have := c.isLt; omega
  have em : matmul dot_S4096x256_S256x128_S4096x128_1_0_0_1_n_n none
        (shapeCast S4096x256 (truncf .bf16 hd bitsLt_bf16_f32) shapeCasts_S64x64x256_S4096x256) w
        (constant S4096x128 .f32 0x00000000#32) (ix2 (⟨i.val * 64 + c.val, hj⟩ : Fin 4096) d)
      = ∑ k : Fin 256, hd (ix3 i c k) * w (ix2 k d) := by
    refine (Cert.Lib.PlainDot.matmul_zero_apply 4096 256 128 none _ _ (ix2 (⟨i.val * 64 + c.val, hj⟩ : Fin 4096) d)).trans
      (Finset.sum_congr rfl fun k _ => ?_)
    congr 1
    exact shapeCast_apply _ _ (ix2 (⟨i.val * 64 + c.val, hj⟩ : Fin 4096) k) (ix3 i c k) (by
      rw [Shape.rowMajor_val_two, Shape.rowMajor_val_three]
      show (i.val * 64 + c.val) * 256 + k.val = (i.val * 64 + c.val) * 256 + k.val
      rfl)
  have eb : broadcastTo S4096x128 b broadcasts_S1x128_S4096x128 (ix2 (⟨i.val * 64 + c.val, hj⟩ : Fin 4096) d) = b (ix2 (0 : Fin 1) d) :=
    broadcastTo_apply _ _ _ (ix2 (0 : Fin 1) d) (fun a => by match a with | ⟨0, _⟩ => rfl | ⟨1, _⟩ => rfl)
  unfold kmsg
  refine (shapeCast_apply _ _ (ix3 i c d) (ix2 (⟨i.val * 64 + c.val, hj⟩ : Fin 4096) d) (by
    rw [Shape.rowMajor_val_two, Shape.rowMajor_val_three]
    show (i.val * 64 + c.val) * 128 + d.val = (i.val * 64 + c.val) * 128 + d.val
    rfl)).trans ?_
  rw [maximumf_apply, addf_apply, em, eb, broadcast_apply]
  show max _ (Ideal.ofBits .f32 0x00000000#32) = _
  rw [Ideal.ofBits_zero_f32]

/-- The first product at a row and a packed column. -/
theorem kfirst_apply (E : FVec Ideal S64x128 .f32) (wcat : FVec Ideal S128x1024 .bf16) (n : Fin 64) (k : Fin 1024) :
    kfirst (F := Ideal) E wcat (ix2 n k) = ∑ e : Fin 128, E (ix2 n e) * wcat (ix2 e k) :=
  Cert.Lib.PlainDot.matmul_zero_apply 64 128 1024 none _ _ (ix2 n k)

/-- A block of 256 packed columns, starting at column `o`. -/
theorem slice_apply (x : FVec Ideal S64x1024 .f32) (o : Nat) (ho : o + 256 ≤ 1024) (hs : S64x1024.Slices ![0, o] S64x256)
    (n : Fin 64) (h : Fin 256) :
    extractStridedSlice S64x256 ![0, o] x hs (ix2 n h) = x (ix2 n (⟨o + h.val, by have := h.isLt; omega⟩ : Fin 1024)) :=
  extractStridedSlice_apply _ _ _ (ix2 n h) _ (fun a => by
    match a with
    | ⟨0, _⟩ => show n.val = 0 + n.val; omega
    | ⟨1, _⟩ => rfl)

set_option backward.isDefEq.respectTransparency.types false in
/-- The source index of the lane sum over the senders: (receiver, sender, feature). -/
theorem lift_at (r c : Fin 64) (d : Fin 128) : reduces_S64x64x128_S64x128.lift (ix2 r d) c = ix3 r c d := by
  funext x; apply Fin.ext
  match x with
  | ⟨0, _⟩ => rfl
  | ⟨1, _⟩ => rfl
  | ⟨2, _⟩ => rfl

set_option backward.isDefEq.respectTransparency.types false in
/-- The sum over the senders of a [64,64,128] vector, at (receiver r, feature d). -/
theorem lane_sum_apply (src : FVec Ideal S64x64x128 .f32) (hφ : FKind.Formats .f32)
    (hacc : (0x00000000#32 : BitVec 32) = 0x00000000#32) (r : Fin 64) (d : Fin 128) :
    multiReduction .add [1] S64x128 src 0x00000000#32 reduces_S64x64x128_S64x128 hφ hacc (ix2 r d) = ∑ c : Fin 64, src (ix3 r c d) :=
  (Ideal.multiReduction_add_single src 0x00000000#32 reduces_S64x64x128_S64x128 hφ hacc (ix2 r d)).trans
    (Finset.sum_congr rfl fun c _ => congrArg src (lift_at r c d))

/-- One round at receiver row `r` and feature `d`, given what the weight blocks hold: it is the specification's
    round in the kernel's arrangement. -/
theorem kround_apply (E : FVec Ideal S64x128 .f32) (a5 : FVec Ideal S64x64x1 .f32) (wcat : FVec Ideal S128x1024 .bf16)
    (b10 b11 : FVec Ideal S1x256 .f32) (w20 w21 : FVec Ideal S256x128 .bf16) (b20 b21 : FVec Ideal S1x128 .f32)
    (P : Par) (a : Fin 64 → Fin 64 → EReal)
    (ha : ∀ r c, a5 (ix3 r c (0 : Fin 1)) = a r c)
    (hw0l : ∀ (e : Fin 128) (h : Fin 256), wcat (ix2 e (⟨0 + h.val, by have := h.isLt; omega⟩ : Fin 1024)) = P.w1 0 h (lo e))
    (hw0h : ∀ (e : Fin 128) (h : Fin 256), wcat (ix2 e (⟨256 + h.val, by have := h.isLt; omega⟩ : Fin 1024)) = P.w1 0 h (hi e))
    (hw1l : ∀ (e : Fin 128) (h : Fin 256), wcat (ix2 e (⟨512 + h.val, by have := h.isLt; omega⟩ : Fin 1024)) = P.w1 1 h (lo e))
    (hw1h : ∀ (e : Fin 128) (h : Fin 256), wcat (ix2 e (⟨768 + h.val, by have := h.isLt; omega⟩ : Fin 1024)) = P.w1 1 h (hi e))
    (hb10 : ∀ h, b10 (ix2 (0 : Fin 1) h) = P.b1 0 h) (hb11 : ∀ h, b11 (ix2 (0 : Fin 1) h) = P.b1 1 h)
    (hw20 : ∀ (h : Fin 256) (d : Fin 128), w20 (ix2 h d) = P.w2 0 d h) (hw21 : ∀ (h : Fin 256) (d : Fin 128), w21 (ix2 h d) = P.w2 1 d h)
    (hb20 : ∀ d, b20 (ix2 (0 : Fin 1) d) = P.b2 0 d) (hb21 : ∀ d, b21 (ix2 (0 : Fin 1) d) = P.b2 1 d)
    (r : Fin 64) (d : Fin 128) :
    kround (F := Ideal) E a5 wcat b10 b11 w20 w21 b20 b21 (ix2 r d) = roundK P a (fun r' d' => E (ix2 r' d')) r d := by
  -- the two networks' messages on an edge
  have m0 : ∀ c : Fin 64, kmsg (khid (extractStridedSlice S64x256 ![0, 0] (kfirst E wcat) slices_S64x1024_o0_0_S64x256)
        (extractStridedSlice S64x256 ![0, 256] (kfirst E wcat) slices_S64x1024_o0_256_S64x256) b10) w20 b20 (ix3 r c d)
      = msg P (hidK P (fun r' d' => E (ix2 r' d'))) 0 r c d := by
    intro c
    rw [kmsg_apply, hb20]
    unfold msg
    congr 2
    refine Finset.sum_congr rfl fun k _ => ?_
    rw [khid_apply, hw20, hb10, slice_apply _ 0 (by omega), slice_apply _ 256 (by omega), kfirst_apply, kfirst_apply]
    unfold hidK
    congr 4
    · exact Finset.sum_congr rfl fun e _ => by rw [hw0l]
    · exact Finset.sum_congr rfl fun e _ => by rw [hw0h]
  have m1 : ∀ c : Fin 64, kmsg (khid (extractStridedSlice S64x256 ![0, 512] (kfirst E wcat) slices_S64x1024_o0_512_S64x256)
        (extractStridedSlice S64x256 ![0, 768] (kfirst E wcat) slices_S64x1024_o0_768_S64x256) b11) w21 b21 (ix3 r c d)
      = msg P (hidK P (fun r' d' => E (ix2 r' d'))) 1 r c d := by
    intro c
    rw [kmsg_apply, hb21]
    unfold msg
    congr 2
    refine Finset.sum_congr rfl fun k _ => ?_
    rw [khid_apply, hw21, hb11, slice_apply _ 512 (by omega), slice_apply _ 768 (by omega), kfirst_apply, kfirst_apply]
    unfold hidK
    congr 4
    · exact Finset.sum_congr rfl fun e _ => by rw [hw1l]
    · exact Finset.sum_congr rfl fun e _ => by rw [hw1h]
  have eb : ∀ c : Fin 64, broadcastTo S64x64x128 a5 broadcasts_S64x64x1_S64x64x128 (ix3 r c d) = a r c := fun c =>
    (broadcastTo_apply _ _ (ix3 r c d) (ix3 r c (0 : Fin 1)) (fun x => by match x with | ⟨0, _⟩ => rfl | ⟨1, _⟩ => rfl | ⟨2, _⟩ => rfl)).trans (ha r c)
  unfold kround roundK
  rw [addf_apply]
  refine congrArg (fun z => E (ix2 r d) + z) ?_
  refine (lane_sum_apply _ _ _ r d).trans (Finset.sum_congr rfl fun c _ => ?_)
  rw [addf_apply, mulf_apply, subf_apply, m0 c, m1 c, eb c]

end Cert.KernelIdeal.Hand

end
-- ==== Proof.Prefix.lean ====
/-
  What the host computes for the kernel before the launch, read entry by entry at the ideal values.

  The first-layer weight of network k is [256 hidden, 256 inputs]; its first 128 input columns act on the sender
  and its last 128 on the receiver. The host slices each half, transposes it to [128 inputs, 256 hidden] and joins
  the four pieces (network 0 sender, network 0 receiver, network 1 sender, network 1 receiver) along the columns
  into one packed [128,1024] matrix, so that column 256·s + h of the packed matrix, row e, is entry (h, e) or
  (h, 128 + e) of a first-layer weight. The second-layer weights are transposed to [256 hidden, 128 features], and
  each bias vector becomes a one-row matrix. The changes of float format are the identity at the ideal values.
-/
import proofs.«175625_j65085934403743_2_alg».proof.Proof.Gen.KernelIdeal
import proofs.«175625_j65085934403743_2_alg».proof.Proof.MsgLaw
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen Cert.MsgPass

variable {F : FTy → Type} [FloatOps F]

/-- One of the four packed pieces: input columns `o … o + 127` of a first-layer weight, transposed. -/
def piece (x : FVec F S256x256 .f32) (o : Nat) (hs : S256x256.Slices ![0, o] S256x128) : FVec F S128x256 .f32 :=
  transpose S128x256 [1, 0] (extractStridedSlice S256x128 ![0, o] x hs) transposes_S256x128_S128x256_1_0

/-- The packed first-layer weights, as the host builds them from the two first-layer weights. -/
def wcatOf (x4 x8 : FVec F S256x256 .f32) : FVec F S128x1024 .bf16 :=
  truncf .bf16
    (concatenate S128x1024 1
      [⟨S128x256, piece x4 0 slices_S256x256_S256x128_0_0⟩, ⟨S128x256, piece x4 128 slices_S256x256_S256x128_0_128⟩,
       ⟨S128x256, piece x8 0 slices_S256x256_S256x128_0_0⟩, ⟨S128x256, piece x8 128 slices_S256x256_S256x128_0_128⟩]
      concatenates_S128x256_S128x256_S128x256_S128x256_S128x1024_d1)
    bitsLt_bf16_f32

/-- A second-layer weight as the kernel takes it: transposed. -/
def w2tOf (x : FVec F S128x256 .f32) : FVec F S256x128 .bf16 :=
  truncf .bf16 (transpose S256x128 [1, 0] x transposes_S128x256_S256x128_1_0) bitsLt_bf16_f32

/-- A piece at (input e, hidden h) is the weight at (h, o + e). -/
theorem piece_apply (x : FVec Ideal S256x256 .f32) (o : Nat) (hs : S256x256.Slices ![0, o] S256x128) (ho : o + 128 ≤ 256)
    (e : Fin 128) (h : Fin 256) :
    piece (F := Ideal) x o hs (ix2 e h) = x (ix2 h (⟨o + e.val, by have := e.isLt; omega⟩ : Fin 256)) :=
  (transpose_apply [1, 0] _ _ (ix2 e h) (ix2 h e) (fun b => by match b with | ⟨0, _⟩ => rfl | ⟨1, _⟩ => rfl)).trans
    (extractStridedSlice_apply _ _ _ (ix2 h e) _ (fun a => by
      match a with
      | ⟨0, _⟩ => show h.val = 0 + h.val; omega
      | ⟨1, _⟩ => rfl))

/-- The packed matrix at row `e`, column `256·s + h`, is piece `s` at (e, h). -/
theorem wcatOf_block (x4 x8 : FVec Ideal S256x256 .f32) (s : Nat) (hs : s < 4) (x₁ : FVec Ideal S128x256 .f32)
    (hx : [(⟨S128x256, piece x4 0 slices_S256x256_S256x128_0_0⟩ : (s : Shape) × (s.Idx → EReal)), ⟨S128x256, piece x4 128 slices_S256x256_S256x128_0_128⟩,
       ⟨S128x256, piece x8 0 slices_S256x256_S256x128_0_0⟩, ⟨S128x256, piece x8 128 slices_S256x256_S256x128_0_128⟩][s]'(by simpa using hs) = ⟨S128x256, x₁⟩)
    (e : Fin 128) (h : Fin 256) :
    wcatOf (F := Ideal) x4 x8 (ix2 e (⟨256 * s + h.val, by have := h.isLt; omega⟩ : Fin 1024)) = x₁ (ix2 e h) := by
  unfold wcatOf
  rw [truncf_apply]
  refine concatenate_apply_piece (1 : Fin 2) _ _ (ix2 e (⟨256 * s + h.val, by have := h.isLt; omega⟩ : Fin 1024)) s (by simpa using hs)
    S128x256 x₁ hx rfl (256 * s) ?_ (ix2 e h) ?_ ?_
  · interval_cases s <;> rfl
  · intro b hb
    match b with
    | ⟨0, _⟩ => rfl
    | ⟨1, _⟩ => exact absurd rfl hb
  · rfl

theorem wcatOf_0l (x4 x8 : FVec Ideal S256x256 .f32) (e : Fin 128) (h : Fin 256) :
    wcatOf (F := Ideal) x4 x8 (ix2 e (⟨0 + h.val, by have := h.isLt; omega⟩ : Fin 1024)) = x4 (ix2 h (lo e)) := by
  have := wcatOf_block x4 x8 0 (by omega) _ rfl e h
  refine (Eq.trans (congrArg _ (congrArg _ (Fin.ext (by simp)))) this).trans ?_
  refine (piece_apply x4 0 _ (by omega) e h).trans (congrArg _ (congrArg _ (Fin.ext (by simp [lo]))))

theorem wcatOf_0h (x4 x8 : FVec Ideal S256x256 .f32) (e : Fin 128) (h : Fin 256) :
    wcatOf (F := Ideal) x4 x8 (ix2 e (⟨256 + h.val, by have := h.isLt; omega⟩ : Fin 1024)) = x4 (ix2 h (hi e)) := by
  have := wcatOf_block x4 x8 1 (by omega) _ rfl e h
  refine (Eq.trans (congrArg _ (congrArg _ (Fin.ext (by simp)))) this).trans ?_
  refine (piece_apply x4 128 _ (by omega) e h).trans (congrArg _ (congrArg _ (Fin.ext (by simp [hi]; omega))))

theorem wcatOf_1l (x4 x8 : FVec Ideal S256x256 .f32) (e : Fin 128) (h : Fin 256) :
    wcatOf (F := Ideal) x4 x8 (ix2 e (⟨512 + h.val, by have := h.isLt; omega⟩ : Fin 1024)) = x8 (ix2 h (lo e)) := by
  have := wcatOf_block x4 x8 2 (by omega) _ rfl e h
  refine (Eq.trans (congrArg _ (congrArg _ (Fin.ext (by simp)))) this).trans ?_
  refine (piece_apply x8 0 _ (by omega) e h).trans (congrArg _ (congrArg _ (Fin.ext (by simp [lo]))))

theorem wcatOf_1h (x4 x8 : FVec Ideal S256x256 .f32) (e : Fin 128) (h : Fin 256) :
    wcatOf (F := Ideal) x4 x8 (ix2 e (⟨768 + h.val, by have := h.isLt; omega⟩ : Fin 1024)) = x8 (ix2 h (hi e)) := by
  have := wcatOf_block x4 x8 3 (by omega) _ rfl e h
  refine (Eq.trans (congrArg _ (congrArg _ (Fin.ext (by simp)))) this).trans ?_
  refine (piece_apply x8 128 _ (by omega) e h).trans (congrArg _ (congrArg _ (Fin.ext (by simp [hi]; omega))))

/-- The transposed second-layer weight at (hidden h, feature d) is the weight at (d, h). -/
theorem w2tOf_apply (x : FVec Ideal S128x256 .f32) (h : Fin 256) (d : Fin 128) :
    w2tOf (F := Ideal) x (ix2 h d) = x (ix2 d h) := by
  unfold w2tOf
  rw [truncf_apply]
  exact transpose_apply [1, 0] _ _ (ix2 h d) (ix2 d h) (fun b => by match b with | ⟨0, _⟩ => rfl | ⟨1, _⟩ => rfl)

/-- A first-layer bias as a one-row matrix. -/
theorem row256_apply (x : FVec Ideal S256 .f32) (h : Fin 256) :
    shapeCast S1x256 x shapeCasts_S256_S1x256 (ix2 (0 : Fin 1) h) = x (ix1 h) :=
  shapeCast_apply _ _ (ix2 (0 : Fin 1) h) (ix1 h) (by
    rw [Shape.rowMajor_val_one, Shape.rowMajor_val_two]
    show h.val = 0 * 256 + h.val
    omega)

/-- A second-layer bias as a one-row matrix. -/
theorem row128_apply (x : FVec Ideal S128 .f32) (d : Fin 128) :
    shapeCast S1x128 x shapeCasts_S128_S1x128 (ix2 (0 : Fin 1) d) = x (ix1 d) :=
  shapeCast_apply _ _ (ix2 (0 : Fin 1) d) (ix1 d) (by
    rw [Shape.rowMajor_val_one, Shape.rowMajor_val_two]
    show d.val = 0 * 128 + d.val
    omega)

end Cert.KernelIdeal.Hand

end
-- ==== Proof.Params.lean ====
/-
  The specification's inputs read off the programs' arrays: the two edge networks' parameters from the eight weight
  arrays (first-layer weight [256,256] and bias [256], second-layer weight [128,256] and bias [128], for network 0
  then network 1), a batch's edge types from the integer array [32,64,64] (a signed word read as the real number it
  denotes), and a batch's [64,128] table of features out of a [32,64,128] array.
-/
import proofs.«175625_j65085934403743_2_alg».proof.Proof.MsgLaw
import Idealize.ShloMosaic.Lib.ValueIdx

noncomputable section

namespace Cert.MsgPass

open Idealize.ShloMosaic Idealize.ShloMosaic.ValueIdx

/-- The parameters, from the weight arrays. -/
def parOfArrays (x4 : (⟨2, ![256, 256]⟩ : Shape).Idx → EReal) (x5 : (⟨1, ![256]⟩ : Shape).Idx → EReal)
    (x6 : (⟨2, ![128, 256]⟩ : Shape).Idx → EReal) (x7 : (⟨1, ![128]⟩ : Shape).Idx → EReal)
    (x8 : (⟨2, ![256, 256]⟩ : Shape).Idx → EReal) (x9 : (⟨1, ![256]⟩ : Shape).Idx → EReal)
    (x10 : (⟨2, ![128, 256]⟩ : Shape).Idx → EReal) (x11 : (⟨1, ![128]⟩ : Shape).Idx → EReal) : Par :=
  parOf (fun h e => x4 (ix2 h e)) (fun h => x5 (ix1 h)) (fun d h => x6 (ix2 d h)) (fun d => x7 (ix1 d))
    (fun h e => x8 (ix2 h e)) (fun h => x9 (ix1 h)) (fun d h => x10 (ix2 d h)) (fun d => x11 (ix1 d))

/-- Batch `b`'s edge types. -/
def arcsOfArray (x1 : (⟨3, ![32, 64, 64]⟩ : Shape).Idx → BitVec 32) (b : Fin 32) : Fin 64 → Fin 64 → EReal :=
  fun r c => (((x1 (ix3 b r c)).toInt : ℝ) : EReal)

theorem arcsOfArray_real (x1 : (⟨3, ![32, 64, 64]⟩ : Shape).Idx → BitVec 32) (b : Fin 32) (r c : Fin 64) :
    IsReal (arcsOfArray x1 b r c) := ⟨_, rfl⟩

/-- Batch `b`'s features. -/
def batchOf (E : (⟨3, ![32, 64, 128]⟩ : Shape).Idx → EReal) (b : Fin 32) : Fin 64 → Fin 128 → EReal :=
  fun r d => E (ix3 b r d)

/-- Three rounds on every batch of a [32,64,128] array, in the kernel's arrangement. -/
def threeK (P : Par) (x1 : (⟨3, ![32, 64, 64]⟩ : Shape).Idx → BitVec 32) (E : (⟨3, ![32, 64, 128]⟩ : Shape).Idx → EReal) :
    (⟨3, ![32, 64, 128]⟩ : Shape).Idx → EReal := fun i =>
  roundK P (arcsOfArray x1 (i 0)) (roundK P (arcsOfArray x1 (i 0)) (roundK P (arcsOfArray x1 (i 0)) (batchOf E (i 0)))) (i 1) (i 2)

/-- The same in the reference's arrangement. -/
def threeR (P : Par) (x1 : (⟨3, ![32, 64, 64]⟩ : Shape).Idx → BitVec 32) (E : (⟨3, ![32, 64, 128]⟩ : Shape).Idx → EReal) :
    (⟨3, ![32, 64, 128]⟩ : Shape).Idx → EReal := fun i =>
  roundR P (arcsOfArray x1 (i 0)) (roundR P (arcsOfArray x1 (i 0)) (roundR P (arcsOfArray x1 (i 0)) (batchOf E (i 0)))) (i 1) (i 2)

/-- On real parameters and real features the two agree. -/
theorem threeK_eq_threeR {P : Par} (hP : P.Real) (x1 : (⟨3, ![32, 64, 64]⟩ : Shape).Idx → BitVec 32)
    {E : (⟨3, ![32, 64, 128]⟩ : Shape).Idx → EReal} (hE : ∀ i, IsReal (E i)) : threeK P x1 E = threeR P x1 E := by
  funext i
  exact congrFun (congrFun (three_rounds (a := arcsOfArray x1 (i 0)) (E := batchOf E (i 0)) hP (arcsOfArray_real x1 (i 0)) (fun r d => hE _)) (i 1)) (i 2)

end Cert.MsgPass

end
-- ==== Proof.KValue.lean ====
/-
  What the kernel program returns, as a function of its arguments, at the ideal values.

  Before the launch the host gathers the embeddings E₀ = table[x] (negative token ids wrapped by the vocabulary size)
  and prepares the weights; the grid's point t then hands the body batch t's embeddings and edge types and the
  whole prepared weights, and the body leaves in batch t's output block three rounds of message passing on that
  batch. The output's blocks tile the [32,64,128] result, so after the run the result array is, at (b, r, d), three
  rounds on batch b read at (r, d) — `threeK` of the specification. The last two host operations return node 0's
  row of every batch.
-/
import proofs.«175625_j65085934403743_2_alg».proof.Proof.FrameIdeal
import proofs.«175625_j65085934403743_2_alg».proof.Proof.KRound
import proofs.«175625_j65085934403743_2_alg».proof.Proof.Prefix
import proofs.«175625_j65085934403743_2_alg».proof.Proof.Params
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.MsgPass

variable (m : (ℓ : Loc nD τ sig) → Buf (Elt Ideal) ℓ) (ρ : Dev nD → PrngReg)

/-! ## What the host hands the grid -/

/-- The gathered embeddings: the table's rows at the token ids, a negative id first moved up by the vocabulary size. -/
def gatheredOf (x3 : FVec Ideal S32000x128 .f32) (x0 : IVec S32x64 32) : FVec Ideal S32x64x128 .f32 :=
  Host.gather gather_S32000x128_S32x64x1_S32x64x128_2_0_n_n_0_2_1128 x3
    (broadcastInDim S32x64x1 ![0, 1] bcast_S32x64_S32x64x1_0_1
      (select (cmpi .slt x0 (broadcastInDim S32x64 ![] bcast_S_S32x64 (constantI S_ 32 0#32)))
        (addi x0 (broadcastInDim S32x64 ![] bcast_S_S32x64 (constantI S_ 32 32000#32))) x0))

theorem entry_gathered (c : Dev nD) :
    (entryAt m c main_v6 : S32x64x128.Idx → EReal)
      = gatheredOf (m ((c : Thread nD τ).loc main_arg3)) (m ((c : Thread nD τ).loc main_arg0)) := by
  show StableHlo.after hostOps0 (fun b => m (c, b)) (Proc.devRef .tc main_v6) = _
  after_results; rfl

theorem entry_packed (c : Dev nD) :
    (entryAt m c main_v16 : S128x1024.Idx → EReal)
      = wcatOf (F := Ideal) (m ((c : Thread nD τ).loc main_arg4)) (m ((c : Thread nD τ).loc main_arg8)) := by
  show StableHlo.after hostOps0 (fun b => m (c, b)) (Proc.devRef .tc main_v16) = _
  after_results; rfl

theorem entry_w20 (c : Dev nD) :
    (entryAt m c main_v18 : S256x128.Idx → EReal) = w2tOf (F := Ideal) (m ((c : Thread nD τ).loc main_arg6)) := by
  show StableHlo.after hostOps0 (fun b => m (c, b)) (Proc.devRef .tc main_v18) = _
  after_results; rfl

theorem entry_w21 (c : Dev nD) :
    (entryAt m c main_v20 : S256x128.Idx → EReal) = w2tOf (F := Ideal) (m ((c : Thread nD τ).loc main_arg10)) := by
  show StableHlo.after hostOps0 (fun b => m (c, b)) (Proc.devRef .tc main_v20) = _
  after_results; rfl

theorem entry_b10 (c : Dev nD) :
    (entryAt m c main_v21 : S1x256.Idx → EReal) = shapeCast S1x256 (m ((c : Thread nD τ).loc main_arg5)) shapeCasts_S256_S1x256 := by
  show StableHlo.after hostOps0 (fun b => m (c, b)) (Proc.devRef .tc main_v21) = _
  after_results; rfl

theorem entry_b11 (c : Dev nD) :
    (entryAt m c main_v22 : S1x256.Idx → EReal) = shapeCast S1x256 (m ((c : Thread nD τ).loc main_arg9)) shapeCasts_S256_S1x256 := by
  show StableHlo.after hostOps0 (fun b => m (c, b)) (Proc.devRef .tc main_v22) = _
  after_results; rfl

theorem entry_b20 (c : Dev nD) :
    (entryAt m c main_v23 : S1x128.Idx → EReal) = shapeCast S1x128 (m ((c : Thread nD τ).loc main_arg7)) shapeCasts_S128_S1x128 := by
  show StableHlo.after hostOps0 (fun b => m (c, b)) (Proc.devRef .tc main_v23) = _
  after_results; rfl

theorem entry_b21 (c : Dev nD) :
    (entryAt m c main_v24 : S1x128.Idx → EReal) = shapeCast S1x128 (m ((c : Thread nD τ).loc main_arg11)) shapeCasts_S128_S1x128 := by
  show StableHlo.after hostOps0 (fun b => m (c, b)) (Proc.devRef .tc main_v24) = _
  after_results; rfl

/-! ## The stored value at an index, from what the loaded blocks hold -/

/-- The loaded edge types as floats on the edge (receiver r, sender c). -/
theorem edge_types_apply (arc : Vec Ideal S1x64x64 .i32) (r c : Fin 64) :
    k0_pay3 (F := Ideal) arc (ix3 r c (0 : Fin 1)) = (((arc (ix3 (0 : Fin 1) r c)).toInt : ℝ) : EReal) := by
  unfold k0_pay3
  refine (shapeCast_apply _ _ (ix3 r c (0 : Fin 1)) (ix2 r c) (by
    rw [Shape.rowMajor_val_two, Shape.rowMajor_val_three]
    show r.val * 64 + c.val = (r.val * 64 + c.val) * 1 + 0
    omega)).trans ?_
  rw [sitofp_apply]
  show Scalar.sitofp (F := Ideal) .f32 _ = _
  rw [Ideal.scalar_sitofp_def]
  congr 3
  exact shapeCast_apply _ _ (ix2 r c) (ix3 (0 : Fin 1) r c) (by
    rw [Shape.rowMajor_val_two, Shape.rowMajor_val_three]
    show (0 * 64 + r.val) * 64 + c.val = r.val * 64 + c.val
    omega)

/-- The loaded embeddings as a [64,128] table. -/
theorem embeddings_apply (e : Vec Ideal S1x64x128 .f32) (r : Fin 64) (d : Fin 128) :
    k0_pay2 (F := Ideal) e (ix2 r d) = e (ix3 (0 : Fin 1) r d) := by
  unfold k0_pay2
  exact shapeCast_apply _ _ (ix2 r d) (ix3 (0 : Fin 1) r d) (by
    rw [Shape.rowMajor_val_two, Shape.rowMajor_val_three]
    show (0 * 64 + r.val) * 128 + d.val = r.val * 128 + d.val
    omega)

/-- The stored value at (0, r, d): three rounds on the loaded embeddings, given what the loaded blocks hold. -/
theorem stored_apply (e : Vec Ideal S1x64x128 .f32) (arc : Vec Ideal S1x64x64 .i32) (wcat : Vec Ideal S128x1024 .bf16)
    (b10 b11 : Vec Ideal S1x256 .f32) (w20 : Vec Ideal S256x128 .bf16) (b20 : Vec Ideal S1x128 .f32)
    (w21 : Vec Ideal S256x128 .bf16) (b21 : Vec Ideal S1x128 .f32)
    (P : Par) (a : Fin 64 → Fin 64 → EReal)
    (ha : ∀ r c, (((arc (ix3 (0 : Fin 1) r c)).toInt : ℝ) : EReal) = a r c)
    (hw0l : ∀ (e' : Fin 128) (h : Fin 256), wcat (ix2 e' (⟨0 + h.val, by have := h.isLt; omega⟩ : Fin 1024)) = P.w1 0 h (lo e'))
    (hw0h : ∀ (e' : Fin 128) (h : Fin 256), wcat (ix2 e' (⟨256 + h.val, by have := h.isLt; omega⟩ : Fin 1024)) = P.w1 0 h (hi e'))
    (hw1l : ∀ (e' : Fin 128) (h : Fin 256), wcat (ix2 e' (⟨512 + h.val, by have := h.isLt; omega⟩ : Fin 1024)) = P.w1 1 h (lo e'))
    (hw1h : ∀ (e' : Fin 128) (h : Fin 256), wcat (ix2 e' (⟨768 + h.val, by have := h.isLt; omega⟩ : Fin 1024)) = P.w1 1 h (hi e'))
    (hb10 : ∀ h, b10 (ix2 (0 : Fin 1) h) = P.b1 0 h) (hb11 : ∀ h, b11 (ix2 (0 : Fin 1) h) = P.b1 1 h)
    (hw20 : ∀ (h : Fin 256) (d : Fin 128), w20 (ix2 h d) = P.w2 0 d h) (hw21 : ∀ (h : Fin 256) (d : Fin 128), w21 (ix2 h d) = P.w2 1 d h)
    (hb20 : ∀ d, b20 (ix2 (0 : Fin 1) d) = P.b2 0 d) (hb21 : ∀ d, b21 (ix2 (0 : Fin 1) d) = P.b2 1 d)
    (r : Fin 64) (d : Fin 128) :
    stored (F := Ideal) e arc wcat b10 b11 w20 b20 w21 b21 (ix3 (0 : Fin 1) r d)
      = roundK P a (roundK P a (roundK P a (fun r' d' => e (ix3 (0 : Fin 1) r' d')))) r d := by
  have e4 : k0_pay4 (F := Ideal) wcat = wcat := shapeCast_self _ _
  have e5 : k0_pay5 (F := Ideal) b10 = b10 := shapeCast_self _ _
  have e6 : k0_pay6 (F := Ideal) b11 = b11 := shapeCast_self _ _
  have e7 : k0_pay7 (F := Ideal) w20 = w20 := shapeCast_self _ _
  have e8 : k0_pay8 (F := Ideal) w21 = w21 := shapeCast_self _ _
  have e9 : k0_pay9 (F := Ideal) b20 = b20 := shapeCast_self _ _
  have e10 : k0_pay10 (F := Ideal) b21 = b21 := shapeCast_self _ _
  have hK : ∀ (E : FVec Ideal S64x128 .f32) (r' : Fin 64) (d' : Fin 128),
      kround (F := Ideal) E (k0_pay3 arc) (k0_pay4 wcat) (k0_pay5 b10) (k0_pay6 b11) (k0_pay7 w20) (k0_pay8 w21) (k0_pay9 b20) (k0_pay10 b21) (ix2 r' d')
        = roundK P a (fun r'' d'' => E (ix2 r'' d'')) r' d' := fun E r' d' => by
    rw [e4, e5, e6, e7, e8, e9, e10]
    exact kround_apply E _ wcat b10 b11 w20 w21 b20 b21 P a (fun r'' c'' => (edge_types_apply arc r'' c'').trans (ha r'' c''))
      hw0l hw0h hw1l hw1h hb10 hb11 hw20 hw21 hb20 hb21 r' d'
  rw [stored_eq]
  refine (shapeCast_apply _ _ (ix3 (0 : Fin 1) r d) (ix2 r d) (by
    rw [Shape.rowMajor_val_two, Shape.rowMajor_val_three]
    show r.val * 128 + d.val = (0 * 64 + r.val) * 128 + d.val
    omega)).trans ?_
  rw [hK]
  congr 1
  funext r' d'
  rw [hK]
  congr 1
  funext r'' d''
  rw [hK]
  congr 1
  funext r3 d3
  exact embeddings_apply e r3 d3

/-! ## From the blocks to the result array -/

/-- The printed index maps over the grid: batch t for the embeddings, the edge types and the output, block 0 for the rest. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_9.index t (0 : Fin 3) = t.val ∧ win0_9.index t (1 : Fin 3) = 0 ∧ win0_9.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The batch a grid point works on. -/
def batchAt (t : Fin cfg0.N) : Fin 32 := Fin.cast N_0 t

/-- The result array after the run: three rounds on every batch of the gathered embeddings. -/
def resultArray (c : Dev nD) : S32x64x128.Idx → EReal :=
  threeK (parOfArrays (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)))
    (m ((c : Thread nD τ).loc main_arg1))
    (gatheredOf (m ((c : Thread nD τ).loc main_arg3)) (m ((c : Thread nD τ).loc main_arg0)))

/-! ### What each block holds, read off the grid-entry arrays -/

theorem block_embeddings (c : Dev nD) (t : Fin cfg0.N) (r : Fin 64) (d : Fin 128) :
    (blockAt m c 0 t (ix3 (0 : Fin 1) r d) : EReal) = gatheredOf (m ((c : Thread nD τ).loc main_arg3)) (m ((c : Thread nD τ).loc main_arg0)) (ix3 (batchAt t) r d) := by
  obtain ⟨⟨h0, h1, h2⟩, -⟩ := index_facts t
  rw [← entry_gathered m c]
  show entryAt m c main_v6 (((cfg0.win 0).blk t).view.emb (ix3 (0 : Fin 1) r d)) = entryAt m c main_v6 (ix3 (batchAt t) r d)
  congr 1
  funext a; apply Fin.ext
  match a with
  | ⟨0, _⟩ => show win0_0.index t (0 : Fin 3) * 1 + 1 * 0 = t.val; omega
  | ⟨1, _⟩ => show win0_0.index t (1 : Fin 3) * 64 + 1 * r.val = r.val; omega
  | ⟨2, _⟩ => show win0_0.index t (2 : Fin 3) * 128 + 1 * d.val = d.val; omega

theorem block_edge_types (c : Dev nD) (t : Fin cfg0.N) (r s : Fin 64) :
    (blockAt m c 1 t (ix3 (0 : Fin 1) r s) : BitVec 32) = m ((c : Thread nD τ).loc main_arg1) (ix3 (batchAt t) r s) := by
  obtain ⟨-, ⟨h0, h1, h2⟩, -⟩ := index_facts t
  rw [← entry_arg1 m c]
  show entryAt m c main_arg1 (((cfg0.win 1).blk t).view.emb (ix3 (0 : Fin 1) r s)) = entryAt m c main_arg1 (ix3 (batchAt t) r s)
  congr 1
  funext a; apply Fin.ext
  match a with
  | ⟨0, _⟩ => show win0_1.index t (0 : Fin 3) * 1 + 1 * 0 = t.val; omega
  | ⟨1, _⟩ => show win0_1.index t (1 : Fin 3) * 64 + 1 * r.val = r.val; omega
  | ⟨2, _⟩ => show win0_1.index t (2 : Fin 3) * 64 + 1 * s.val = s.val; omega

theorem block_packed (c : Dev nD) (t : Fin cfg0.N) (e : Fin 128) (k : Fin 1024) :
    (blockAt m c 2 t (ix2 e k) : EReal) = wcatOf (F := Ideal) (m ((c : Thread nD τ).loc main_arg4)) (m ((c : Thread nD τ).loc main_arg8)) (ix2 e k) := by
  obtain ⟨-, -, -, ⟨h0, h1⟩, -⟩ := index_facts t
  rw [← entry_packed m c]
  show entryAt m c main_v16 (((cfg0.win 2).blk t).view.emb (ix2 e k)) = entryAt m c main_v16 (ix2 e k)
  congr 1
  funext a; apply Fin.ext
  match a with
  | ⟨0, _⟩ => show win0_2.index t (0 : Fin 2) * 128 + 1 * e.val = e.val; omega
  | ⟨1, _⟩ => show win0_2.index t (1 : Fin 2) * 1024 + 1 * k.val = k.val; omega

theorem block_b10 (c : Dev nD) (t : Fin cfg0.N) (h : Fin 256) :
    (blockAt m c 3 t (ix2 (0 : Fin 1) h) : EReal) = m ((c : Thread nD τ).loc main_arg5) (ix1 h) := by
  obtain ⟨-, -, -, -, ⟨h0, h1⟩, -⟩ := index_facts t
  rw [← row256_apply (m ((c : Thread nD τ).loc main_arg5)) h, ← entry_b10 m c]
  show entryAt m c main_v21 (((cfg0.win 3).blk t).view.emb (ix2 (0 : Fin 1) h)) = entryAt m c main_v21 (ix2 (0 : Fin 1) h)
  congr 1
  funext a; apply Fin.ext
  match a with
  | ⟨0, _⟩ => show win0_3.index t (0 : Fin 2) * 1 + 1 * 0 = 0; omega
  | ⟨1, _⟩ => show win0_3.index t (1 : Fin 2) * 256 + 1 * h.val = h.val; omega

theorem block_b11 (c : Dev nD) (t : Fin cfg0.N) (h : Fin 256) :
    (blockAt m c 4 t (ix2 (0 : Fin 1) h) : EReal) = m ((c : Thread nD τ).loc main_arg9) (ix1 h) := by
  obtain ⟨-, -, -, -, -, ⟨h0, h1⟩, -⟩ := index_facts t
  rw [← row256_apply (m ((c : Thread nD τ).loc main_arg9)) h, ← entry_b11 m c]
  show entryAt m c main_v22 (((cfg0.win 4).blk t).view.emb (ix2 (0 : Fin 1) h)) = entryAt m c main_v22 (ix2 (0 : Fin 1) h)
  congr 1
  funext a; apply Fin.ext
  match a with
  | ⟨0, _⟩ => show win0_4.index t (0 : Fin 2) * 1 + 1 * 0 = 0; omega
  | ⟨1, _⟩ => show win0_4.index t (1 : Fin 2) * 256 + 1 * h.val = h.val; omega

theorem block_w20 (c : Dev nD) (t : Fin cfg0.N) (h : Fin 256) (d : Fin 128) :
    (blockAt m c 5 t (ix2 h d) : EReal) = m ((c : Thread nD τ).loc main_arg6) (ix2 d h) := by
  obtain ⟨-, -, -, -, -, -, ⟨h0, h1⟩, -⟩ := index_facts t
  rw [← w2tOf_apply (m ((c : Thread nD τ).loc main_arg6)) h d, ← entry_w20 m c]
  show entryAt m c main_v18 (((cfg0.win 5).blk t).view.emb (ix2 h d)) = entryAt m c main_v18 (ix2 h d)
  congr 1
  funext a; apply Fin.ext
  match a with
  | ⟨0, _⟩ => show win0_5.index t (0 : Fin 2) * 256 + 1 * h.val = h.val; omega
  | ⟨1, _⟩ => show win0_5.index t (1 : Fin 2) * 128 + 1 * d.val = d.val; omega

theorem block_b20 (c : Dev nD) (t : Fin cfg0.N) (d : Fin 128) :
    (blockAt m c 6 t (ix2 (0 : Fin 1) d) : EReal) = m ((c : Thread nD τ).loc main_arg7) (ix1 d) := by
  obtain ⟨-, -, -, -, -, -, -, ⟨h0, h1⟩, -⟩ := index_facts t
  rw [← row128_apply (m ((c : Thread nD τ).loc main_arg7)) d, ← entry_b20 m c]
  show entryAt m c main_v23 (((cfg0.win 6).blk t).view.emb (ix2 (0 : Fin 1) d)) = entryAt m c main_v23 (ix2 (0 : Fin 1) d)
  congr 1
  funext a; apply Fin.ext
  match a with
  | ⟨0, _⟩ => show win0_6.index t (0 : Fin 2) * 1 + 1 * 0 = 0; omega
  | ⟨1, _⟩ => show win0_6.index t (1 : Fin 2) * 128 + 1 * d.val = d.val; omega

theorem block_w21 (c : Dev nD) (t : Fin cfg0.N) (h : Fin 256) (d : Fin 128) :
    (blockAt m c 7 t (ix2 h d) : EReal) = m ((c : Thread nD τ).loc main_arg10) (ix2 d h) := by
  obtain ⟨-, -, -, -, -, -, -, -, ⟨h0, h1⟩, -⟩ := index_facts t
  rw [← w2tOf_apply (m ((c : Thread nD τ).loc main_arg10)) h d, ← entry_w21 m c]
  show entryAt m c main_v20 (((cfg0.win 7).blk t).view.emb (ix2 h d)) = entryAt m c main_v20 (ix2 h d)
  congr 1
  funext a; apply Fin.ext
  match a with
  | ⟨0, _⟩ => show win0_7.index t (0 : Fin 2) * 256 + 1 * h.val = h.val; omega
  | ⟨1, _⟩ => show win0_7.index t (1 : Fin 2) * 128 + 1 * d.val = d.val; omega

theorem block_b21 (c : Dev nD) (t : Fin cfg0.N) (d : Fin 128) :
    (blockAt m c 8 t (ix2 (0 : Fin 1) d) : EReal) = m ((c : Thread nD τ).loc main_arg11) (ix1 d) := by
  obtain ⟨-, -, -, -, -, -, -, -, -, ⟨h0, h1⟩⟩ := index_facts t
  rw [← row128_apply (m ((c : Thread nD τ).loc main_arg11)) d, ← entry_b21 m c]
  show entryAt m c main_v24 (((cfg0.win 8).blk t).view.emb (ix2 (0 : Fin 1) d)) = entryAt m c main_v24 (ix2 (0 : Fin 1) d)
  congr 1
  funext a; apply Fin.ext
  match a with
  | ⟨0, _⟩ => show win0_8.index t (0 : Fin 2) * 1 + 1 * 0 = 0; omega
  | ⟨1, _⟩ => show win0_8.index t (1 : Fin 2) * 128 + 1 * d.val = d.val; omega

/-! ### What a point writes back, the cover, the array -/

set_option maxHeartbeats 1000000 in
/-- The value stored at point `t`, at (0, r, d), is the result array at (batch t, r, d). -/
theorem stored_at_point (c : Dev nD) (t : Fin cfg0.N) (r : Fin 64) (d : Fin 128) :
    stored (F := Ideal) (blockAt m c 0 t) (blockAt m c 1 t) (blockAt m c 2 t) (blockAt m c 3 t) (blockAt m c 4 t) (blockAt m c 5 t) (blockAt m c 6 t) (blockAt m c 7 t) (blockAt m c 8 t) (ix3 (0 : Fin 1) r d)
      = resultArray m c (ix3 (batchAt t) r d) := by
  have hE : (fun (r' : Fin 64) (d' : Fin 128) => (blockAt m c 0 t (ix3 (0 : Fin 1) r' d') : EReal))
      = batchOf (gatheredOf (m ((c : Thread nD τ).loc main_arg3)) (m ((c : Thread nD τ).loc main_arg0))) (batchAt t) :=
    funext fun r' => funext fun d' => block_embeddings m c t r' d'
  refine (stored_apply (blockAt m c 0 t) (blockAt m c 1 t) (blockAt m c 2 t) (blockAt m c 3 t) (blockAt m c 4 t) (blockAt m c 5 t) (blockAt m c 6 t) (blockAt m c 7 t) (blockAt m c 8 t)
    (parOfArrays (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)))
    (arcsOfArray (m ((c : Thread nD τ).loc main_arg1)) (batchAt t))
    (fun r' s => by rw [block_edge_types]; rfl)
    (fun e h => (block_packed m c t e _).trans (wcatOf_0l _ _ e h))
    (fun e h => (block_packed m c t e _).trans (wcatOf_0h _ _ e h))
    (fun e h => (block_packed m c t e _).trans (wcatOf_1l _ _ e h))
    (fun e h => (block_packed m c t e _).trans (wcatOf_1h _ _ e h))
    (fun h => block_b10 m c t h) (fun h => block_b11 m c t h)
    (fun h d' => block_w20 m c t h d') (fun h d' => block_w21 m c t h d')
    (fun d' => block_b20 m c t d') (fun d' => block_b21 m c t d') r d).trans ?_
  exact congrArg (fun E0 => roundK (parOfArrays (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)))
      (arcsOfArray (m ((c : Thread nD τ).loc main_arg1)) (batchAt t))
      (roundK (parOfArrays (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)))
        (arcsOfArray (m ((c : Thread nD τ).loc main_arg1)) (batchAt t))
        (roundK (parOfArrays (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)))
          (arcsOfArray (m ((c : Thread nD τ).loc main_arg1)) (batchAt t)) E0)) r d) hE

set_option maxHeartbeats 1000000 in
/-- What point `t` writes back is batch `t`'s block of the result array. -/
theorem written_back (c : Dev nD) (t : Fin cfg0.N) :
    (dats m 0 c).flushed 9 t = ((cfg0.win 9).blk t).view.read (Elt Ideal) (resultArray m c) := by
  obtain ⟨-, -, ⟨h0, h1, h2⟩, -⟩ := index_facts t
  show (cfg0.win 9).cut (grid0.coords t) ((dats m 0 c).after 9 t) = _
  rw [after_output, leftInOutput_eq]
  funext y
  obtain ⟨r, hr⟩ : ∃ r : Fin 64, r = y 1 := ⟨_, rfl⟩
  obtain ⟨d, hd⟩ : ∃ d : Fin 128, d = y 2 := ⟨_, rfl⟩
  have hy : (y : S1x64x128.Idx) = ix3 (0 : Fin 1) r d := by
    funext a
    match a with
    | ⟨0, _⟩ => exact Fin.ext (by have hy0 : (y 0).val < 1 := (y 0).isLt; show (y 0).val = 0; omega)
    | ⟨1, _⟩ => exact hr.symm
    | ⟨2, _⟩ => exact hd.symm
  have hemb : (((cfg0.win 9).blk t).view.emb y : S32x64x128.Idx) = ix3 (batchAt t) r d := by
    funext a; apply Fin.ext
    match a with
    | ⟨0, _⟩ => show win0_9.index t (0 : Fin 3) * 1 + 1 * (y 0).val = t.val; have hy0 : (y 0).val < 1 := (y 0).isLt; omega
    | ⟨1, _⟩ => show win0_9.index t (1 : Fin 3) * 64 + 1 * (y 1).val = r.val; rw [hr]; omega
    | ⟨2, _⟩ => show win0_9.index t (2 : Fin 3) * 128 + 1 * (y 2).val = d.val; rw [hd]; omega
  show stored (blockAt m c 0 t) (blockAt m c 1 t) (blockAt m c 2 t) (blockAt m c 3 t) (blockAt m c 4 t) (blockAt m c 5 t) (blockAt m c 6 t) (blockAt m c 7 t) (blockAt m c 8 t) y = resultArray m c (((cfg0.win 9).blk t).view.emb y)
  exact ((congrArg (stored (F := Ideal) (blockAt m c 0 t) (blockAt m c 1 t) (blockAt m c 2 t) (blockAt m c 3 t) (blockAt m c 4 t) (blockAt m c 5 t) (blockAt m c 6 t) (blockAt m c 7 t) (blockAt m c 8 t)) hy).trans (stored_at_point m c t r d)).trans (congrArg (resultArray m c) hemb).symm

/-- An index is in point `t`'s output block iff each coordinate is in the block's range. -/
theorem mem_output_block (t : Fin cfg0.N) (i : S32x64x128.Idx) :
    i ∈ ((cfg0.win 9).blk t).view.set ↔ ∀ a : Fin 3, win0_9.index t a * S1x64x128.size a ≤ (i a).val ∧ (i a).val < win0_9.index t a * S1x64x128.size a + S1x64x128.size a := by
  show i ∈ ((View.whole main_v25).slice (win0_9.rect t)).set ↔ _
  rw [View.set_slice_whole, Rect.mem_set_unit]
  exact Iff.rfl

/-- Every index of the result is in the block of the point that works on its batch. -/
theorem covered (i : S32x64x128.Idx) : ∃ t : Fin cfg0.N, (cfg0.win 9).flush t = true ∧ i ∈ ((cfg0.win 9).blk t).view.set := by
  have hi0 : (i 0).val < 32 := (i 0).isLt
  have hi1 : (i 1).val < 64 := (i 1).isLt
  have hi2 : (i 2).val < 128 := (i 2).isLt
  refine ⟨⟨(i 0).val, by have := N_0; show (i 0).val < grid0.N; omega⟩, flush0_9 _, ?_⟩
  obtain ⟨-, -, ⟨h0, h1, h2⟩, -⟩ := index_facts ⟨(i 0).val, by have := N_0; show (i 0).val < grid0.N; omega⟩
  rw [mem_output_block]
  intro a
  match a with
  | ⟨0, _⟩ => show win0_9.index _ (0 : Fin 3) * 1 ≤ (i 0).val ∧ (i 0).val < win0_9.index _ (0 : Fin 3) * 1 + 1; simp only [] at h0; omega
  | ⟨1, _⟩ => show win0_9.index _ (1 : Fin 3) * 64 ≤ (i 1).val ∧ (i 1).val < win0_9.index _ (1 : Fin 3) * 64 + 64; omega
  | ⟨2, _⟩ => show win0_9.index _ (2 : Fin 3) * 128 ≤ (i 2).val ∧ (i 2).val < win0_9.index _ (2 : Fin 3) * 128 + 128; omega

/-- The result array after the run. -/
theorem result_after (c : Dev nD) : (dats m 0 c).arrAt 9 cfg0.N = resultArray m c :=
  (dats m 0 c).arrAt_eq_of_cover 9 (resultArray m c) (fun t _ => written_back m c t) covered

/-! ## The returned value and the run -/

/-- What both programs return of a [32,64,128] array: node 0's row of every batch. -/
def nodeZero (X : FVec Ideal S32x64x128 .f32) : FVec Ideal S32x128 .f32 :=
  shapeCast S32x128 (extractStridedSlice S32x1x128 ![0, 0, 0] X slices_S32x64x128_S32x1x128_0_0_0) shapeCasts_S32x1x128_S32x128

/-- The returned buffer after the two closing operations, from the result array. -/
theorem returned (c : Dev nD) :
    (Pipeline.afterTail₀ cfgs (dats m) 0 (entryVals m) [hostOps1] c main_v27 : S32x128.Idx → EReal) = nodeZero (resultArray m c) := by
  unfold Pipeline.afterTail₀
  show StableHlo.after hostOps1 _ (Proc.devRef .tc main_v27) = _
  after_results
  unfold nodeZero
  rw [show Pipeline.withArrays (cfgs 0).spec c (entryVals m c) (fun w => (dats m 0 c).arrAt w (cfgs 0).N) (Proc.devRef .tc main_v25) = resultArray m c from
    (Pipeline.withArrays_arr spec0 launch0.win.arr_inj c _ _ 9).trans (result_after m c)]
  rfl

/-- THE KERNEL PROGRAM'S RUN, READ: it terminates without fault, returns node 0's rows of three rounds of message
    passing on the gathered embeddings, and leaves its arguments as launched. -/
theorem kernel_run : θ_run defs (onTc (τ := τ) (main (F := Ideal))) ⟨m, fun _ => 0, ρ⟩ (fun r => ∀ c : Dev nD,
      r.2.mem ((c.tc : Thread nD τ).loc main_v27) = nodeZero (resultArray m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨((h c).2 main_v27 (Pipeline.mem_restRefs_of main_v27 (by decide) (by decide))).trans (returned m c),
        args_unchanged_of_post m (dats m) (A_eq m) r h c⟩)
    (run_main m ρ)

end Cert.KernelIdeal.Hand

end
-- ==== Proof.RefRounds.lean ====
/-
  The reference program's three rounds of message passing, read index by index at the ideal instance.

  A round's 34 operations compute, for batch `b`, receiver `r` and feature `d`,
  `E r d + (0 + ∑ c, (m₀ r c d * (1 - a r c) + m₁ r c d * a r c))`, where `E` is the batch's feature table going in,
  `a` the batch's edge types as extended reals, and `mₖ` the message of edge network `k`: a two-layer relu
  perceptron applied to the 256-vector "the sender's features, then the receiver's". That is `roundR`.
  The three rounds are the same operations on the previous round's result, so the array after them is three
  applications of `roundR` to the gathered embeddings.
-/
import proofs.«175625_j65085934403743_2_alg».proof.Proof.Gen.ReferenceIdeal.Read
import proofs.«175625_j65085934403743_2_alg».proof.Proof.MsgLaw
import proofs.«175625_j65085934403743_2_alg».proof.Proof.Params
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Cert.MsgPass Idealize.ShloMosaic Idealize.ShloMosaic.ValueIdx

/-! ## The constant one, one network's message -/

/-- The word `0x3F800000` denotes the real number one. -/
theorem ofBits_one : Ideal.ofBits .f32 0x3F800000#32 = 1 := by
  simp [Ideal.ofBits, Ideal.ieee, -EReal.coe_mul]; norm_num

/-- One edge network's message on the edge from sender `c` to receiver `r`, from its four weight arrays:
    the second layer's relu of the contraction of the first layer's relu. -/
def netMsg (W1 : (⟨S256x256, .f32⟩ : BufTy).Contents (Elt Ideal)) (B1 : (⟨S256, .f32⟩ : BufTy).Contents (Elt Ideal))
    (W2 : (⟨S128x256, .f32⟩ : BufTy).Contents (Elt Ideal)) (B2 : (⟨S128, .f32⟩ : BufTy).Contents (Elt Ideal))
    (E : Fin 64 → Fin 128 → EReal) (r c : Fin 64) (d : Fin 128) : EReal :=
  max ((∑ h : Fin 256, max ((∑ e : Fin 256, pre E r c e * W1 (ix2 h e)) + B1 (ix1 h)) 0 * W2 (ix2 d h)) + B2 (ix1 d)) 0

section
variable (x4 : (⟨S256x256, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal))
  (x10 : (⟨S128x256, .f32⟩ : BufTy).Contents (Elt Ideal)) (x11 : (⟨S128, .f32⟩ : BufTy).Contents (Elt Ideal))
  (E : Fin 64 → Fin 128 → EReal) (r c : Fin 64) (d : Fin 128)

/-- Network 0's message is the specification's, at the parameters read off the arrays. -/
theorem netMsg_net0 : netMsg x4 x5 x6 x7 E r c d =
    msg (parOfArrays x4 x5 x6 x7 x8 x9 x10 x11) (hidR (parOfArrays x4 x5 x6 x7 x8 x9 x10 x11) E) 0 r c d := rfl

/-- Network 1's message is the specification's, at the parameters read off the arrays. -/
theorem netMsg_net1 : netMsg x8 x9 x10 x11 E r c d =
    msg (parOfArrays x4 x5 x6 x7 x8 x9 x10 x11) (hidR (parOfArrays x4 x5 x6 x7 x8 x9 x10 x11) E) 1 r c d := rfl
end

/-! ## Round 1 -/

section Round1
variable (x0 : (⟨S32x64, .i32⟩ : BufTy).Contents (Elt Ideal)) (x1 : (⟨S32x64x64, .i32⟩ : BufTy).Contents (Elt Ideal))
  (x3 : (⟨S32000x128, .f32⟩ : BufTy).Contents (Elt Ideal))
  (x4 : (⟨S256x256, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal))
  (x10 : (⟨S128x256, .f32⟩ : BufTy).Contents (Elt Ideal)) (x11 : (⟨S128, .f32⟩ : BufTy).Contents (Elt Ideal))

/-- The joined first-layer input on the edge from sender `c` to receiver `r`: the sender's features in the lower half
    of the last axis, the receiver's in the upper half. -/
theorem joined_r1 (b : Fin 32) (r c : Fin 64) (e : Fin 256) :
    val_main_v13 (F := Ideal) x0 x3 (ix4 b r c e) = pre (batchOf (val_main_v6 (F := Ideal) x0 x3) b) r c e := by
  unfold val_main_v13 pre
  by_cases h : e.val < 128
  · have ei : idx_main_v9 (idx_main_v10 (ix4 b r c (⟨e.val, h⟩ : Fin 128))) = ix3 b c (⟨e.val, h⟩ : Fin 128) :=
      funext fun a => Fin.ext (by match a with | ⟨0, _⟩ => rfl | ⟨1, _⟩ => rfl | ⟨2, _⟩ => rfl)
    rw [dif_pos h]
    refine Eq.trans (concatenate_pair_apply_left (t := S32x64x64x256) (s₁ := S32x64x64x128) (s₂ := S32x64x64x128) _ _ _ _ (ix4 b r c e) rfl
      (ix4 b r c (⟨e.val, h⟩ : Fin 128)) (fun a => ?_)) ?_
    · match a with
      | ⟨0, _⟩ => rfl
      | ⟨1, _⟩ => rfl
      | ⟨2, _⟩ => rfl
      | ⟨3, _⟩ => rfl
    · rw [val_main_v10_apply, val_main_v9_apply, ei]
      rfl
  · have hlt : e.val - 128 < 128 := by omega
    have ei : idx_main_v11 (idx_main_v12 (ix4 b r c (⟨e.val - 128, hlt⟩ : Fin 128))) = ix3 b r (⟨e.val - 128, hlt⟩ : Fin 128) :=
      funext fun a => Fin.ext (by match a with | ⟨0, _⟩ => rfl | ⟨1, _⟩ => rfl | ⟨2, _⟩ => rfl)
    rw [dif_neg h]
    refine Eq.trans (concatenate_pair_apply_right (t := S32x64x64x256) (s₁ := S32x64x64x128) (s₂ := S32x64x64x128) _ _ _ _ (ix4 b r c e) rfl rfl
      (ix4 b r c (⟨e.val - 128, hlt⟩ : Fin 128)) (fun a ha => ?_) ?_) ?_
    · match a, ha with
      | ⟨0, _⟩, _ => rfl
      | ⟨1, _⟩, _ => rfl
      | ⟨2, _⟩, _ => rfl
      | ⟨3, _⟩, ha => exact absurd rfl ha
    · show e.val - 128 + 128 = e.val
      omega
    · rw [val_main_v12_apply, val_main_v11_apply, ei]
      rfl

/-- Network 0's hidden units on an edge: the relu of the joined input contracted with the first layer's weights,
    plus its bias. -/
theorem hid0_r1 (b : Fin 32) (r c : Fin 64) (h : Fin 256) :
    val_main_v18 (F := Ideal) x0 x3 x4 x5 (ix4 b r c h) =
      max ((∑ e : Fin 256, pre (batchOf (val_main_v6 (F := Ideal) x0 x3) b) r c e * x4 (ix2 h e)) + x5 (ix1 h)) 0 := by
  have e1 : ∀ k : Fin 256, lidx_main_v14 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v14 (ix4 b r c h) k = ix2 h k := fun k => funext fun a => Fin.ext (by
    match a with | ⟨0, _⟩ => rfl | ⟨1, _⟩ => rfl)
  have e3 : idx_main_v15 (idx_main_v16 (ix4 b r c h)) = ix1 h := funext fun a => Fin.ext (by
    match a with | ⟨0, _⟩ => rfl)
  rw [val_main_v18_apply, val_main_v17_apply, val_main_v14_apply, val_main_v16_apply, val_main_v15_apply,
    val_main_call0_v0_apply, val_main_call0_cst_apply, e3]
  simp only [e1, e2, joined_r1, Ideal.maximumf_def, Ideal.addf_def, Ideal.ofBits_def, Ideal.ofBits_zero_f32]

/-- Network 0's message on an edge: the relu of the hidden units contracted with the second layer's weights,
    plus its bias. -/
theorem msg0_r1 (b : Fin 32) (r c : Fin 64) (d : Fin 128) :
    val_main_v23 (F := Ideal) x0 x3 x4 x5 x6 x7 (ix4 b r c d) =
      netMsg x4 x5 x6 x7 (batchOf (val_main_v6 (F := Ideal) x0 x3) b) r c d := by
  have e1 : ∀ k : Fin 256, lidx_main_v19 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v19 (ix4 b r c d) k = ix2 d k := fun k => funext fun a => Fin.ext (by
    match a with | ⟨0, _⟩ => rfl | ⟨1, _⟩ => rfl)
  have e3 : idx_main_v20 (idx_main_v21 (ix4 b r c d)) = ix1 d := funext fun a => Fin.ext (by
    match a with | ⟨0, _⟩ => rfl)
  rw [val_main_v23_apply, val_main_v22_apply, val_main_v19_apply, val_main_v21_apply, val_main_v20_apply,
    val_main_call1_v0_apply, val_main_call1_cst_apply, e3]
  simp only [e1, e2, hid0_r1, netMsg, Ideal.maximumf_def, Ideal.addf_def, Ideal.ofBits_def, Ideal.ofBits_zero_f32]

/-- Network 1's hidden units on an edge: the relu of the joined input contracted with the first layer's weights,
    plus its bias. -/
theorem hid1_r1 (b : Fin 32) (r c : Fin 64) (h : Fin 256) :
    val_main_v28 (F := Ideal) x0 x3 x8 x9 (ix4 b r c h) =
      max ((∑ e : Fin 256, pre (batchOf (val_main_v6 (F := Ideal) x0 x3) b) r c e * x8 (ix2 h e)) + x9 (ix1 h)) 0 := by
  have e1 : ∀ k : Fin 256, lidx_main_v24 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v24 (ix4 b r c h) k = ix2 h k := fun k => funext fun a => Fin.ext (by
    match a with | ⟨0, _⟩ => rfl | ⟨1, _⟩ => rfl)
  have e3 : idx_main_v25 (idx_main_v26 (ix4 b r c h)) = ix1 h := funext fun a => Fin.ext (by
    match a with | ⟨0, _⟩ => rfl)
  rw [val_main_v28_apply, val_main_v27_apply, val_main_v24_apply, val_main_v26_apply, val_main_v25_apply,
    val_main_call2_v0_apply, val_main_call2_cst_apply, e3]
  simp only [e1, e2, joined_r1, Ideal.maximumf_def, Ideal.addf_def, Ideal.ofBits_def, Ideal.ofBits_zero_f32]

/-- Network 1's message on an edge: the relu of the hidden units contracted with the second layer's weights,
    plus its bias. -/
theorem msg1_r1 (b : Fin 32) (r c : Fin 64) (d : Fin 128) :
    val_main_v33 (F := Ideal) x0 x3 x8 x9 x10 x11 (ix4 b r c d) =
      netMsg x8 x9 x10 x11 (batchOf (val_main_v6 (F := Ideal) x0 x3) b) r c d := by
  have e1 : ∀ k : Fin 256, lidx_main_v29 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v29 (ix4 b r c d) k = ix2 d k := fun k => funext fun a => Fin.ext (by
    match a with | ⟨0, _⟩ => rfl | ⟨1, _⟩ => rfl)
  have e3 : idx_main_v30 (idx_main_v31 (ix4 b r c d)) = ix1 d := funext fun a => Fin.ext (by
    match a with | ⟨0, _⟩ => rfl)
  rw [val_main_v33_apply, val_main_v32_apply, val_main_v29_apply, val_main_v31_apply, val_main_v30_apply,
    val_main_call3_v0_apply, val_main_call3_cst_apply, e3]
  simp only [e1, e2, hid1_r1, netMsg, Ideal.maximumf_def, Ideal.addf_def, Ideal.ofBits_def, Ideal.ofBits_zero_f32]

/-- The edge type, broadcast along the feature axis. -/
theorem arc_r1 (b : Fin 32) (r c : Fin 64) (d : Fin 128) :
    val_main_v38 (F := Ideal) x1 (ix4 b r c d) = arcsOfArray x1 b r c := by
  have e : idx_main_v8 (idx_main_v38 (ix4 b r c d)) = ix3 b r c := funext fun a => Fin.ext (by
    match a with | ⟨0, _⟩ => rfl | ⟨1, _⟩ => rfl | ⟨2, _⟩ => rfl)
  rw [val_main_v38_apply, val_main_v8_apply, val_main_v7_apply, e]
  rfl

/-- One minus the edge type, broadcast along the feature axis. -/
theorem coarc_r1 (b : Fin 32) (r c : Fin 64) (d : Fin 128) :
    val_main_v36 (F := Ideal) x1 (ix4 b r c d) = 1 - arcsOfArray x1 b r c := by
  have e : idx_main_v8 (idx_main_v36 (ix4 b r c d)) = ix3 b r c := funext fun a => Fin.ext (by
    match a with | ⟨0, _⟩ => rfl | ⟨1, _⟩ => rfl | ⟨2, _⟩ => rfl)
  rw [val_main_v36_apply, val_main_v35_apply, val_main_v34_apply, val_main_cst_apply, val_main_v8_apply,
    val_main_v7_apply, e, Ideal.subf_def, Ideal.ofBits_def, ofBits_one]
  rfl

/-- The two networks' messages on an edge, blended by the edge type. -/
theorem blend_r1 (b : Fin 32) (r c : Fin 64) (d : Fin 128) :
    val_main_v40 (F := Ideal) x0 x1 x3 x4 x5 x6 x7 x8 x9 x10 x11 (ix4 b r c d) =
      netMsg x4 x5 x6 x7 (batchOf (val_main_v6 (F := Ideal) x0 x3) b) r c d * (1 - arcsOfArray x1 b r c)
        + netMsg x8 x9 x10 x11 (batchOf (val_main_v6 (F := Ideal) x0 x3) b) r c d * arcsOfArray x1 b r c := by
  rw [val_main_v40_apply, val_main_v37_apply, val_main_v39_apply, msg0_r1, msg1_r1, coarc_r1, arc_r1]
  rfl

/-- Round 1: the features after it are `roundR` of the features before it. -/
theorem round1 (b : Fin 32) (r : Fin 64) (d : Fin 128) :
    val_main_v42 (F := Ideal) x0 x1 x3 x4 x5 x6 x7 x8 x9 x10 x11 (ix3 b r d) =
      roundR (parOfArrays x4 x5 x6 x7 x8 x9 x10 x11) (arcsOfArray x1 b) (batchOf (val_main_v6 (F := Ideal) x0 x3) b) r d := by
  have e : ∀ k : Fin 64, idx_main_v41 (ix3 b r d) k = ix4 b r k d := fun k => funext fun a => Fin.ext (by
    match a with | ⟨0, _⟩ => rfl | ⟨1, _⟩ => rfl | ⟨2, _⟩ => rfl | ⟨3, _⟩ => rfl)
  rw [val_main_v42_apply, val_main_v41_apply, val_main_cst_1_apply]
  simp only [e, blend_r1, netMsg_net0 x4 x5 x6 x7 x8 x9 x10 x11, netMsg_net1 x4 x5 x6 x7 x8 x9 x10 x11,
    Ideal.addf_def, Ideal.ofBits_def, Ideal.ofBits_zero_f32]
  rfl

end Round1

/-! ## Round 2 -/

section Round2
variable (x0 : (⟨S32x64, .i32⟩ : BufTy).Contents (Elt Ideal)) (x1 : (⟨S32x64x64, .i32⟩ : BufTy).Contents (Elt Ideal))
  (x3 : (⟨S32000x128, .f32⟩ : BufTy).Contents (Elt Ideal))
  (x4 : (⟨S256x256, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal))
  (x10 : (⟨S128x256, .f32⟩ : BufTy).Contents (Elt Ideal)) (x11 : (⟨S128, .f32⟩ : BufTy).Contents (Elt Ideal))

/-- The joined first-layer input on the edge from sender `c` to receiver `r`: the sender's features in the lower half
    of the last axis, the receiver's in the upper half. -/
theorem joined_r2 (b : Fin 32) (r c : Fin 64) (e : Fin 256) :
    val_main_v47 (F := Ideal) x0 x1 x3 x4 x5 x6 x7 x8 x9 x10 x11 (ix4 b r c e) = pre (batchOf (val_main_v42 (F := Ideal) x0 x1 x3 x4 x5 x6 x7 x8 x9 x10 x11) b) r c e := by
  unfold val_main_v47 pre
  by_cases h : e.val < 128
  · have ei : idx_main_v43 (idx_main_v44 (ix4 b r c (⟨e.val, h⟩ : Fin 128))) = ix3 b c (⟨e.val, h⟩ : Fin 128) :=
      funext fun a => Fin.ext (by match a with | ⟨0, _⟩ => rfl | ⟨1, _⟩ => rfl | ⟨2, _⟩ => rfl)
    rw [dif_pos h]
    refine Eq.trans (concatenate_pair_apply_left (t := S32x64x64x256) (s₁ := S32x64x64x128) (s₂ := S32x64x64x128) _ _ _ _ (ix4 b r c e) rfl
      (ix4 b r c (⟨e.val, h⟩ : Fin 128)) (fun a => ?_)) ?_
    · match a with
      | ⟨0, _⟩ => rfl
      | ⟨1, _⟩ => rfl
      | ⟨2, _⟩ => rfl
      | ⟨3, _⟩ => rfl
    · rw [val_main_v44_apply, val_main_v43_apply, ei]
      rfl
  · have hlt : e.val - 128 < 128 := by omega
    have ei : idx_main_v45 (idx_main_v46 (ix4 b r c (⟨e.val - 128, hlt⟩ : Fin 128))) = ix3 b r (⟨e.val - 128, hlt⟩ : Fin 128) :=
      funext fun a => Fin.ext (by match a with | ⟨0, _⟩ => rfl | ⟨1, _⟩ => rfl | ⟨2, _⟩ => rfl)
    rw [dif_neg h]
    refine Eq.trans (concatenate_pair_apply_right (t := S32x64x64x256) (s₁ := S32x64x64x128) (s₂ := S32x64x64x128) _ _ _ _ (ix4 b r c e) rfl rfl
      (ix4 b r c (⟨e.val - 128, hlt⟩ : Fin 128)) (fun a ha => ?_) ?_) ?_
    · match a, ha with
      | ⟨0, _⟩, _ => rfl
      | ⟨1, _⟩, _ => rfl
      | ⟨2, _⟩, _ => rfl
      | ⟨3, _⟩, ha => exact absurd rfl ha
    · show e.val - 128 + 128 = e.val
      omega
    · rw [val_main_v46_apply, val_main_v45_apply, ei]
      rfl

/-- Network 0's hidden units on an edge: the relu of the joined input contracted with the first layer's weights,
    plus its bias. -/
theorem hid0_r2 (b : Fin 32) (r c : Fin 64) (h : Fin 256) :
    val_main_v52 (F := Ideal) x0 x1 x3 x4 x5 x6 x7 x8 x9 x10 x11 (ix4 b r c h) =
      max ((∑ e : Fin 256, pre (batchOf (val_main_v42 (F := Ideal) x0 x1 x3 x4 x5 x6 x7 x8 x9 x10 x11) b) r c e * x4 (ix2 h e)) + x5 (ix1 h)) 0 := by
  have e1 : ∀ k : Fin 256, lidx_main_v48 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v48 (ix4 b r c h) k = ix2 h k := fun k => funext fun a => Fin.ext (by
    match a with | ⟨0, _⟩ => rfl | ⟨1, _⟩ => rfl)
  have e3 : idx_main_v49 (idx_main_v50 (ix4 b r c h)) = ix1 h := funext fun a => Fin.ext (by
    match a with | ⟨0, _⟩ => rfl)
  rw [val_main_v52_apply, val_main_v51_apply, val_main_v48_apply, val_main_v50_apply, val_main_v49_apply,
    val_main_call4_v0_apply, val_main_call4_cst_apply, e3]
  simp only [e1, e2, joined_r2, Ideal.maximumf_def, Ideal.addf_def, Ideal.ofBits_def, Ideal.ofBits_zero_f32]

/-- Network 0's message on an edge: the relu of the hidden units contracted with the second layer's weights,
    plus its bias. -/
theorem msg0_r2 (b : Fin 32) (r c : Fin 64) (d : Fin 128) :
    val_main_v57 (F := Ideal) x0 x1 x3 x4 x5 x6 x7 x8 x9 x10 x11 (ix4 b r c d) =
      netMsg x4 x5 x6 x7 (batchOf (val_main_v42 (F := Ideal) x0 x1 x3 x4 x5 x6 x7 x8 x9 x10 x11) b) r c d := by
  have e1 : ∀ k : Fin 256, lidx_main_v53 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v53 (ix4 b r c d) k = ix2 d k := fun k => funext fun a => Fin.ext (by
    match a with | ⟨0, _⟩ => rfl | ⟨1, _⟩ => rfl)
  have e3 : idx_main_v54 (idx_main_v55 (ix4 b r c d)) = ix1 d := funext fun a => Fin.ext (by
    match a with | ⟨0, _⟩ => rfl)
  rw [val_main_v57_apply, val_main_v56_apply, val_main_v53_apply, val_main_v55_apply, val_main_v54_apply,
    val_main_call5_v0_apply, val_main_call5_cst_apply, e3]
  simp only [e1, e2, hid0_r2, netMsg, Ideal.maximumf_def, Ideal.addf_def, Ideal.ofBits_def, Ideal.ofBits_zero_f32]

/-- Network 1's hidden units on an edge: the relu of the joined input contracted with the first layer's weights,
    plus its bias. -/
theorem hid1_r2 (b : Fin 32) (r c : Fin 64) (h : Fin 256) :
    val_main_v62 (F := Ideal) x0 x1 x3 x4 x5 x6 x7 x8 x9 x10 x11 (ix4 b r c h) =
      max ((∑ e : Fin 256, pre (batchOf (val_main_v42 (F := Ideal) x0 x1 x3 x4 x5 x6 x7 x8 x9 x10 x11) b) r c e * x8 (ix2 h e)) + x9 (ix1 h)) 0 := by
  have e1 : ∀ k : Fin 256, lidx_main_v58 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v58 (ix4 b r c h) k = ix2 h k := fun k => funext fun a => Fin.ext (by
    match a with | ⟨0, _⟩ => rfl | ⟨1, _⟩ => rfl)
  have e3 : idx_main_v59 (idx_main_v60 (ix4 b r c h)) = ix1 h := funext fun a => Fin.ext (by
    match a with | ⟨0, _⟩ => rfl)
  rw [val_main_v62_apply, val_main_v61_apply, val_main_v58_apply, val_main_v60_apply, val_main_v59_apply,
    val_main_call6_v0_apply, val_main_call6_cst_apply, e3]
  simp only [e1, e2, joined_r2, Ideal.maximumf_def, Ideal.addf_def, Ideal.ofBits_def, Ideal.ofBits_zero_f32]

/-- Network 1's message on an edge: the relu of the hidden units contracted with the second layer's weights,
    plus its bias. -/
theorem msg1_r2 (b : Fin 32) (r c : Fin 64) (d : Fin 128) :
    val_main_v67 (F := Ideal) x0 x1 x3 x4 x5 x6 x7 x8 x9 x10 x11 (ix4 b r c d) =
      netMsg x8 x9 x10 x11 (batchOf (val_main_v42 (F := Ideal) x0 x1 x3 x4 x5 x6 x7 x8 x9 x10 x11) b) r c d := by
  have e1 : ∀ k : Fin 256, lidx_main_v63 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v63 (ix4 b r c d) k = ix2 d k := fun k => funext fun a => Fin.ext (by
    match a with | ⟨0, _⟩ => rfl | ⟨1, _⟩ => rfl)
  have e3 : idx_main_v64 (idx_main_v65 (ix4 b r c d)) = ix1 d := funext fun a => Fin.ext (by
    match a with | ⟨0, _⟩ => rfl)
  rw [val_main_v67_apply, val_main_v66_apply, val_main_v63_apply, val_main_v65_apply, val_main_v64_apply,
    val_main_call7_v0_apply, val_main_call7_cst_apply, e3]
  simp only [e1, e2, hid1_r2, netMsg, Ideal.maximumf_def, Ideal.addf_def, Ideal.ofBits_def, Ideal.ofBits_zero_f32]

/-- The edge type, broadcast along the feature axis. -/
theorem arc_r2 (b : Fin 32) (r c : Fin 64) (d : Fin 128) :
    val_main_v72 (F := Ideal) x1 (ix4 b r c d) = arcsOfArray x1 b r c := by
  have e : idx_main_v8 (idx_main_v72 (ix4 b r c d)) = ix3 b r c := funext fun a => Fin.ext (by
    match a with | ⟨0, _⟩ => rfl | ⟨1, _⟩ => rfl | ⟨2, _⟩ => rfl)
  rw [val_main_v72_apply, val_main_v8_apply, val_main_v7_apply, e]
  rfl

/-- One minus the edge type, broadcast along the feature axis. -/
theorem coarc_r2 (b : Fin 32) (r c : Fin 64) (d : Fin 128) :
    val_main_v70 (F := Ideal) x1 (ix4 b r c d) = 1 - arcsOfArray x1 b r c := by
  have e : idx_main_v8 (idx_main_v70 (ix4 b r c d)) = ix3 b r c := funext fun a => Fin.ext (by
    match a with | ⟨0, _⟩ => rfl | ⟨1, _⟩ => rfl | ⟨2, _⟩ => rfl)
  rw [val_main_v70_apply, val_main_v69_apply, val_main_v68_apply, val_main_cst_2_apply, val_main_v8_apply,
    val_main_v7_apply, e, Ideal.subf_def, Ideal.ofBits_def, ofBits_one]
  rfl

/-- The two networks' messages on an edge, blended by the edge type. -/
theorem blend_r2 (b : Fin 32) (r c : Fin 64) (d : Fin 128) :
    val_main_v74 (F := Ideal) x0 x1 x3 x4 x5 x6 x7 x8 x9 x10 x11 (ix4 b r c d) =
      netMsg x4 x5 x6 x7 (batchOf (val_main_v42 (F := Ideal) x0 x1 x3 x4 x5 x6 x7 x8 x9 x10 x11) b) r c d * (1 - arcsOfArray x1 b r c)
        + netMsg x8 x9 x10 x11 (batchOf (val_main_v42 (F := Ideal) x0 x1 x3 x4 x5 x6 x7 x8 x9 x10 x11) b) r c d * arcsOfArray x1 b r c := by
  rw [val_main_v74_apply, val_main_v71_apply, val_main_v73_apply, msg0_r2, msg1_r2, coarc_r2, arc_r2]
  rfl

/-- Round 2: the features after it are `roundR` of the features before it. -/
theorem round2 (b : Fin 32) (r : Fin 64) (d : Fin 128) :
    val_main_v76 (F := Ideal) x0 x1 x3 x4 x5 x6 x7 x8 x9 x10 x11 (ix3 b r d) =
      roundR (parOfArrays x4 x5 x6 x7 x8 x9 x10 x11) (arcsOfArray x1 b) (batchOf (val_main_v42 (F := Ideal) x0 x1 x3 x4 x5 x6 x7 x8 x9 x10 x11) b) r d := by
  have e : ∀ k : Fin 64, idx_main_v75 (ix3 b r d) k = ix4 b r k d := fun k => funext fun a => Fin.ext (by
    match a with | ⟨0, _⟩ => rfl | ⟨1, _⟩ => rfl | ⟨2, _⟩ => rfl | ⟨3, _⟩ => rfl)
  rw [val_main_v76_apply, val_main_v75_apply, val_main_cst_3_apply]
  simp only [e, blend_r2, netMsg_net0 x4 x5 x6 x7 x8 x9 x10 x11, netMsg_net1 x4 x5 x6 x7 x8 x9 x10 x11,
    Ideal.addf_def, Ideal.ofBits_def, Ideal.ofBits_zero_f32]
  rfl

end Round2

/-! ## Round 3 -/

section Round3
variable (x0 : (⟨S32x64, .i32⟩ : BufTy).Contents (Elt Ideal)) (x1 : (⟨S32x64x64, .i32⟩ : BufTy).Contents (Elt Ideal))
  (x3 : (⟨S32000x128, .f32⟩ : BufTy).Contents (Elt Ideal))
  (x4 : (⟨S256x256, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal))
  (x10 : (⟨S128x256, .f32⟩ : BufTy).Contents (Elt Ideal)) (x11 : (⟨S128, .f32⟩ : BufTy).Contents (Elt Ideal))

/-- The joined first-layer input on the edge from sender `c` to receiver `r`: the sender's features in the lower half
    of the last axis, the receiver's in the upper half. -/
theorem joined_r3 (b : Fin 32) (r c : Fin 64) (e : Fin 256) :
    val_main_v81 (F := Ideal) x0 x1 x3 x4 x5 x6 x7 x8 x9 x10 x11 (ix4 b r c e) = pre (batchOf (val_main_v76 (F := Ideal) x0 x1 x3 x4 x5 x6 x7 x8 x9 x10 x11) b) r c e := by
  unfold val_main_v81 pre
  by_cases h : e.val < 128
  · have ei : idx_main_v77 (idx_main_v78 (ix4 b r c (⟨e.val, h⟩ : Fin 128))) = ix3 b c (⟨e.val, h⟩ : Fin 128) :=
      funext fun a => Fin.ext (by match a with | ⟨0, _⟩ => rfl | ⟨1, _⟩ => rfl | ⟨2, _⟩ => rfl)
    rw [dif_pos h]
    refine Eq.trans (concatenate_pair_apply_left (t := S32x64x64x256) (s₁ := S32x64x64x128) (s₂ := S32x64x64x128) _ _ _ _ (ix4 b r c e) rfl
      (ix4 b r c (⟨e.val, h⟩ : Fin 128)) (fun a => ?_)) ?_
    · match a with
      | ⟨0, _⟩ => rfl
      | ⟨1, _⟩ => rfl
      | ⟨2, _⟩ => rfl
      | ⟨3, _⟩ => rfl
    · rw [val_main_v78_apply, val_main_v77_apply, ei]
      rfl
  · have hlt : e.val - 128 < 128 := by omega
    have ei : idx_main_v79 (idx_main_v80 (ix4 b r c (⟨e.val - 128, hlt⟩ : Fin 128))) = ix3 b r (⟨e.val - 128, hlt⟩ : Fin 128) :=
      funext fun a => Fin.ext (by match a with | ⟨0, _⟩ => rfl | ⟨1, _⟩ => rfl | ⟨2, _⟩ => rfl)
    rw [dif_neg h]
    refine Eq.trans (concatenate_pair_apply_right (t := S32x64x64x256) (s₁ := S32x64x64x128) (s₂ := S32x64x64x128) _ _ _ _ (ix4 b r c e) rfl rfl
      (ix4 b r c (⟨e.val - 128, hlt⟩ : Fin 128)) (fun a ha => ?_) ?_) ?_
    · match a, ha with
      | ⟨0, _⟩, _ => rfl
      | ⟨1, _⟩, _ => rfl
      | ⟨2, _⟩, _ => rfl
      | ⟨3, _⟩, ha => exact absurd rfl ha
    · show e.val - 128 + 128 = e.val
      omega
    · rw [val_main_v80_apply, val_main_v79_apply, ei]
      rfl

/-- Network 0's hidden units on an edge: the relu of the joined input contracted with the first layer's weights,
    plus its bias. -/
theorem hid0_r3 (b : Fin 32) (r c : Fin 64) (h : Fin 256) :
    val_main_v86 (F := Ideal) x0 x1 x3 x4 x5 x6 x7 x8 x9 x10 x11 (ix4 b r c h) =
      max ((∑ e : Fin 256, pre (batchOf (val_main_v76 (F := Ideal) x0 x1 x3 x4 x5 x6 x7 x8 x9 x10 x11) b) r c e * x4 (ix2 h e)) + x5 (ix1 h)) 0 := by
  have e1 : ∀ k : Fin 256, lidx_main_v82 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v82 (ix4 b r c h) k = ix2 h k := fun k => funext fun a => Fin.ext (by
    match a with | ⟨0, _⟩ => rfl | ⟨1, _⟩ => rfl)
  have e3 : idx_main_v83 (idx_main_v84 (ix4 b r c h)) = ix1 h := funext fun a => Fin.ext (by
    match a with | ⟨0, _⟩ => rfl)
  rw [val_main_v86_apply, val_main_v85_apply, val_main_v82_apply, val_main_v84_apply, val_main_v83_apply,
    val_main_call8_v0_apply, val_main_call8_cst_apply, e3]
  simp only [e1, e2, joined_r3, Ideal.maximumf_def, Ideal.addf_def, Ideal.ofBits_def, Ideal.ofBits_zero_f32]

/-- Network 0's message on an edge: the relu of the hidden units contracted with the second layer's weights,
    plus its bias. -/
theorem msg0_r3 (b : Fin 32) (r c : Fin 64) (d : Fin 128) :
    val_main_v91 (F := Ideal) x0 x1 x3 x4 x5 x6 x7 x8 x9 x10 x11 (ix4 b r c d) =
      netMsg x4 x5 x6 x7 (batchOf (val_main_v76 (F := Ideal) x0 x1 x3 x4 x5 x6 x7 x8 x9 x10 x11) b) r c d := by
  have e1 : ∀ k : Fin 256, lidx_main_v87 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v87 (ix4 b r c d) k = ix2 d k := fun k => funext fun a => Fin.ext (by
    match a with | ⟨0, _⟩ => rfl | ⟨1, _⟩ => rfl)
  have e3 : idx_main_v88 (idx_main_v89 (ix4 b r c d)) = ix1 d := funext fun a => Fin.ext (by
    match a with | ⟨0, _⟩ => rfl)
  rw [val_main_v91_apply, val_main_v90_apply, val_main_v87_apply, val_main_v89_apply, val_main_v88_apply,
    val_main_call9_v0_apply, val_main_call9_cst_apply, e3]
  simp only [e1, e2, hid0_r3, netMsg, Ideal.maximumf_def, Ideal.addf_def, Ideal.ofBits_def, Ideal.ofBits_zero_f32]

/-- Network 1's hidden units on an edge: the relu of the joined input contracted with the first layer's weights,
    plus its bias. -/
theorem hid1_r3 (b : Fin 32) (r c : Fin 64) (h : Fin 256) :
    val_main_v96 (F := Ideal) x0 x1 x3 x4 x5 x6 x7 x8 x9 x10 x11 (ix4 b r c h) =
      max ((∑ e : Fin 256, pre (batchOf (val_main_v76 (F := Ideal) x0 x1 x3 x4 x5 x6 x7 x8 x9 x10 x11) b) r c e * x8 (ix2 h e)) + x9 (ix1 h)) 0 := by
  have e1 : ∀ k : Fin 256, lidx_main_v92 (ix4 b r c h) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v92 (ix4 b r c h) k = ix2 h k := fun k => funext fun a => Fin.ext (by
    match a with | ⟨0, _⟩ => rfl | ⟨1, _⟩ => rfl)
  have e3 : idx_main_v93 (idx_main_v94 (ix4 b r c h)) = ix1 h := funext fun a => Fin.ext (by
    match a with | ⟨0, _⟩ => rfl)
  rw [val_main_v96_apply, val_main_v95_apply, val_main_v92_apply, val_main_v94_apply, val_main_v93_apply,
    val_main_call10_v0_apply, val_main_call10_cst_apply, e3]
  simp only [e1, e2, joined_r3, Ideal.maximumf_def, Ideal.addf_def, Ideal.ofBits_def, Ideal.ofBits_zero_f32]

/-- Network 1's message on an edge: the relu of the hidden units contracted with the second layer's weights,
    plus its bias. -/
theorem msg1_r3 (b : Fin 32) (r c : Fin 64) (d : Fin 128) :
    val_main_v101 (F := Ideal) x0 x1 x3 x4 x5 x6 x7 x8 x9 x10 x11 (ix4 b r c d) =
      netMsg x8 x9 x10 x11 (batchOf (val_main_v76 (F := Ideal) x0 x1 x3 x4 x5 x6 x7 x8 x9 x10 x11) b) r c d := by
  have e1 : ∀ k : Fin 256, lidx_main_v97 (ix4 b r c d) k = ix4 b r c k := fun k => funext fun a => Fin.ext (by
    match a with | ⟨0, _⟩ => rfl | ⟨1, _⟩ => rfl | ⟨2, _⟩ => rfl | ⟨3, _⟩ => rfl)
  have e2 : ∀ k : Fin 256, ridx_main_v97 (ix4 b r c d) k = ix2 d k := fun k => funext fun a => Fin.ext (by
    match a with | ⟨0, _⟩ => rfl | ⟨1, _⟩ => rfl)
  have e3 : idx_main_v98 (idx_main_v99 (ix4 b r c d)) = ix1 d := funext fun a => Fin.ext (by
    match a with | ⟨0, _⟩ => rfl)
  rw [val_main_v101_apply, val_main_v100_apply, val_main_v97_apply, val_main_v99_apply, val_main_v98_apply,
    val_main_call11_v0_apply, val_main_call11_cst_apply, e3]
  simp only [e1, e2, hid1_r3, netMsg, Ideal.maximumf_def, Ideal.addf_def, Ideal.ofBits_def, Ideal.ofBits_zero_f32]

/-- The edge type, broadcast along the feature axis. -/
theorem arc_r3 (b : Fin 32) (r c : Fin 64) (d : Fin 128) :
    val_main_v106 (F := Ideal) x1 (ix4 b r c d) = arcsOfArray x1 b r c := by
  have e : idx_main_v8 (idx_main_v106 (ix4 b r c d)) = ix3 b r c := funext fun a => Fin.ext (by
    match a with | ⟨0, _⟩ => rfl | ⟨1, _⟩ => rfl | ⟨2, _⟩ => rfl)
  rw [val_main_v106_apply, val_main_v8_apply, val_main_v7_apply, e]
  rfl

/-- One minus the edge type, broadcast along the feature axis. -/
theorem coarc_r3 (b : Fin 32) (r c : Fin 64) (d : Fin 128) :
    val_main_v104 (F := Ideal) x1 (ix4 b r c d) = 1 - arcsOfArray x1 b r c := by
  have e : idx_main_v8 (idx_main_v104 (ix4 b r c d)) = ix3 b r c := funext fun a => Fin.ext (by
    match a with | ⟨0, _⟩ => rfl | ⟨1, _⟩ => rfl | ⟨2, _⟩ => rfl)
  rw [val_main_v104_apply, val_main_v103_apply, val_main_v102_apply, val_main_cst_4_apply, val_main_v8_apply,
    val_main_v7_apply, e, Ideal.subf_def, Ideal.ofBits_def, ofBits_one]
  rfl

/-- The two networks' messages on an edge, blended by the edge type. -/
theorem blend_r3 (b : Fin 32) (r c : Fin 64) (d : Fin 128) :
    val_main_v108 (F := Ideal) x0 x1 x3 x4 x5 x6 x7 x8 x9 x10 x11 (ix4 b r c d) =
      netMsg x4 x5 x6 x7 (batchOf (val_main_v76 (F := Ideal) x0 x1 x3 x4 x5 x6 x7 x8 x9 x10 x11) b) r c d * (1 - arcsOfArray x1 b r c)
        + netMsg x8 x9 x10 x11 (batchOf (val_main_v76 (F := Ideal) x0 x1 x3 x4 x5 x6 x7 x8 x9 x10 x11) b) r c d * arcsOfArray x1 b r c := by
  rw [val_main_v108_apply, val_main_v105_apply, val_main_v107_apply, msg0_r3, msg1_r3, coarc_r3, arc_r3]
  rfl

/-- Round 3: the features after it are `roundR` of the features before it. -/
theorem round3 (b : Fin 32) (r : Fin 64) (d : Fin 128) :
    val_main_v110 (F := Ideal) x0 x1 x3 x4 x5 x6 x7 x8 x9 x10 x11 (ix3 b r d) =
      roundR (parOfArrays x4 x5 x6 x7 x8 x9 x10 x11) (arcsOfArray x1 b) (batchOf (val_main_v76 (F := Ideal) x0 x1 x3 x4 x5 x6 x7 x8 x9 x10 x11) b) r d := by
  have e : ∀ k : Fin 64, idx_main_v109 (ix3 b r d) k = ix4 b r k d := fun k => funext fun a => Fin.ext (by
    match a with | ⟨0, _⟩ => rfl | ⟨1, _⟩ => rfl | ⟨2, _⟩ => rfl | ⟨3, _⟩ => rfl)
  rw [val_main_v110_apply, val_main_v109_apply, val_main_cst_5_apply]
  simp only [e, blend_r3, netMsg_net0 x4 x5 x6 x7 x8 x9 x10 x11, netMsg_net1 x4 x5 x6 x7 x8 x9 x10 x11,
    Ideal.addf_def, Ideal.ofBits_def, Ideal.ofBits_zero_f32]
  rfl

end Round3

/-! ## The three rounds -/

section Rounds
variable (x0 : (⟨S32x64, .i32⟩ : BufTy).Contents (Elt Ideal)) (x1 : (⟨S32x64x64, .i32⟩ : BufTy).Contents (Elt Ideal))
  (x3 : (⟨S32000x128, .f32⟩ : BufTy).Contents (Elt Ideal))
  (x4 : (⟨S256x256, .f32⟩ : BufTy).Contents (Elt Ideal)) (x5 : (⟨S256, .f32⟩ : BufTy).Contents (Elt Ideal))
  (x6 : (⟨S128x256, .f32⟩ : BufTy).Contents (Elt Ideal)) (x7 : (⟨S128, .f32⟩ : BufTy).Contents (Elt Ideal))
  (x8 : (⟨S256x256, .f32⟩ : BufTy).Contents (Elt Ideal)) (x9 : (⟨S256, .f32⟩ : BufTy).Contents (Elt Ideal))
  (x10 : (⟨S128x256, .f32⟩ : BufTy).Contents (Elt Ideal)) (x11 : (⟨S128, .f32⟩ : BufTy).Contents (Elt Ideal))

/-- The array after the three rounds is three applications of `roundR`, batch by batch, to the gathered embeddings. -/
theorem rounds_array :
    val_main_v110 (F := Ideal) x0 x1 x3 x4 x5 x6 x7 x8 x9 x10 x11 = threeR (parOfArrays x4 x5 x6 x7 x8 x9 x10 x11) x1 (val_main_v6 (F := Ideal) x0 x3) := by
  funext i
  obtain ⟨b, r, d, rfl⟩ : ∃ (b : Fin 32) (r : Fin 64) (d : Fin 128), i = ix3 b r d := ⟨i 0, i 1, i 2, eq_ix3 i⟩
  have h1 : batchOf (val_main_v42 (F := Ideal) x0 x1 x3 x4 x5 x6 x7 x8 x9 x10 x11) b =
      roundR (parOfArrays x4 x5 x6 x7 x8 x9 x10 x11) (arcsOfArray x1 b) (batchOf (val_main_v6 (F := Ideal) x0 x3) b) :=
    funext fun r' => funext fun d' => round1 x0 x1 x3 x4 x5 x6 x7 x8 x9 x10 x11 b r' d'
  have h2 : batchOf (val_main_v76 (F := Ideal) x0 x1 x3 x4 x5 x6 x7 x8 x9 x10 x11) b =
      roundR (parOfArrays x4 x5 x6 x7 x8 x9 x10 x11) (arcsOfArray x1 b) (batchOf (val_main_v42 (F := Ideal) x0 x1 x3 x4 x5 x6 x7 x8 x9 x10 x11) b) :=
    funext fun r' => funext fun d' => round2 x0 x1 x3 x4 x5 x6 x7 x8 x9 x10 x11 b r' d'
  rw [round3, h2, h1]
  rfl

end Rounds

end Cert.ReferenceIdeal.RefValue

end
-- ==== Proof.FiniteArgs.lean ====
/-
  Finiteness of the inputs, read off the precondition, and of the embedding lookup.

  The precondition says that a predicate of a core's twelve argument arrays is one. That predicate is the
  conjunction, over the nine float arrays (the embedding table and the eight weight and bias arrays of the two edge
  networks), of "every entry x has |x| < +inf": each conjunct is a reduction by `and`, from the constant one, of the
  array of comparison bits, over all axes. A conjunction of one-bit words is one exactly when each word is; a reduction
  by `and` over all axes is one only if every bit it meets is one; and over the extended reals |x| = max x (-x) is
  below the top element only if x is neither infinity, that is, x is a real number. Hence every entry of every float
  argument is a real number.

  A gather reads each of its result's entries from the operand, at an index that the dimension numbers compute from the
  start indices (clamped so that the slice fits: nothing is filled in). So a gather of an array of real numbers holds
  real numbers only, whatever the index array holds: the looked-up embeddings are real.
-/
import proofs.«175625_j65085934403743_2_alg».proof.Defs
import proofs.«175625_j65085934403743_2_alg».proof.Proof.Gen.Pre_finite_inputs
import proofs.«175625_j65085934403743_2_alg».proof.Proof.MsgLaw
import Idealize.ShloMosaic.Lib.ReduceAll
import Idealize.ShloMosaic.Lib.ValueIdx

noncomputable section

namespace Cert.KernelIdeal.Finite

open Idealize.ShloMosaic Idealize.SL.Sem Cert.MsgPass

/-- The shape without axes has one index. -/
instance : Subsingleton Cert.Pre_finite_inputs.S_.Idx := ⟨fun a b => funext fun d => d.elim0⟩

/-- The f32 pattern of plus infinity denotes the top element. -/
theorem inf_eq_top : Ideal.ofBits .f32 0x7F800000#32 = (⊤ : EReal) := by simp [Ideal.ofBits, Ideal.ieee]

/-- An extended real whose absolute value is below plus infinity is a real number. -/
theorem isReal_of_abs_lt (x : EReal)
    (h : Ideal.cmp .olt (max x (-x)) (Ideal.ofBits .f32 0x7F800000#32) = 1#1) : IsReal x := by
  rw [inf_eq_top] at h
  unfold Ideal.cmp at h
  have hlt : max x (-x) < ⊤ := by
    by_contra hn
    simp [hn] at h
  induction x using EReal.rec with
  | bot => simp at hlt
  | coe r => exact ⟨r, rfl⟩
  | top => simp at hlt

/-- The reduction by `and`, over all axes, of one array's bits `|x| < +inf` (the precondition's spelling) being one:
    every entry of the array is real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : IsReal (x i) :=
  isReal_of_abs_lt (x i) (Host.reduce_andi_all _ _ hr hu _ e i)

variable [hP : Cert.Pre_finite_inputs.Facts]

/-- The nine float arguments of a core hold real numbers only. -/
structure RealArgs (m : (ℓ : Loc nD τ sig) → Buf (Elt Ideal) ℓ) (c : Dev nD) : Prop where
  arg3 : ∀ i, IsReal (m ((c.tc : Thread nD τ).loc main_arg3) i)
  arg4 : ∀ i, IsReal (m ((c.tc : Thread nD τ).loc main_arg4) i)
  arg5 : ∀ i, IsReal (m ((c.tc : Thread nD τ).loc main_arg5) i)
  arg6 : ∀ i, IsReal (m ((c.tc : Thread nD τ).loc main_arg6) i)
  arg7 : ∀ i, IsReal (m ((c.tc : Thread nD τ).loc main_arg7) i)
  arg8 : ∀ i, IsReal (m ((c.tc : Thread nD τ).loc main_arg8) i)
  arg9 : ∀ i, IsReal (m ((c.tc : Thread nD τ).loc main_arg9) i)
  arg10 : ∀ i, IsReal (m ((c.tc : Thread nD τ).loc main_arg10) i)
  arg11 : ∀ i, IsReal (m ((c.tc : Thread nD τ).loc main_arg11) i)

/-- Under the precondition every entry of every float argument is a real number: the predicate's value at its one
    index is the conjunction of the nine reductions, each of which gives its array's entries. -/
theorem real_args (m : (ℓ : Loc nD τ sig) → Buf (Elt Ideal) ℓ) (h : Cert.Pre_KernelIdeal m) (c : Dev nD) : RealArgs m c := by
  have e := congrFun (h c) ValueIdx.ix0
  unfold Cert.Pre_finite_inputs.fn Cert.Pre_finite_inputs.fn_part1 Cert.Pre_finite_inputs.fn_part2 at e
  dsimp only [andi] at e
  simp only [IntOp.andi_eq_one] at e
  obtain ⟨⟨⟨⟨⟨⟨⟨⟨h3, h4⟩, h5⟩, h6⟩, h7⟩, h8⟩, h9⟩, h10⟩, h11⟩ := e
  exact ⟨real_of_all _ _ _ _ h3, real_of_all _ _ _ _ h4, real_of_all _ _ _ _ h5, real_of_all _ _ _ _ h6,
    real_of_all _ _ _ _ h7, real_of_all _ _ _ _ h8, real_of_all _ _ _ _ h9, real_of_all _ _ _ _ h10, real_of_all _ _ _ _ h11⟩

omit hP in
/-- Every entry of a gather is an entry of its operand: a gather of a real array is real, whatever the indices. -/
theorem gather_real_of {s si t : Shape} {w : Nat} (d : GatherDims s si t) (tbl : s.Idx → EReal) (idx : IVec si w)
    (h : ∀ i, IsReal (tbl i)) (j : t.Idx) : IsReal (Host.gather d tbl idx j) :=
  h (d.operandIdx j idx)

omit hP in
/-- The kernel's embedding lookup: rows of a real table are real. -/
theorem gather_real [Cert.KernelIdeal.Facts₀] (tbl : (⟨S32000x128, .f32⟩ : BufTy).Contents (Elt Ideal))
    (idx : (⟨S32x64x1, .i32⟩ : BufTy).Contents (Elt Ideal)) (h : ∀ i, IsReal (tbl i)) :
    ∀ j, IsReal (Host.gather Cert.KernelIdeal.gather_S32000x128_S32x64x1_S32x64x128_2_0_n_n_0_2_1128 tbl idx j) :=
  gather_real_of _ tbl idx h

omit hP in
/-- The reference's embedding lookup, likewise. -/
theorem gather_real_ref [Cert.ReferenceIdeal.Facts₀]
    (tbl : (⟨Cert.ReferenceIdeal.S32000x128, .f32⟩ : BufTy).Contents (Elt Ideal))
    (idx : (⟨Cert.ReferenceIdeal.S32x64x1, .i32⟩ : BufTy).Contents (Elt Ideal)) (h : ∀ i, IsReal (tbl i)) :
    ∀ j, IsReal (Host.gather Cert.ReferenceIdeal.gather_S32000x128_S32x64x1_S32x64x128_2_0_n_n_0_2_1128 tbl idx j) :=
  gather_real_of _ tbl idx h

end Cert.KernelIdeal.Finite

end
-- ==== Proof.lean ====
/-
  The kernel of a graph message-passing network against its jnp reference, over the extended reals.

  Both programs gather the token embeddings E₀ = table[x] and run three rounds of message passing per batch: on every
  ordered pair of nodes (receiver r, sender c) two edge networks (two-layer perceptrons with relu) map the pair's
  features to a message, the two messages are blended by the edge type a[r, c], the blends are summed over the
  senders and added to the receiver's features; the result is node 0's row of every batch.

  The reference contracts the joined 256-vector (sender's features, receiver's features) against the first-layer weights
  and blends as m₀·(1 - a) + m₁·a. The kernel splits that contraction into a sender half and a receiver half (it
  multiplies the embeddings once by the four transposed half-weights packed side by side), and blends as
  m₀ + a·(m₁ - m₀). The split is a re-association of one sum and holds for all extended reals; the two blends agree
  because everything in sight is a real number: the precondition makes the float inputs real, a gathered row is a row
  of the table, an edge type is an integer, and a round keeps real features real (Proof/MsgLaw.lean).

  The pieces: the frames of the two kernel programs (Proof/FrameBits.lean, Proof/FrameIdeal.lean: the grid of 32
  points, one batch each, run against the launch theorem, the arguments unchanged); what the kernel program returns
  (Proof/KRound.lean, Proof/Prefix.lean, Proof/KValue.lean); what the reference returns (its generated run, read round
  by round in Proof/RefRounds.lean); real inputs (Proof/FiniteArgs.lean).
-/
import proofs.«175625_j65085934403743_2_alg».proof.Defs
import proofs.«175625_j65085934403743_2_alg».proof.Proof.Gen.Kernel
import proofs.«175625_j65085934403743_2_alg».proof.Proof.Gen.KernelIdeal
import proofs.«175625_j65085934403743_2_alg».proof.Proof.Gen.ReferenceIdeal
import proofs.«175625_j65085934403743_2_alg».proof.Proof.Gen.Pre_finite_inputs
import proofs.«175625_j65085934403743_2_alg».proof.Proof.Gen.ReferenceIdeal.Run
import proofs.«175625_j65085934403743_2_alg».proof.Proof.Gen.ReferenceIdeal.Read
import proofs.«175625_j65085934403743_2_alg».proof.Proof.FrameBits
import proofs.«175625_j65085934403743_2_alg».proof.Proof.FrameIdeal
import proofs.«175625_j65085934403743_2_alg».proof.Proof.KValue
import proofs.«175625_j65085934403743_2_alg».proof.Proof.RefRounds
import proofs.«175625_j65085934403743_2_alg».proof.Proof.FiniteArgs
import Idealize.ShloMosaic.Adequacy
import Idealize.ShloMosaic.Init

set_option maxRecDepth 16384

noncomputable section

namespace Cert.Proof

open Idealize.ShloMosaic Idealize.ShloMosaic.ValueIdx Idealize.SL.Sem Cert.MsgPass

/-- The two kernel programs run to the end and leave their arguments alone. -/
theorem frame_kernel : Cert.frame_Kernel := fun m ρ _ => Cert.Kernel.Hand.frame m ρ
theorem frame_kernel_ideal : Cert.frame_KernelIdeal := fun m ρ _ => Cert.KernelIdeal.Hand.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- What the reference returns: node 0's rows of three rounds, in its own arrangement, on the gathered embeddings. -/
theorem reference_result (x0 : (⟨Cert.ReferenceIdeal.S32x64, .i32⟩ : BufTy).Contents (Elt Ideal))
    (x1 : (⟨Cert.ReferenceIdeal.S32x64x64, .i32⟩ : BufTy).Contents (Elt Ideal))
    (x3 : (⟨Cert.ReferenceIdeal.S32000x128, .f32⟩ : BufTy).Contents (Elt Ideal))
    (x4 : (⟨Cert.ReferenceIdeal.S256x256, .f32⟩ : BufTy).Contents (Elt Ideal)) (x5 : (⟨Cert.ReferenceIdeal.S256, .f32⟩ : BufTy).Contents (Elt Ideal))
    (x6 : (⟨Cert.ReferenceIdeal.S128x256, .f32⟩ : BufTy).Contents (Elt Ideal)) (x7 : (⟨Cert.ReferenceIdeal.S128, .f32⟩ : BufTy).Contents (Elt Ideal))
    (x8 : (⟨Cert.ReferenceIdeal.S256x256, .f32⟩ : BufTy).Contents (Elt Ideal)) (x9 : (⟨Cert.ReferenceIdeal.S256, .f32⟩ : BufTy).Contents (Elt Ideal))
    (x10 : (⟨Cert.ReferenceIdeal.S128x256, .f32⟩ : BufTy).Contents (Elt Ideal)) (x11 : (⟨Cert.ReferenceIdeal.S128, .f32⟩ : BufTy).Contents (Elt Ideal)) :
    Cert.ReferenceIdeal.Read.val_main_v112 (F := Ideal) x0 x1 x3 x4 x5 x6 x7 x8 x9 x10 x11
      = Cert.KernelIdeal.Hand.nodeZero (threeR (parOfArrays x4 x5 x6 x7 x8 x9 x10 x11) x1 (Cert.KernelIdeal.Hand.gatheredOf x3 x0)) := by
  unfold Cert.ReferenceIdeal.Read.val_main_v112 Cert.ReferenceIdeal.Read.val_main_v111
  rw [Cert.ReferenceIdeal.RefValue.rounds_array]
  rfl

/-- The two idealized programs return the same extended reals from memories that agree on the arguments. -/
theorem algebraic : Cert.algebraic_KernelIdeal_ReferenceIdeal := by
  intro m ρ m' ρ' hpre hagree
  refine ⟨fun c => Cert.KernelIdeal.Hand.nodeZero (Cert.KernelIdeal.Hand.resultArray m c), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  have R := Cert.KernelIdeal.Finite.real_args m hpre c
  rw [Cert.ReferenceIdeal.Read.val_main_v112_eq, a0, a1, a3, a4, a5, a6, a7, a8, a9, a10, a11, reference_result]
  unfold Cert.KernelIdeal.Hand.resultArray
  have hP : (parOfArrays (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).Real :=
    parOf_real _ _ _ _ _ _ _ _ (fun h e => R.arg4 _) (fun h => R.arg5 _) (fun d h => R.arg6 _) (fun d => R.arg7 _)
      (fun h e => R.arg8 _) (fun h => R.arg9 _) (fun d h => R.arg10 _) (fun d => R.arg11 _)
  exact congrArg Cert.KernelIdeal.Hand.nodeZero
    (threeK_eq_threeR hP (m ((c.tc : Thread Cert.KernelIdeal.nD Cert.KernelIdeal.τ).loc Cert.KernelIdeal.main_arg1)) (Cert.KernelIdeal.Finite.gather_real _ _ R.arg3)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
